-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x1x2048x2048 : Shape := ⟨4, ![4, 1, 2048, 2048]⟩
abbrev S1x16x2048x2048 : Shape := ⟨4, ![1, 16, 2048, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_

variable [Facts]

def fn_part1 {F : FTy → Type} [FloatOps F] (main_arg4 : FVec F S1x16x2048x2048 .f32) (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  let main_v19 : FVec F S1x16x2048x2048 .f32 := Host.absf main_arg4
  let main_cst_6 : FVec F S_ .f32 := constant S_ .f32 0x7F800000#32
  let main_v20 : FVec F S1x16x2048x2048 .f32 := broadcastInDim S1x16x2048x2048 ![] bcast_S_S1x16x2048x2048 main_cst_6
  let main_v21 : IVec S1x16x2048x2048 1 := cmpf .olt main_v19 main_v20
  let main_c_7 : IVec S_ 1 := constantI S_ 1 1#1
  let main_v22 : IVec S_ 1 := (fun x v => Host.reduce IntOp.andi x v reducesTo_S1x16x2048x2048_S_d0_1_2_3 h_S_) main_v21 main_c_7
  let main_v23 : IVec S_ 1 := andi main_v18 main_v22
  main_v23

def fn {F : FTy → Type} [FloatOps F] (main_arg0 : FVec F S4x2048x1024 .f32) (main_arg1 : FVec F S4x2048x1024 .f32) (main_arg2 : FVec F S4x2048x1024 .f32) (main_arg3 : FVec F S4x1x2048x2048 .f32) (main_arg4 : FVec F S1x16x2048x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_arg4 main_v13 main_v16
-- ==== Kernel.lean ====
abbrev S4x2048x1024 : Shape := ⟨3, ![4, 2048, 1024]⟩
abbrev S4x1x2048x2048 : Shape := ⟨4, ![4, 1, 2048, 2048]⟩
abbrev S1x16x2048x2048 : Shape := ⟨4, ![1, 16, 2048, 2048]⟩
abbrev S4x256x1024 : Shape := ⟨3, ![4, 256, 1024]⟩
abbrev S4x128x1024 : Shape := ⟨3, ![4, 128, 1024]⟩
abbrev S4x1x256x128 : Shape := ⟨4, ![4, 1, 256, 128]⟩
abbrev S1x16x256x128 : Shape := ⟨4, ![1, 16, 256, 128]⟩
abbrev S4x8x256x128 : Shape := ⟨4, ![4, 8, 256, 128]⟩
abbrev S4x256x16 : Shape := ⟨3, ![4, 256, 16]⟩
abbrev S1x1x256x128 : Shape := ⟨4, ![1, 1, 256, 128]⟩
abbrev S256x128 : Shape := ⟨2, ![256, 128]⟩
abbrev S1x256x64 : Shape := ⟨3, ![1, 256, 64]⟩
abbrev S256x64 : Shape := ⟨2, ![256, 64]⟩
abbrev S1x128x64 : Shape := ⟨3, ![1, 128, 64]⟩
abbrev S128x64 : Shape := ⟨2, ![128, 64]⟩
abbrev S1x256x1 : Shape := ⟨3, ![1, 256, 1]⟩
abbrev S256x1 : Shape := ⟨2, ![256, 1]⟩
abbrev S1x1x256x64 : Shape := ⟨4, ![1, 1, 256, 64]⟩
abbrev S256 : Shape := ⟨1, ![256]⟩
abbrev S1x256x128 : Shape := ⟨3, ![1, 256, 128]⟩

abbrev nBuf : Space → Nat
  | .hbm => 8
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x1x2048x2048, .f32⟩
  | .hbm, ⟨4, _⟩ => ⟨S1x16x2048x2048, .f32⟩
  | .hbm, ⟨5, _⟩ => ⟨S4x2048x1024, .bf16⟩
  | .hbm, ⟨6, _⟩ => ⟨S4x2048x1024, .bf16⟩
  | .hbm, ⟨7, _⟩ => ⟨S4x2048x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S4x128x1024, .bf16⟩
  | .local _ .vmem, ⟨5, _⟩ => ⟨S4x128x1024, .bf16⟩
  | .local _ .vmem, ⟨6, _⟩ => ⟨S4x1x256x128, .f32⟩
  | .local _ .vmem, ⟨7, _⟩ => ⟨S4x1x256x128, .f32⟩
  | .local _ .vmem, ⟨8, _⟩ => ⟨S1x16x256x128, .f32⟩
  | .local _ .vmem, ⟨9, _⟩ => ⟨S1x16x256x128, .f32⟩
  | .local _ .vmem, ⟨10, _⟩ => ⟨S4x256x1024, .f32⟩
  | .local _ .vmem, ⟨11, _⟩ => ⟨S4x256x1024, .f32⟩
  | .local _ .vmem, ⟨12, _⟩ => ⟨S4x8x256x128, .f32⟩
  | .local _ .vmem, ⟨13, _⟩ => ⟨S4x256x16, .f32⟩
  | .local _ .vmem, ⟨14, _⟩ => ⟨S4x256x16, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v2955 : BitVec 1 := Scalar.cmpi .eq arg1 c15_i32
  let v2956 : BitVec 32 := Scalar.extui v2955
  let c0_i32_2417 : BitVec 32 := 0#32
  let v2957 : BitVec 1 := Scalar.cmpi .ne v2956 c0_i32_2417
  v2957

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S4x8x256x128_S4x8x256x128_0_0_0_0 : ∀ a, (![0, 0, 0, 0] : Fin 4 → Nat) a + S4x8x256x128.size a ≤ S4x8x256x128.size a
  h_S4x8x256x128 : 0 < S4x8x256x128.numel
  shapeCasts_S4x8x256x128_S4x8x256x128 : S4x8x256x128.ShapeCasts S4x8x256x128
  inb_S4x256x16_S4x256x16_0_0_0 : ∀ a, (![0, 0, 0] : Fin 3 → Nat) a + S4x256x16.size a ≤ S4x256x16.size a
  h_S4x256x16 : 0 < S4x256x16.numel
  shapeCasts_S4x256x16_S4x256x16 : S4x256x16.ShapeCasts S4x256x16
  inb_S4x1x256x128_S1x1x256x128_0_0_0_0 : ∀ a, (![0, 0, 0, 0] : Fin 4 → Nat) a + S1x1x256x128.size a ≤ S4x1x256x128.size a
  h_S1x1x256x128 : 0 < S1x1x256x128.numel
  shapeCasts_S1x1x256x128_S256x128 : S1x1x256x128.ShapeCasts S256x128
  inb_S4x256x1024_S1x256x64_0_0_0 : ∀ a, (![0, 0, 0] : Fin 3 → Nat) a + S1x256x64.size a ≤ S4x256x1024.size a
  h_S1x256x64 : 0 < S1x256x64.numel
  shapeCasts_S1x256x64_S256x64 : S1x256x64.ShapeCasts S256x64
  inb_S4x128x1024_S1x128x64_0_0_0 : ∀ a, (![0, 0, 0] : Fin 3 → Nat) a + S1x128x64.size a ≤ S4x128x1024.size a
  h_S1x128x64 : 0 < S1x128x64.numel
  shapeCasts_S1x128x64_S128x64 : S1x128x64.ShapeCasts S128x64
  inb_S1x16x256x128_S1x1x256x128_0_0_0_0 : ∀ a, (![0, 0, 0, 0] : Fin 4 → Nat) a + S1x1x256x128.size a ≤ S1x16x256x128.size a
  inb_S4x256x16_S1x256x1_0_0_0 : ∀ a, (![0, 0, 0] : Fin 3 → Nat) a + S1x256x1.size a ≤ S4x256x16.size a
  h_S1x256x1 : 0 < S1x256x1.numel
  shapeCasts_S1x256x1_S256x1 : S1x256x1.ShapeCasts S256x1
  inb_S4x8x256x128_S1x1x256x64_0_0_0_0 : ∀ a, (![0, 0, 0, 0] : Fin 4 → Nat) a + S1x1x256x64.size a ≤ S4x8x256x128.size a
  h_S1x1x256x64 : 0 < S1x1x256x64.numel
  shapeCasts_S1x1x256x64_S256x64 : S1x1x256x64.ShapeCasts S256x64
  reduces_S256x128_S256 : S256x128.Reduces [1] S256
  shapeCasts_S256_S256x1 : S256.ShapeCasts S256x1
  broadcasts_S256x1_S256x128 : S256x1.Broadcasts S256x128
  broadcasts_S256x1_S256x64 : S256x1.Broadcasts S256x64
  shapeCasts_S256x64_S1x1x256x64 : S256x64.ShapeCasts S1x1x256x64
  shapeCasts_S256x1_S1x256x1 : S256x1.ShapeCasts S1x256x1
  inb_S4x256x1024_S1x256x64_0_0_64 : ∀ a, (![0, 0, 64] : Fin 3 → Nat) a + S1x256x64.size a ≤ S4x256x1024.size a
  inb_S4x128x1024_S1x128x64_0_0_64 : ∀ a, (![0, 0, 64] : Fin 3 → Nat) a + S1x128x64.size a ≤ S4x128x1024.size a
  inb_S1x16x256x128_S1x1x256x128_0_1_0_0 : ∀ a, (![0, 1, 0, 0] : Fin 4 → Nat) a + S1x1x256x128.size a ≤ S1x16x256x128.size a
  inb_S4x256x16_S1x256x1_0_0_1 : ∀ a, (![0, 0, 1] : Fin 3 → Nat) a + S1x256x1.size a ≤ S4x256x16.size a
  inb_S4x8x256x128_S1x1x256x64_0_0_0_64 : ∀ a, (![0, 0, 0, 64] : Fin 4 → Nat) a + S1x1x256x64.size a ≤ S4x8x256x128.size a
  inb_S4x256x1024_S1x256x64_0_0_128 : ∀ a, (![0, 0, 128] : Fin 3 → Nat) a + S1x256x64.size a ≤ S4x256x1024.size a
  inb_S4x128x1024_S1x128x64_0_0_128 : ∀ a, (![0, 0, 128] : Fin 3 → Nat) a + S1x128x64.size a ≤ S4x128x1024.size a
  inb_S1x16x256x128_S1x1x256x128_0_2_0_0 : ∀ a, (![0, 2, 0, 0] : Fin 4 → Nat) a + S1x1x256x128.size a ≤ S1x16x256x128.size a
  inb_S4x256x16_S1x256x1_0_0_2 : ∀ a, (![0, 0, 2] : Fin 3 → Nat) a + S1x256x1.size a ≤ S4x256x16.size a
  inb_S4x8x256x128_S1x1x256x64_0_1_0_0 : ∀ a, (![0, 1, 0, 0] : Fin 4 → Nat) a + S1x1x256x64.size a ≤ S4x8x256x128.size a
  inb_S4x256x1024_S1x256x64_0_0_192 : ∀ a, (![0, 0, 192] : Fin 3 → Nat) a + S1x256x64.size a ≤ S4x256x1024.size a
  inb_S4x128x1024_S1x128x64_0_0_192 : ∀ a, (![0, 0, 192] : Fin 3 → Nat) a + S1x128x64.size a ≤ S4x128x1024.size a
  inb_S1x16x256x128_S1x1x256x128_0_3_0_0 : ∀ a, (![0, 3, 0, 0] : Fin 4 → Nat) a + S1x1x256x128.size a ≤ S1x16x256x128.size a
  inb_S4x256x16_S1x256x1_0_0_3 : ∀ a, (![0, 0, 3] : Fin 3 → Nat) a + S1x256x1.size a ≤ S4x256x16.size a
  inb_S4x8x256x128_S1x1x256x64_0_1_0_64 : ∀ a, (![0, 1, 0, 64] : Fin 4 → Nat) a + S1x1x256x64.size a ≤ S4x8x256x128.size a
  inb_S4x256x1024_S1x256x64_0_0_256 : ∀ a, (![0, 0, 256] : Fin 3 → Nat) a + S1x256x64.size a ≤ S4x256x1024.size a
  inb_S4x128x1024_S1x128x64_0_0_256 : ∀ a, (![0, 0, 256] : Fin 3 → Nat) a + S1x128x64.size a ≤ S4x128x1024.size a
  inb_S1x16x256x128_S1x1x256x128_0_4_0_0 : ∀ a, (![0, 4, 0, 0] : Fin 4 → Nat) a + S1x1x256x128.size a ≤ S1x16x256x128.size a
  inb_S4x256x16_S1x256x1_0_0_4 : ∀ a, (![0, 0, 4] : Fin 3 → Nat) a + S1x256x1.size a ≤ S4x256x16.size a
  inb_S4x8x256x128_S1x1x256x64_0_2_0_0 : ∀ a, (![0, 2, 0, 0] : Fin 4 → Nat) a + S1x1x256x64.size a ≤ S4x8x256x128.size a
  inb_S4x256x1024_S1x256x64_0_0_320 : ∀ a, (![0, 0, 320] : Fin 3 → Nat) a + S1x256x64.size a ≤ S4x256x1024.size a
  inb_S4x128x1024_S1x128x64_0_0_320 : ∀ a, (![0, 0, 320] : Fin 3 → Nat) a + S1x128x64.size a ≤ S4x128x1024.size a
  inb_S1x16x256x128_S1x1x256x128_0_5_0_0 : ∀ a, (![0, 5, 0, 0] : Fin 4 → Nat) a + S1x1x256x128.size a ≤ S1x16x256x128.size a
  inb_S4x256x16_S1x256x1_0_0_5 : ∀ a, (![0, 0, 5] : Fin 3 → Nat) a + S1x256x1.size a ≤ S4x256x16.size a
  inb_S4x8x256x128_S1x1x256x64_0_2_0_64 : ∀ a, (![0, 2, 0, 64] : Fin 4 → Nat) a + S1x1x256x64.size a ≤ S4x8x256x128.size a
  inb_S4x256x1024_S1x256x64_0_0_384 : ∀ a, (![0, 0, 384] : Fin 3 → Nat) a + S1x256x64.size a ≤ S4x256x1024.size a
  inb_S4x128x1024_S1x128x64_0_0_384 : ∀ a, (![0, 0, 384] : Fin 3 → Nat) a + S1x128x64.size a ≤ S4x128x1024.size a
  inb_S1x16x256x128_S1x1x256x128_0_6_0_0 : ∀ a, (![0, 6, 0, 0] : Fin 4 → Nat) a + S1x1x256x128.size a ≤ S1x16x256x128.size a
  inb_S4x256x16_S1x256x1_0_0_6 : ∀ a, (![0, 0, 6] : Fin 3 → Nat) a + S1x256x1.size a ≤ S4x256x16.size a
  inb_S4x8x256x128_S1x1x256x64_0_3_0_0 : ∀ a, (![0, 3, 0, 0] : Fin 4 → Nat) a + S1x1x256x64.size a ≤ S4x8x256x128.size a
  inb_S4x256x1024_S1x256x64_0_0_448 : ∀ a, (![0, 0, 448] : Fin 3 → Nat) a + S1x256x64.size a ≤ S4x256x1024.size a
  inb_S4x128x1024_S1x128x64_0_0_448 : ∀ a, (![0, 0, 448] : Fin 3 → Nat) a + S1x128x64.size a ≤ S4x128x1024.size a
  inb_S1x16x256x128_S1x1x256x128_0_7_0_0 : ∀ a, (![0, 7, 0, 0] : Fin 4 → Nat) a + S1x1x256x128.size a ≤ S1x16x256x128.size a
  inb_S4x256x16_S1x256x1_0_0_7 : ∀ a, (![0, 0, 7] : Fin 3 → Nat) a + S1x256x1.size a ≤ S4x256x16.size a
  inb_S4x8x256x128_S1x1x256x64_0_3_0_64 : ∀ a, (![0, 3, 0, 64] : Fin 4 → Nat) a + S1x1x256x64.size a ≤ S4x8x256x128.size a
  inb_S4x256x1024_S1x256x64_0_0_512 : ∀ a, (![0, 0, 512] : Fin 3 → Nat) a + S1x256x64.size a ≤ S4x256x1024.size a
  inb_S4x128x1024_S1x128x64_0_0_512 : ∀ a, (![0, 0, 512] : Fin 3 → Nat) a + S1x128x64.size a ≤ S4x128x1024.size a
  inb_S1x16x256x128_S1x1x256x128_0_8_0_0 : ∀ a, (![0, 8, 0, 0] : Fin 4 → Nat) a + S1x1x256x128.size a ≤ S1x16x256x128.size a
  inb_S4x256x16_S1x256x1_0_0_8 : ∀ a, (![0, 0, 8] : Fin 3 → Nat) a + S1x256x1.size a ≤ S4x256x16.size a
  inb_S4x8x256x128_S1x1x256x64_0_4_0_0 : ∀ a, (![0, 4, 0, 0] : Fin 4 → Nat) a + S1x1x256x64.size a ≤ S4x8x256x128.size a
  inb_S4x256x1024_S1x256x64_0_0_576 : ∀ a, (![0, 0, 576] : Fin 3 → Nat) a + S1x256x64.size a ≤ S4x256x1024.size a
  inb_S4x128x1024_S1x128x64_0_0_576 : ∀ a, (![0, 0, 576] : Fin 3 → Nat) a + S1x128x64.size a ≤ S4x128x1024.size a
  inb_S1x16x256x128_S1x1x256x128_0_9_0_0 : ∀ a, (![0, 9, 0, 0] : Fin 4 → Nat) a + S1x1x256x128.size a ≤ S1x16x256x128.size a
  inb_S4x256x16_S1x256x1_0_0_9 : ∀ a, (![0, 0, 9] : Fin 3 → Nat) a + S1x256x1.size a ≤ S4x256x16.size a
  inb_S4x8x256x128_S1x1x256x64_0_4_0_64 : ∀ a, (![0, 4, 0, 64] : Fin 4 → Nat) a + S1x1x256x64.size a ≤ S4x8x256x128.size a
  inb_S4x256x1024_S1x256x64_0_0_640 : ∀ a, (![0, 0, 640] : Fin 3 → Nat) a + S1x256x64.size a ≤ S4x256x1024.size a
  inb_S4x128x1024_S1x128x64_0_0_640 : ∀ a, (![0, 0, 640] : Fin 3 → Nat) a + S1x128x64.size a ≤ S4x128x1024.size a
  inb_S1x16x256x128_S1x1x256x128_0_10_0_0 : ∀ a, (![0, 10, 0, 0] : Fin 4 → Nat) a + S1x1x256x128.size a ≤ S1x16x256x128.size a
  inb_S4x256x16_S1x256x1_0_0_10 : ∀ a, (![0, 0, 10] : Fin 3 → Nat) a + S1x256x1.size a ≤ S4x256x16.size a
  inb_S4x8x256x128_S1x1x256x64_0_5_0_0 : ∀ a, (![0, 5, 0, 0] : Fin 4 → Nat) a + S1x1x256x64.size a ≤ S4x8x256x128.size a
  inb_S4x256x1024_S1x256x64_0_0_704 : ∀ a, (![0, 0, 704] : Fin 3 → Nat) a + S1x256x64.size a ≤ S4x256x1024.size a
  inb_S4x128x1024_S1x128x64_0_0_704 : ∀ a, (![0, 0, 704] : Fin 3 → Nat) a + S1x128x64.size a ≤ S4x128x1024.size a
  inb_S1x16x256x128_S1x1x256x128_0_11_0_0 : ∀ a, (![0, 11, 0, 0] : Fin 4 → Nat) a + S1x1x256x128.size a ≤ S1x16x256x128.size a
  inb_S4x256x16_S1x256x1_0_0_11 : ∀ a, (![0, 0, 11] : Fin 3 → Nat) a + S1x256x1.size a ≤ S4x256x16.size a
  inb_S4x8x256x128_S1x1x256x64_0_5_0_64 : ∀ a, (![0, 5, 0, 64] : Fin 4 → Nat) a + S1x1x256x64.size a ≤ S4x8x256x128.size a
  inb_S4x256x1024_S1x256x64_0_0_768 : ∀ a, (![0, 0, 768] : Fin 3 → Nat) a + S1x256x64.size a ≤ S4x256x1024.size a
  inb_S4x128x1024_S1x128x64_0_0_768 : ∀ a, (![0, 0, 768] : Fin 3 → Nat) a + S1x128x64.size a ≤ S4x128x1024.size a
  inb_S1x16x256x128_S1x1x256x128_0_12_0_0 : ∀ a, (![0, 12, 0, 0] : Fin 4 → Nat) a + S1x1x256x128.size a ≤ S1x16x256x128.size a
  inb_S4x256x16_S1x256x1_0_0_12 : ∀ a, (![0, 0, 12] : Fin 3 → Nat) a + S1x256x1.size a ≤ S4x256x16.size a
  inb_S4x8x256x128_S1x1x256x64_0_6_0_0 : ∀ a, (![0, 6, 0, 0] : Fin 4 → Nat) a + S1x1x256x64.size a ≤ S4x8x256x128.size a
  inb_S4x256x1024_S1x256x64_0_0_832 : ∀ a, (![0, 0, 832] : Fin 3 → Nat) a + S1x256x64.size a ≤ S4x256x1024.size a
  inb_S4x128x1024_S1x128x64_0_0_832 : ∀ a, (![0, 0, 832] : Fin 3 → Nat) a + S1x128x64.size a ≤ S4x128x1024.size a
  inb_S1x16x256x128_S1x1x256x128_0_13_0_0 : ∀ a, (![0, 13, 0, 0] : Fin 4 → Nat) a + S1x1x256x128.size a ≤ S1x16x256x128.size a
  inb_S4x256x16_S1x256x1_0_0_13 : ∀ a, (![0, 0, 13] : Fin 3 → Nat) a + S1x256x1.size a ≤ S4x256x16.size a
  inb_S4x8x256x128_S1x1x256x64_0_6_0_64 : ∀ a, (![0, 6, 0, 64] : Fin 4 → Nat) a + S1x1x256x64.size a ≤ S4x8x256x128.size a
  inb_S4x256x1024_S1x256x64_0_0_896 : ∀ a, (![0, 0, 896] : Fin 3 → Nat) a + S1x256x64.size a ≤ S4x256x1024.size a
  inb_S4x128x1024_S1x128x64_0_0_896 : ∀ a, (![0, 0, 896] : Fin 3 → Nat) a + S1x128x64.size a ≤ S4x128x1024.size a
  inb_S1x16x256x128_S1x1x256x128_0_14_0_0 : ∀ a, (![0, 14, 0, 0] : Fin 4 → Nat) a + S1x1x256x128.size a ≤ S1x16x256x128.size a
  inb_S4x256x16_S1x256x1_0_0_14 : ∀ a, (![0, 0, 14] : Fin 3 → Nat) a + S1x256x1.size a ≤ S4x256x16.size a
  inb_S4x8x256x128_S1x1x256x64_0_7_0_0 : ∀ a, (![0, 7, 0, 0] : Fin 4 → Nat) a + S1x1x256x64.size a ≤ S4x8x256x128.size a
  inb_S4x256x1024_S1x256x64_0_0_960 : ∀ a, (![0, 0, 960] : Fin 3 → Nat) a + S1x256x64.size a ≤ S4x256x1024.size a
  inb_S4x128x1024_S1x128x64_0_0_960 : ∀ a, (![0, 0, 960] : Fin 3 → Nat) a + S1x128x64.size a ≤ S4x128x1024.size a
  inb_S1x16x256x128_S1x1x256x128_0_15_0_0 : ∀ a, (![0, 15, 0, 0] : Fin 4 → Nat) a + S1x1x256x128.size a ≤ S1x16x256x128.size a
  inb_S4x256x16_S1x256x1_0_0_15 : ∀ a, (![0, 0, 15] : Fin 3 → Nat) a + S1x256x1.size a ≤ S4x256x16.size a
  inb_S4x8x256x128_S1x1x256x64_0_7_0_64 : ∀ a, (![0, 7, 0, 64] : Fin 4 → Nat) a + S1x1x256x64.size a ≤ S4x8x256x128.size a
  inb_S4x1x256x128_S1x1x256x128_1_0_0_0 : ∀ a, (![1, 0, 0, 0] : Fin 4 → Nat) a + S1x1x256x128.size a ≤ S4x1x256x128.size a
  inb_S4x256x1024_S1x256x64_1_0_0 : ∀ a, (![1, 0, 0] : Fin 3 → Nat) a + S1x256x64.size a ≤ S4x256x1024.size a
  inb_S4x128x1024_S1x128x64_1_0_0 : ∀ a, (![1, 0, 0] : Fin 3 → Nat) a + S1x128x64.size a ≤ S4x128x1024.size a
  inb_S4x256x16_S1x256x1_1_0_0 : ∀ a, (![1, 0, 0] : Fin 3 → Nat) a + S1x256x1.size a ≤ S4x256x16.size a
  inb_S4x8x256x128_S1x1x256x64_1_0_0_0 : ∀ a, (![1, 0, 0, 0] : Fin 4 → Nat) a + S1x1x256x64.size a ≤ S4x8x256x128.size a
  inb_S4x256x1024_S1x256x64_1_0_64 : ∀ a, (![1, 0, 64] : Fin 3 → Nat) a + S1x256x64.size a ≤ S4x256x1024.size a
  inb_S4x128x1024_S1x128x64_1_0_64 : ∀ a, (![1, 0, 64] : Fin 3 → Nat) a + S1x128x64.size a ≤ S4x128x1024.size a
  inb_S4x256x16_S1x256x1_1_0_1 : ∀ a, (![1, 0, 1] : Fin 3 → Nat) a + S1x256x1.size a ≤ S4x256x16.size a
  inb_S4x8x256x128_S1x1x256x64_1_0_0_64 : ∀ a, (![1, 0, 0, 64] : Fin 4 → Nat) a + S1x1x256x64.size a ≤ S4x8x256x128.size a
  inb_S4x256x1024_S1x256x64_1_0_128 : ∀ a, (![1, 0, 128] : Fin 3 → Nat) a + S1x256x64.size a ≤ S4x256x1024.size a
  inb_S4x128x1024_S1x128x64_1_0_128 : ∀ a, (![1, 0, 128] : Fin 3 → Nat) a + S1x128x64.size a ≤ S4x128x1024.size a
  inb_S4x256x16_S1x256x1_1_0_2 : ∀ a, (![1, 0, 2] : Fin 3 → Nat) a + S1x256x1.size a ≤ S4x256x16.size a
  inb_S4x8x256x128_S1x1x256x64_1_1_0_0 : ∀ a, (![1, 1, 0, 0] : Fin 4 → Nat) a + S1x1x256x64.size a ≤ S4x8x256x128.size a
  inb_S4x256x1024_S1x256x64_1_0_192 : ∀ a, (![1, 0, 192] : Fin 3 → Nat) a + S1x256x64.size a ≤ S4x256x1024.size a
  inb_S4x128x1024_S1x128x64_1_0_192 : ∀ a, (![1, 0, 192] : Fin 3 → Nat) a + S1x128x64.size a ≤ S4x128x1024.size a
  inb_S4x256x16_S1x256x1_1_0_3 : ∀ a, (![1, 0, 3] : Fin 3 → Nat) a + S1x256x1.size a ≤ S4x256x16.size a
  inb_S4x8x256x128_S1x1x256x64_1_1_0_64 : ∀ a, (![1, 1, 0, 64] : Fin 4 → Nat) a + S1x1x256x64.size a ≤ S4x8x256x128.size a
  inb_S4x256x1024_S1x256x64_1_0_256 : ∀ a, (![1, 0, 256] : Fin 3 → Nat) a + S1x256x64.size a ≤ S4x256x1024.size a
  inb_S4x128x1024_S1x128x64_1_0_256 : ∀ a, (![1, 0, 256] : Fin 3 → Nat) a + S1x128x64.size a ≤ S4x128x1024.size a
  inb_S4x256x16_S1x256x1_1_0_4 : ∀ a, (![1, 0, 4] : Fin 3 → Nat) a + S1x256x1.size a ≤ S4x256x16.size a
  inb_S4x8x256x128_S1x1x256x64_1_2_0_0 : ∀ a, (![1, 2, 0, 0] : Fin 4 → Nat) a + S1x1x256x64.size a ≤ S4x8x256x128.size a
  inb_S4x256x1024_S1x256x64_1_0_320 : ∀ a, (![1, 0, 320] : Fin 3 → Nat) a + S1x256x64.size a ≤ S4x256x1024.size a
  inb_S4x128x1024_S1x128x64_1_0_320 : ∀ a, (![1, 0, 320] : Fin 3 → Nat) a + S1x128x64.size a ≤ S4x128x1024.size a
  inb_S4x256x16_S1x256x1_1_0_5 : ∀ a, (![1, 0, 5] : Fin 3 → Nat) a + S1x256x1.size a ≤ S4x256x16.size a
  inb_S4x8x256x128_S1x1x256x64_1_2_0_64 : ∀ a, (![1, 2, 0, 64] : Fin 4 → Nat) a + S1x1x256x64.size a ≤ S4x8x256x128.size a
  inb_S4x256x1024_S1x256x64_1_0_384 : ∀ a, (![1, 0, 384] : Fin 3 → Nat) a + S1x256x64.size a ≤ S4x256x1024.size a
  inb_S4x128x1024_S1x128x64_1_0_384 : ∀ a, (![1, 0, 384] : Fin 3 → Nat) a + S1x128x64.size a ≤ S4x128x1024.size a
  inb_S4x256x16_S1x256x1_1_0_6 : ∀ a, (![1, 0, 6] : Fin 3 → Nat) a + S1x256x1.size a ≤ S4x256x16.size a
  inb_S4x8x256x128_S1x1x256x64_1_3_0_0 : ∀ a, (![1, 3, 0, 0] : Fin 4 → Nat) a + S1x1x256x64.size a ≤ S4x8x256x128.size a
  inb_S4x256x1024_S1x256x64_1_0_448 : ∀ a, (![1, 0, 448] : Fin 3 → Nat) a + S1x256x64.size a ≤ S4x256x1024.size a
  inb_S4x128x1024_S1x128x64_1_0_448 : ∀ a, (![1, 0, 448] : Fin 3 → Nat) a + S1x128x64.size a ≤ S4x128x1024.size a
  inb_S4x256x16_S1x256x1_1_0_7 : ∀ a, (![1, 0, 7] : Fin 3 → Nat) a + S1x256x1.size a ≤ S4x256x16.size a
  inb_S4x8x256x128_S1x1x256x64_1_3_0_64 : ∀ a, (![1, 3, 0, 64] : Fin 4 → Nat) a + S1x1x256x64.size a ≤ S4x8x256x128.size a
  inb_S4x256x1024_S1x256x64_1_0_512 : ∀ a, (![1, 0, 512] : Fin 3 → Nat) a + S1x256x64.size a ≤ S4x256x1024.size a
  inb_S4x128x1024_S1x128x64_1_0_512 : ∀ a, (![1, 0, 512] : Fin 3 → Nat) a + S1x128x64.size a ≤ S4x128x1024.size a
  inb_S4x256x16_S1x256x1_1_0_8 : ∀ a, (![1, 0, 8] : Fin 3 → Nat) a + S1x256x1.size a ≤ S4x256x16.size a
  inb_S4x8x256x128_S1x1x256x64_1_4_0_0 : ∀ a, (![1, 4, 0, 0] : Fin 4 → Nat) a + S1x1x256x64.size a ≤ S4x8x256x128.size a
  inb_S4x256x1024_S1x256x64_1_0_576 : ∀ a, (![1, 0, 576] : Fin 3 → Nat) a + S1x256x64.size a ≤ S4x256x1024.size a
  inb_S4x128x1024_S1x128x64_1_0_576 : ∀ a, (![1, 0, 576] : Fin 3 → Nat) a + S1x128x64.size a ≤ S4x128x1024.size a
  inb_S4x256x16_S1x256x1_1_0_9 : ∀ a, (![1, 0, 9] : Fin 3 → Nat) a + S1x256x1.size a ≤ S4x256x16.size a
  inb_S4x8x256x128_S1x1x256x64_1_4_0_64 : ∀ a, (![1, 4, 0, 64] : Fin 4 → Nat) a + S1x1x256x64.size a ≤ S4x8x256x128.size a
  inb_S4x256x1024_S1x256x64_1_0_640 : ∀ a, (![1, 0, 640] : Fin 3 → Nat) a + S1x256x64.size a ≤ S4x256x1024.size a
  inb_S4x128x1024_S1x128x64_1_0_640 : ∀ a, (![1, 0, 640] : Fin 3 → Nat) a + S1x128x64.size a ≤ S4x128x1024.size a
  inb_S4x256x16_S1x256x1_1_0_10 : ∀ a, (![1, 0, 10] : Fin 3 → Nat) a + S1x256x1.size a ≤ S4x256x16.size a
  inb_S4x8x256x128_S1x1x256x64_1_5_0_0 : ∀ a, (![1, 5, 0, 0] : Fin 4 → Nat) a + S1x1x256x64.size a ≤ S4x8x256x128.size a
  inb_S4x256x1024_S1x256x64_1_0_704 : ∀ a, (![1, 0, 704] : Fin 3 → Nat) a + S1x256x64.size a ≤ S4x256x1024.size a
  inb_S4x128x1024_S1x128x64_1_0_704 : ∀ a, (![1, 0, 704] : Fin 3 → Nat) a + S1x128x64.size a ≤ S4x128x1024.size a
  inb_S4x256x16_S1x256x1_1_0_11 : ∀ a, (![1, 0, 11] : Fin 3 → Nat) a + S1x256x1.size a ≤ S4x256x16.size a
  inb_S4x8x256x128_S1x1x256x64_1_5_0_64 : ∀ a, (![1, 5, 0, 64] : Fin 4 → Nat) a + S1x1x256x64.size a ≤ S4x8x256x128.size a
  inb_S4x256x1024_S1x256x64_1_0_768 : ∀ a, (![1, 0, 768] : Fin 3 → Nat) a + S1x256x64.size a ≤ S4x256x1024.size a
  inb_S4x128x1024_S1x128x64_1_0_768 : ∀ a, (![1, 0, 768] : Fin 3 → Nat) a + S1x128x64.size a ≤ S4x128x1024.size a
  inb_S4x256x16_S1x256x1_1_0_12 : ∀ a, (![1, 0, 12] : Fin 3 → Nat) a + S1x256x1.size a ≤ S4x256x16.size a
  inb_S4x8x256x128_S1x1x256x64_1_6_0_0 : ∀ a, (![1, 6, 0, 0] : Fin 4 → Nat) a + S1x1x256x64.size a ≤ S4x8x256x128.size a
  inb_S4x256x1024_S1x256x64_1_0_832 : ∀ a, (![1, 0, 832] : Fin 3 → Nat) a + S1x256x64.size a ≤ S4x256x1024.size a
  inb_S4x128x1024_S1x128x64_1_0_832 : ∀ a, (![1, 0, 832] : Fin 3 → Nat) a + S1x128x64.size a ≤ S4x128x1024.size a
  inb_S4x256x16_S1x256x1_1_0_13 : ∀ a, (![1, 0, 13] : Fin 3 → Nat) a + S1x256x1.size a ≤ S4x256x16.size a
  inb_S4x8x256x128_S1x1x256x64_1_6_0_64 : ∀ a, (![1, 6, 0, 64] : Fin 4 → Nat) a + S1x1x256x64.size a ≤ S4x8x256x128.size a
  inb_S4x256x1024_S1x256x64_1_0_896 : ∀ a, (![1, 0, 896] : Fin 3 → Nat) a + S1x256x64.size a ≤ S4x256x1024.size a
  inb_S4x128x1024_S1x128x64_1_0_896 : ∀ a, (![1, 0, 896] : Fin 3 → Nat) a + S1x128x64.size a ≤ S4x128x1024.size a
  inb_S4x256x16_S1x256x1_1_0_14 : ∀ a, (![1, 0, 14] : Fin 3 → Nat) a + S1x256x1.size a ≤ S4x256x16.size a
  inb_S4x8x256x128_S1x1x256x64_1_7_0_0 : ∀ a, (![1, 7, 0, 0] : Fin 4 → Nat) a + S1x1x256x64.size a ≤ S4x8x256x128.size a
  inb_S4x256x1024_S1x256x64_1_0_960 : ∀ a, (![1, 0, 960] : Fin 3 → Nat) a + S1x256x64.size a ≤ S4x256x1024.size a
  inb_S4x128x1024_S1x128x64_1_0_960 : ∀ a, (![1, 0, 960] : Fin 3 → Nat) a + S1x128x64.size a ≤ S4x128x1024.size a
  inb_S4x256x16_S1x256x1_1_0_15 : ∀ a, (![1, 0, 15] : Fin 3 → Nat) a + S1x256x1.size a ≤ S4x256x16.size a
  inb_S4x8x256x128_S1x1x256x64_1_7_0_64 : ∀ a, (![1, 7, 0, 64] : Fin 4 → Nat) a + S1x1x256x64.size a ≤ S4x8x256x128.size a
  inb_S4x1x256x128_S1x1x256x128_2_0_0_0 : ∀ a, (![2, 0, 0, 0] : Fin 4 → Nat) a + S1x1x256x128.size a ≤ S4x1x256x128.size a
  inb_S4x256x1024_S1x256x64_2_0_0 : ∀ a, (![2, 0, 0] : Fin 3 → Nat) a + S1x256x64.size a ≤ S4x256x1024.size a
  inb_S4x128x1024_S1x128x64_2_0_0 : ∀ a, (![2, 0, 0] : Fin 3 → Nat) a + S1x128x64.size a ≤ S4x128x1024.size a
  inb_S4x256x16_S1x256x1_2_0_0 : ∀ a, (![2, 0, 0] : Fin 3 → Nat) a + S1x256x1.size a ≤ S4x256x16.size a
  inb_S4x8x256x128_S1x1x256x64_2_0_0_0 : ∀ a, (![2, 0, 0, 0] : Fin 4 → Nat) a + S1x1x256x64.size a ≤ S4x8x256x128.size a
  inb_S4x256x1024_S1x256x64_2_0_64 : ∀ a, (![2, 0, 64] : Fin 3 → Nat) a + S1x256x64.size a ≤ S4x256x1024.size a
  inb_S4x128x1024_S1x128x64_2_0_64 : ∀ a, (![2, 0, 64] : Fin 3 → Nat) a + S1x128x64.size a ≤ S4x128x1024.size a
  inb_S4x256x16_S1x256x1_2_0_1 : ∀ a, (![2, 0, 1] : Fin 3 → Nat) a + S1x256x1.size a ≤ S4x256x16.size a
  inb_S4x8x256x128_S1x1x256x64_2_0_0_64 : ∀ a, (![2, 0, 0, 64] : Fin 4 → Nat) a + S1x1x256x64.size a ≤ S4x8x256x128.size a
  inb_S4x256x1024_S1x256x64_2_0_128 : ∀ a, (![2, 0, 128] : Fin 3 → Nat) a + S1x256x64.size a ≤ S4x256x1024.size a
  inb_S4x128x1024_S1x128x64_2_0_128 : ∀ a, (![2, 0, 128] : Fin 3 → Nat) a + S1x128x64.size a ≤ S4x128x1024.size a
  inb_S4x256x16_S1x256x1_2_0_2 : ∀ a, (![2, 0, 2] : Fin 3 → Nat) a + S1x256x1.size a ≤ S4x256x16.size a
  inb_S4x8x256x128_S1x1x256x64_2_1_0_0 : ∀ a, (![2, 1, 0, 0] : Fin 4 → Nat) a + S1x1x256x64.size a ≤ S4x8x256x128.size a
  inb_S4x256x1024_S1x256x64_2_0_192 : ∀ a, (![2, 0, 192] : Fin 3 → Nat) a + S1x256x64.size a ≤ S4x256x1024.size a
  inb_S4x128x1024_S1x128x64_2_0_192 : ∀ a, (![2, 0, 192] : Fin 3 → Nat) a + S1x128x64.size a ≤ S4x128x1024.size a
  inb_S4x256x16_S1x256x1_2_0_3 : ∀ a, (![2, 0, 3] : Fin 3 → Nat) a + S1x256x1.size a ≤ S4x256x16.size a
  inb_S4x8x256x128_S1x1x256x64_2_1_0_64 : ∀ a, (![2, 1, 0, 64] : Fin 4 → Nat) a + S1x1x256x64.size a ≤ S4x8x256x128.size a
  inb_S4x256x1024_S1x256x64_2_0_256 : ∀ a, (![2, 0, 256] : Fin 3 → Nat) a + S1x256x64.size a ≤ S4x256x1024.size a
  inb_S4x128x1024_S1x128x64_2_0_256 : ∀ a, (![2, 0, 256] : Fin 3 → Nat) a + S1x128x64.size a ≤ S4x128x1024.size a
  inb_S4x256x16_S1x256x1_2_0_4 : ∀ a, (![2, 0, 4] : Fin 3 → Nat) a + S1x256x1.size a ≤ S4x256x16.size a
  inb_S4x8x256x128_S1x1x256x64_2_2_0_0 : ∀ a, (![2, 2, 0, 0] : Fin 4 → Nat) a + S1x1x256x64.size a ≤ S4x8x256x128.size a
  inb_S4x256x1024_S1x256x64_2_0_320 : ∀ a, (![2, 0, 320] : Fin 3 → Nat) a + S1x256x64.size a ≤ S4x256x1024.size a
  inb_S4x128x1024_S1x128x64_2_0_320 : ∀ a, (![2, 0, 320] : Fin 3 → Nat) a + S1x128x64.size a ≤ S4x128x1024.size a
  inb_S4x256x16_S1x256x1_2_0_5 : ∀ a, (![2, 0, 5] : Fin 3 → Nat) a + S1x256x1.size a ≤ S4x256x16.size a
  inb_S4x8x256x128_S1x1x256x64_2_2_0_64 : ∀ a, (![2, 2, 0, 64] : Fin 4 → Nat) a + S1x1x256x64.size a ≤ S4x8x256x128.size a
  inb_S4x256x1024_S1x256x64_2_0_384 : ∀ a, (![2, 0, 384] : Fin 3 → Nat) a + S1x256x64.size a ≤ S4x256x1024.size a
  inb_S4x128x1024_S1x128x64_2_0_384 : ∀ a, (![2, 0, 384] : Fin 3 → Nat) a + S1x128x64.size a ≤ S4x128x1024.size a
  inb_S4x256x16_S1x256x1_2_0_6 : ∀ a, (![2, 0, 6] : Fin 3 → Nat) a + S1x256x1.size a ≤ S4x256x16.size a
  inb_S4x8x256x128_S1x1x256x64_2_3_0_0 : ∀ a, (![2, 3, 0, 0] : Fin 4 → Nat) a + S1x1x256x64.size a ≤ S4x8x256x128.size a
  inb_S4x256x1024_S1x256x64_2_0_448 : ∀ a, (![2, 0, 448] : Fin 3 → Nat) a + S1x256x64.size a ≤ S4x256x1024.size a
  inb_S4x128x1024_S1x128x64_2_0_448 : ∀ a, (![2, 0, 448] : Fin 3 → Nat) a + S1x128x64.size a ≤ S4x128x1024.size a
  inb_S4x256x16_S1x256x1_2_0_7 : ∀ a, (![2, 0, 7] : Fin 3 → Nat) a + S1x256x1.size a ≤ S4x256x16.size a
  inb_S4x8x256x128_S1x1x256x64_2_3_0_64 : ∀ a, (![2, 3, 0, 64] : Fin 4 → Nat) a + S1x1x256x64.size a ≤ S4x8x256x128.size a
  inb_S4x256x1024_S1x256x64_2_0_512 : ∀ a, (![2, 0, 512] : Fin 3 → Nat) a + S1x256x64.size a ≤ S4x256x1024.size a
  inb_S4x128x1024_S1x128x64_2_0_512 : ∀ a, (![2, 0, 512] : Fin 3 → Nat) a + S1x128x64.size a ≤ S4x128x1024.size a
  inb_S4x256x16_S1x256x1_2_0_8 : ∀ a, (![2, 0, 8] : Fin 3 → Nat) a + S1x256x1.size a ≤ S4x256x16.size a
  inb_S4x8x256x128_S1x1x256x64_2_4_0_0 : ∀ a, (![2, 4, 0, 0] : Fin 4 → Nat) a + S1x1x256x64.size a ≤ S4x8x256x128.size a
  inb_S4x256x1024_S1x256x64_2_0_576 : ∀ a, (![2, 0, 576] : Fin 3 → Nat) a + S1x256x64.size a ≤ S4x256x1024.size a
  inb_S4x128x1024_S1x128x64_2_0_576 : ∀ a, (![2, 0, 576] : Fin 3 → Nat) a + S1x128x64.size a ≤ S4x128x1024.size a
  inb_S4x256x16_S1x256x1_2_0_9 : ∀ a, (![2, 0, 9] : Fin 3 → Nat) a + S1x256x1.size a ≤ S4x256x16.size a
  inb_S4x8x256x128_S1x1x256x64_2_4_0_64 : ∀ a, (![2, 4, 0, 64] : Fin 4 → Nat) a + S1x1x256x64.size a ≤ S4x8x256x128.size a
  inb_S4x256x1024_S1x256x64_2_0_640 : ∀ a, (![2, 0, 640] : Fin 3 → Nat) a + S1x256x64.size a ≤ S4x256x1024.size a
  inb_S4x128x1024_S1x128x64_2_0_640 : ∀ a, (![2, 0, 640] : Fin 3 → Nat) a + S1x128x64.size a ≤ S4x128x1024.size a
  inb_S4x256x16_S1x256x1_2_0_10 : ∀ a, (![2, 0, 10] : Fin 3 → Nat) a + S1x256x1.size a ≤ S4x256x16.size a
  inb_S4x8x256x128_S1x1x256x64_2_5_0_0 : ∀ a, (![2, 5, 0, 0] : Fin 4 → Nat) a + S1x1x256x64.size a ≤ S4x8x256x128.size a
  inb_S4x256x1024_S1x256x64_2_0_704 : ∀ a, (![2, 0, 704] : Fin 3 → Nat) a + S1x256x64.size a ≤ S4x256x1024.size a
  inb_S4x128x1024_S1x128x64_2_0_704 : ∀ a, (![2, 0, 704] : Fin 3 → Nat) a + S1x128x64.size a ≤ S4x128x1024.size a
  inb_S4x256x16_S1x256x1_2_0_11 : ∀ a, (![2, 0, 11] : Fin 3 → Nat) a + S1x256x1.size a ≤ S4x256x16.size a
  inb_S4x8x256x128_S1x1x256x64_2_5_0_64 : ∀ a, (![2, 5, 0, 64] : Fin 4 → Nat) a + S1x1x256x64.size a ≤ S4x8x256x128.size a
  inb_S4x256x1024_S1x256x64_2_0_768 : ∀ a, (![2, 0, 768] : Fin 3 → Nat) a + S1x256x64.size a ≤ S4x256x1024.size a
  inb_S4x128x1024_S1x128x64_2_0_768 : ∀ a, (![2, 0, 768] : Fin 3 → Nat) a + S1x128x64.size a ≤ S4x128x1024.size a
  inb_S4x256x16_S1x256x1_2_0_12 : ∀ a, (![2, 0, 12] : Fin 3 → Nat) a + S1x256x1.size a ≤ S4x256x16.size a
  inb_S4x8x256x128_S1x1x256x64_2_6_0_0 : ∀ a, (![2, 6, 0, 0] : Fin 4 → Nat) a + S1x1x256x64.size a ≤ S4x8x256x128.size a
  inb_S4x256x1024_S1x256x64_2_0_832 : ∀ a, (![2, 0, 832] : Fin 3 → Nat) a + S1x256x64.size a ≤ S4x256x1024.size a
  inb_S4x128x1024_S1x128x64_2_0_832 : ∀ a, (![2, 0, 832] : Fin 3 → Nat) a + S1x128x64.size a ≤ S4x128x1024.size a
  inb_S4x256x16_S1x256x1_2_0_13 : ∀ a, (![2, 0, 13] : Fin 3 → Nat) a + S1x256x1.size a ≤ S4x256x16.size a
  inb_S4x8x256x128_S1x1x256x64_2_6_0_64 : ∀ a, (![2, 6, 0, 64] : Fin 4 → Nat) a + S1x1x256x64.size a ≤ S4x8x256x128.size a
  inb_S4x256x1024_S1x256x64_2_0_896 : ∀ a, (![2, 0, 896] : Fin 3 → Nat) a + S1x256x64.size a ≤ S4x256x1024.size a
  inb_S4x128x1024_S1x128x64_2_0_896 : ∀ a, (![2, 0, 896] : Fin 3 → Nat) a + S1x128x64.size a ≤ S4x128x1024.size a
  inb_S4x256x16_S1x256x1_2_0_14 : ∀ a, (![2, 0, 14] : Fin 3 → Nat) a + S1x256x1.size a ≤ S4x256x16.size a
  inb_S4x8x256x128_S1x1x256x64_2_7_0_0 : ∀ a, (![2, 7, 0, 0] : Fin 4 → Nat) a + S1x1x256x64.size a ≤ S4x8x256x128.size a
  inb_S4x256x1024_S1x256x64_2_0_960 : ∀ a, (![2, 0, 960] : Fin 3 → Nat) a + S1x256x64.size a ≤ S4x256x1024.size a
  inb_S4x128x1024_S1x128x64_2_0_960 : ∀ a, (![2, 0, 960] : Fin 3 → Nat) a + S1x128x64.size a ≤ S4x128x1024.size a
  inb_S4x256x16_S1x256x1_2_0_15 : ∀ a, (![2, 0, 15] : Fin 3 → Nat) a + S1x256x1.size a ≤ S4x256x16.size a
  inb_S4x8x256x128_S1x1x256x64_2_7_0_64 : ∀ a, (![2, 7, 0, 64] : Fin 4 → Nat) a + S1x1x256x64.size a ≤ S4x8x256x128.size a
  inb_S4x1x256x128_S1x1x256x128_3_0_0_0 : ∀ a, (![3, 0, 0, 0] : Fin 4 → Nat) a + S1x1x256x128.size a ≤ S4x1x256x128.size a
  inb_S4x256x1024_S1x256x64_3_0_0 : ∀ a, (![3, 0, 0] : Fin 3 → Nat) a + S1x256x64.size a ≤ S4x256x1024.size a
  inb_S4x128x1024_S1x128x64_3_0_0 : ∀ a, (![3, 0, 0] : Fin 3 → Nat) a + S1x128x64.size a ≤ S4x128x1024.size a
  inb_S4x256x16_S1x256x1_3_0_0 : ∀ a, (![3, 0, 0] : Fin 3 → Nat) a + S1x256x1.size a ≤ S4x256x16.size a
  inb_S4x8x256x128_S1x1x256x64_3_0_0_0 : ∀ a, (![3, 0, 0, 0] : Fin 4 → Nat) a + S1x1x256x64.size a ≤ S4x8x256x128.size a
  inb_S4x256x1024_S1x256x64_3_0_64 : ∀ a, (![3, 0, 64] : Fin 3 → Nat) a + S1x256x64.size a ≤ S4x256x1024.size a
  inb_S4x128x1024_S1x128x64_3_0_64 : ∀ a, (![3, 0, 64] : Fin 3 → Nat) a + S1x128x64.size a ≤ S4x128x1024.size a
  inb_S4x256x16_S1x256x1_3_0_1 : ∀ a, (![3, 0, 1] : Fin 3 → Nat) a + S1x256x1.size a ≤ S4x256x16.size a
  inb_S4x8x256x128_S1x1x256x64_3_0_0_64 : ∀ a, (![3, 0, 0, 64] : Fin 4 → Nat) a + S1x1x256x64.size a ≤ S4x8x256x128.size a
  inb_S4x256x1024_S1x256x64_3_0_128 : ∀ a, (![3, 0, 128] : Fin 3 → Nat) a + S1x256x64.size a ≤ S4x256x1024.size a
  inb_S4x128x1024_S1x128x64_3_0_128 : ∀ a, (![3, 0, 128] : Fin 3 → Nat) a + S1x128x64.size a ≤ S4x128x1024.size a
  inb_S4x256x16_S1x256x1_3_0_2 : ∀ a, (![3, 0, 2] : Fin 3 → Nat) a + S1x256x1.size a ≤ S4x256x16.size a
  inb_S4x8x256x128_S1x1x256x64_3_1_0_0 : ∀ a, (![3, 1, 0, 0] : Fin 4 → Nat) a + S1x1x256x64.size a ≤ S4x8x256x128.size a
  inb_S4x256x1024_S1x256x64_3_0_192 : ∀ a, (![3, 0, 192] : Fin 3 → Nat) a + S1x256x64.size a ≤ S4x256x1024.size a
  inb_S4x128x1024_S1x128x64_3_0_192 : ∀ a, (![3, 0, 192] : Fin 3 → Nat) a + S1x128x64.size a ≤ S4x128x1024.size a
  inb_S4x256x16_S1x256x1_3_0_3 : ∀ a, (![3, 0, 3] : Fin 3 → Nat) a + S1x256x1.size a ≤ S4x256x16.size a
  inb_S4x8x256x128_S1x1x256x64_3_1_0_64 : ∀ a, (![3, 1, 0, 64] : Fin 4 → Nat) a + S1x1x256x64.size a ≤ S4x8x256x128.size a
  inb_S4x256x1024_S1x256x64_3_0_256 : ∀ a, (![3, 0, 256] : Fin 3 → Nat) a + S1x256x64.size a ≤ S4x256x1024.size a
  inb_S4x128x1024_S1x128x64_3_0_256 : ∀ a, (![3, 0, 256] : Fin 3 → Nat) a + S1x128x64.size a ≤ S4x128x1024.size a
  inb_S4x256x16_S1x256x1_3_0_4 : ∀ a, (![3, 0, 4] : Fin 3 → Nat) a + S1x256x1.size a ≤ S4x256x16.size a
  inb_S4x8x256x128_S1x1x256x64_3_2_0_0 : ∀ a, (![3, 2, 0, 0] : Fin 4 → Nat) a + S1x1x256x64.size a ≤ S4x8x256x128.size a
  inb_S4x256x1024_S1x256x64_3_0_320 : ∀ a, (![3, 0, 320] : Fin 3 → Nat) a + S1x256x64.size a ≤ S4x256x1024.size a
  inb_S4x128x1024_S1x128x64_3_0_320 : ∀ a, (![3, 0, 320] : Fin 3 → Nat) a + S1x128x64.size a ≤ S4x128x1024.size a
  inb_S4x256x16_S1x256x1_3_0_5 : ∀ a, (![3, 0, 5] : Fin 3 → Nat) a + S1x256x1.size a ≤ S4x256x16.size a
  inb_S4x8x256x128_S1x1x256x64_3_2_0_64 : ∀ a, (![3, 2, 0, 64] : Fin 4 → Nat) a + S1x1x256x64.size a ≤ S4x8x256x128.size a
  inb_S4x256x1024_S1x256x64_3_0_384 : ∀ a, (![3, 0, 384] : Fin 3 → Nat) a + S1x256x64.size a ≤ S4x256x1024.size a
  inb_S4x128x1024_S1x128x64_3_0_384 : ∀ a, (![3, 0, 384] : Fin 3 → Nat) a + S1x128x64.size a ≤ S4x128x1024.size a
  inb_S4x256x16_S1x256x1_3_0_6 : ∀ a, (![3, 0, 6] : Fin 3 → Nat) a + S1x256x1.size a ≤ S4x256x16.size a
  inb_S4x8x256x128_S1x1x256x64_3_3_0_0 : ∀ a, (![3, 3, 0, 0] : Fin 4 → Nat) a + S1x1x256x64.size a ≤ S4x8x256x128.size a
  inb_S4x256x1024_S1x256x64_3_0_448 : ∀ a, (![3, 0, 448] : Fin 3 → Nat) a + S1x256x64.size a ≤ S4x256x1024.size a
  inb_S4x128x1024_S1x128x64_3_0_448 : ∀ a, (![3, 0, 448] : Fin 3 → Nat) a + S1x128x64.size a ≤ S4x128x1024.size a
  inb_S4x256x16_S1x256x1_3_0_7 : ∀ a, (![3, 0, 7] : Fin 3 → Nat) a + S1x256x1.size a ≤ S4x256x16.size a
  inb_S4x8x256x128_S1x1x256x64_3_3_0_64 : ∀ a, (![3, 3, 0, 64] : Fin 4 → Nat) a + S1x1x256x64.size a ≤ S4x8x256x128.size a
  inb_S4x256x1024_S1x256x64_3_0_512 : ∀ a, (![3, 0, 512] : Fin 3 → Nat) a + S1x256x64.size a ≤ S4x256x1024.size a
  inb_S4x128x1024_S1x128x64_3_0_512 : ∀ a, (![3, 0, 512] : Fin 3 → Nat) a + S1x128x64.size a ≤ S4x128x1024.size a
  inb_S4x256x16_S1x256x1_3_0_8 : ∀ a, (![3, 0, 8] : Fin 3 → Nat) a + S1x256x1.size a ≤ S4x256x16.size a
  inb_S4x8x256x128_S1x1x256x64_3_4_0_0 : ∀ a, (![3, 4, 0, 0] : Fin 4 → Nat) a + S1x1x256x64.size a ≤ S4x8x256x128.size a
  inb_S4x256x1024_S1x256x64_3_0_576 : ∀ a, (![3, 0, 576] : Fin 3 → Nat) a + S1x256x64.size a ≤ S4x256x1024.size a
  inb_S4x128x1024_S1x128x64_3_0_576 : ∀ a, (![3, 0, 576] : Fin 3 → Nat) a + S1x128x64.size a ≤ S4x128x1024.size a
  inb_S4x256x16_S1x256x1_3_0_9 : ∀ a, (![3, 0, 9] : Fin 3 → Nat) a + S1x256x1.size a ≤ S4x256x16.size a
  inb_S4x8x256x128_S1x1x256x64_3_4_0_64 : ∀ a, (![3, 4, 0, 64] : Fin 4 → Nat) a + S1x1x256x64.size a ≤ S4x8x256x128.size a
  inb_S4x256x1024_S1x256x64_3_0_640 : ∀ a, (![3, 0, 640] : Fin 3 → Nat) a + S1x256x64.size a ≤ S4x256x1024.size a
  inb_S4x128x1024_S1x128x64_3_0_640 : ∀ a, (![3, 0, 640] : Fin 3 → Nat) a + S1x128x64.size a ≤ S4x128x1024.size a
  inb_S4x256x16_S1x256x1_3_0_10 : ∀ a, (![3, 0, 10] : Fin 3 → Nat) a + S1x256x1.size a ≤ S4x256x16.size a
  inb_S4x8x256x128_S1x1x256x64_3_5_0_0 : ∀ a, (![3, 5, 0, 0] : Fin 4 → Nat) a + S1x1x256x64.size a ≤ S4x8x256x128.size a
  inb_S4x256x1024_S1x256x64_3_0_704 : ∀ a, (![3, 0, 704] : Fin 3 → Nat) a + S1x256x64.size a ≤ S4x256x1024.size a
  inb_S4x128x1024_S1x128x64_3_0_704 : ∀ a, (![3, 0, 704] : Fin 3 → Nat) a + S1x128x64.size a ≤ S4x128x1024.size a
  inb_S4x256x16_S1x256x1_3_0_11 : ∀ a, (![3, 0, 11] : Fin 3 → Nat) a + S1x256x1.size a ≤ S4x256x16.size a
  inb_S4x8x256x128_S1x1x256x64_3_5_0_64 : ∀ a, (![3, 5, 0, 64] : Fin 4 → Nat) a + S1x1x256x64.size a ≤ S4x8x256x128.size a
  inb_S4x256x1024_S1x256x64_3_0_768 : ∀ a, (![3, 0, 768] : Fin 3 → Nat) a + S1x256x64.size a ≤ S4x256x1024.size a
  inb_S4x128x1024_S1x128x64_3_0_768 : ∀ a, (![3, 0, 768] : Fin 3 → Nat) a + S1x128x64.size a ≤ S4x128x1024.size a
  inb_S4x256x16_S1x256x1_3_0_12 : ∀ a, (![3, 0, 12] : Fin 3 → Nat) a + S1x256x1.size a ≤ S4x256x16.size a
  inb_S4x8x256x128_S1x1x256x64_3_6_0_0 : ∀ a, (![3, 6, 0, 0] : Fin 4 → Nat) a + S1x1x256x64.size a ≤ S4x8x256x128.size a
  inb_S4x256x1024_S1x256x64_3_0_832 : ∀ a, (![3, 0, 832] : Fin 3 → Nat) a + S1x256x64.size a ≤ S4x256x1024.size a
  inb_S4x128x1024_S1x128x64_3_0_832 : ∀ a, (![3, 0, 832] : Fin 3 → Nat) a + S1x128x64.size a ≤ S4x128x1024.size a
  inb_S4x256x16_S1x256x1_3_0_13 : ∀ a, (![3, 0, 13] : Fin 3 → Nat) a + S1x256x1.size a ≤ S4x256x16.size a
  inb_S4x8x256x128_S1x1x256x64_3_6_0_64 : ∀ a, (![3, 6, 0, 64] : Fin 4 → Nat) a + S1x1x256x64.size a ≤ S4x8x256x128.size a
  inb_S4x256x1024_S1x256x64_3_0_896 : ∀ a, (![3, 0, 896] : Fin 3 → Nat) a + S1x256x64.size a ≤ S4x256x1024.size a
  inb_S4x128x1024_S1x128x64_3_0_896 : ∀ a, (![3, 0, 896] : Fin 3 → Nat) a + S1x128x64.size a ≤ S4x128x1024.size a
  inb_S4x256x16_S1x256x1_3_0_14 : ∀ a, (![3, 0, 14] : Fin 3 → Nat) a + S1x256x1.size a ≤ S4x256x16.size a
  inb_S4x8x256x128_S1x1x256x64_3_7_0_0 : ∀ a, (![3, 7, 0, 0] : Fin 4 → Nat) a + S1x1x256x64.size a ≤ S4x8x256x128.size a
  inb_S4x256x1024_S1x256x64_3_0_960 : ∀ a, (![3, 0, 960] : Fin 3 → Nat) a + S1x256x64.size a ≤ S4x256x1024.size a
  inb_S4x128x1024_S1x128x64_3_0_960 : ∀ a, (![3, 0, 960] : Fin 3 → Nat) a + S1x128x64.size a ≤ S4x128x1024.size a
  inb_S4x256x16_S1x256x1_3_0_15 : ∀ a, (![3, 0, 15] : Fin 3 → Nat) a + S1x256x1.size a ≤ S4x256x16.size a
  inb_S4x8x256x128_S1x1x256x64_3_7_0_64 : ∀ a, (![3, 7, 0, 64] : Fin 4 → Nat) a + S1x1x256x64.size a ≤ S4x8x256x128.size a
  inb_S4x8x256x128_S1x1x256x128_0_0_0_0 : ∀ a, (![0, 0, 0, 0] : Fin 4 → Nat) a + S1x1x256x128.size a ≤ S4x8x256x128.size a
  slices_S256x128_o0_0_S256x64 : S256x128.Slices ![0, 0] S256x64
  slices_S256x128_o0_64_S256x64 : S256x128.Slices ![0, 64] S256x64
  concatenates_S256x64_S256x64_S256x128_d1 : Shape.Concatenates [S256x64, S256x64] S256x128 1
  inb_S4x256x1024_S1x256x128_0_0_0 : ∀ a, (![0, 0, 0] : Fin 3 → Nat) a + S1x256x128.size a ≤ S4x256x1024.size a
  h_S1x256x128 : 0 < S1x256x128.numel
  shapeCasts_S1x256x128_S256x128 : S1x256x128.ShapeCasts S256x128
  shapeCasts_S256x128_S1x256x128 : S256x128.ShapeCasts S1x256x128
  inb_S4x8x256x128_S1x1x256x128_0_1_0_0 : ∀ a, (![0, 1, 0, 0] : Fin 4 → Nat) a + S1x1x256x128.size a ≤ S4x8x256x128.size a
  inb_S4x256x1024_S1x256x128_0_0_128 : ∀ a, (![0, 0, 128] : Fin 3 → Nat) a + S1x256x128.size a ≤ S4x256x1024.size a
  inb_S4x8x256x128_S1x1x256x128_0_2_0_0 : ∀ a, (![0, 2, 0, 0] : Fin 4 → Nat) a + S1x1x256x128.size a ≤ S4x8x256x128.size a
  inb_S4x256x1024_S1x256x128_0_0_256 : ∀ a, (![0, 0, 256] : Fin 3 → Nat) a + S1x256x128.size a ≤ S4x256x1024.size a
  inb_S4x8x256x128_S1x1x256x128_0_3_0_0 : ∀ a, (![0, 3, 0, 0] : Fin 4 → Nat) a + S1x1x256x128.size a ≤ S4x8x256x128.size a
  inb_S4x256x1024_S1x256x128_0_0_384 : ∀ a, (![0, 0, 384] : Fin 3 → Nat) a + S1x256x128.size a ≤ S4x256x1024.size a
  inb_S4x8x256x128_S1x1x256x128_0_4_0_0 : ∀ a, (![0, 4, 0, 0] : Fin 4 → Nat) a + S1x1x256x128.size a ≤ S4x8x256x128.size a
  inb_S4x256x1024_S1x256x128_0_0_512 : ∀ a, (![0, 0, 512] : Fin 3 → Nat) a + S1x256x128.size a ≤ S4x256x1024.size a
  inb_S4x8x256x128_S1x1x256x128_0_5_0_0 : ∀ a, (![0, 5, 0, 0] : Fin 4 → Nat) a + S1x1x256x128.size a ≤ S4x8x256x128.size a
  inb_S4x256x1024_S1x256x128_0_0_640 : ∀ a, (![0, 0, 640] : Fin 3 → Nat) a + S1x256x128.size a ≤ S4x256x1024.size a
  inb_S4x8x256x128_S1x1x256x128_0_6_0_0 : ∀ a, (![0, 6, 0, 0] : Fin 4 → Nat) a + S1x1x256x128.size a ≤ S4x8x256x128.size a
  inb_S4x256x1024_S1x256x128_0_0_768 : ∀ a, (![0, 0, 768] : Fin 3 → Nat) a + S1x256x128.size a ≤ S4x256x1024.size a
  inb_S4x8x256x128_S1x1x256x128_0_7_0_0 : ∀ a, (![0, 7, 0, 0] : Fin 4 → Nat) a + S1x1x256x128.size a ≤ S4x8x256x128.size a
  inb_S4x256x1024_S1x256x128_0_0_896 : ∀ a, (![0, 0, 896] : Fin 3 → Nat) a + S1x256x128.size a ≤ S4x256x1024.size a
  inb_S4x8x256x128_S1x1x256x128_1_0_0_0 : ∀ a, (![1, 0, 0, 0] : Fin 4 → Nat) a + S1x1x256x128.size a ≤ S4x8x256x128.size a
  inb_S4x256x1024_S1x256x128_1_0_0 : ∀ a, (![1, 0, 0] : Fin 3 → Nat) a + S1x256x128.size a ≤ S4x256x1024.size a
  inb_S4x8x256x128_S1x1x256x128_1_1_0_0 : ∀ a, (![1, 1, 0, 0] : Fin 4 → Nat) a + S1x1x256x128.size a ≤ S4x8x256x128.size a
  inb_S4x256x1024_S1x256x128_1_0_128 : ∀ a, (![1, 0, 128] : Fin 3 → Nat) a + S1x256x128.size a ≤ S4x256x1024.size a
  inb_S4x8x256x128_S1x1x256x128_1_2_0_0 : ∀ a, (![1, 2, 0, 0] : Fin 4 → Nat) a + S1x1x256x128.size a ≤ S4x8x256x128.size a
  inb_S4x256x1024_S1x256x128_1_0_256 : ∀ a, (![1, 0, 256] : Fin 3 → Nat) a + S1x256x128.size a ≤ S4x256x1024.size a
  inb_S4x8x256x128_S1x1x256x128_1_3_0_0 : ∀ a, (![1, 3, 0, 0] : Fin 4 → Nat) a + S1x1x256x128.size a ≤ S4x8x256x128.size a
  inb_S4x256x1024_S1x256x128_1_0_384 : ∀ a, (![1, 0, 384] : Fin 3 → Nat) a + S1x256x128.size a ≤ S4x256x1024.size a
  inb_S4x8x256x128_S1x1x256x128_1_4_0_0 : ∀ a, (![1, 4, 0, 0] : Fin 4 → Nat) a + S1x1x256x128.size a ≤ S4x8x256x128.size a
  inb_S4x256x1024_S1x256x128_1_0_512 : ∀ a, (![1, 0, 512] : Fin 3 → Nat) a + S1x256x128.size a ≤ S4x256x1024.size a
  inb_S4x8x256x128_S1x1x256x128_1_5_0_0 : ∀ a, (![1, 5, 0, 0] : Fin 4 → Nat) a + S1x1x256x128.size a ≤ S4x8x256x128.size a
  inb_S4x256x1024_S1x256x128_1_0_640 : ∀ a, (![1, 0, 640] : Fin 3 → Nat) a + S1x256x128.size a ≤ S4x256x1024.size a
  inb_S4x8x256x128_S1x1x256x128_1_6_0_0 : ∀ a, (![1, 6, 0, 0] : Fin 4 → Nat) a + S1x1x256x128.size a ≤ S4x8x256x128.size a
  inb_S4x256x1024_S1x256x128_1_0_768 : ∀ a, (![1, 0, 768] : Fin 3 → Nat) a + S1x256x128.size a ≤ S4x256x1024.size a
  inb_S4x8x256x128_S1x1x256x128_1_7_0_0 : ∀ a, (![1, 7, 0, 0] : Fin 4 → Nat) a + S1x1x256x128.size a ≤ S4x8x256x128.size a
  inb_S4x256x1024_S1x256x128_1_0_896 : ∀ a, (![1, 0, 896] : Fin 3 → Nat) a + S1x256x128.size a ≤ S4x256x1024.size a
  inb_S4x8x256x128_S1x1x256x128_2_0_0_0 : ∀ a, (![2, 0, 0, 0] : Fin 4 → Nat) a + S1x1x256x128.size a ≤ S4x8x256x128.size a
  inb_S4x256x1024_S1x256x128_2_0_0 : ∀ a, (![2, 0, 0] : Fin 3 → Nat) a + S1x256x128.size a ≤ S4x256x1024.size a
  inb_S4x8x256x128_S1x1x256x128_2_1_0_0 : ∀ a, (![2, 1, 0, 0] : Fin 4 → Nat) a + S1x1x256x128.size a ≤ S4x8x256x128.size a
  inb_S4x256x1024_S1x256x128_2_0_128 : ∀ a, (![2, 0, 128] : Fin 3 → Nat) a + S1x256x128.size a ≤ S4x256x1024.size a
  inb_S4x8x256x128_S1x1x256x128_2_2_0_0 : ∀ a, (![2, 2, 0, 0] : Fin 4 → Nat) a + S1x1x256x128.size a ≤ S4x8x256x128.size a
  inb_S4x256x1024_S1x256x128_2_0_256 : ∀ a, (![2, 0, 256] : Fin 3 → Nat) a + S1x256x128.size a ≤ S4x256x1024.size a
  inb_S4x8x256x128_S1x1x256x128_2_3_0_0 : ∀ a, (![2, 3, 0, 0] : Fin 4 → Nat) a + S1x1x256x128.size a ≤ S4x8x256x128.size a
  inb_S4x256x1024_S1x256x128_2_0_384 : ∀ a, (![2, 0, 384] : Fin 3 → Nat) a + S1x256x128.size a ≤ S4x256x1024.size a
  inb_S4x8x256x128_S1x1x256x128_2_4_0_0 : ∀ a, (![2, 4, 0, 0] : Fin 4 → Nat) a + S1x1x256x128.size a ≤ S4x8x256x128.size a
  inb_S4x256x1024_S1x256x128_2_0_512 : ∀ a, (![2, 0, 512] : Fin 3 → Nat) a + S1x256x128.size a ≤ S4x256x1024.size a
  inb_S4x8x256x128_S1x1x256x128_2_5_0_0 : ∀ a, (![2, 5, 0, 0] : Fin 4 → Nat) a + S1x1x256x128.size a ≤ S4x8x256x128.size a
  inb_S4x256x1024_S1x256x128_2_0_640 : ∀ a, (![2, 0, 640] : Fin 3 → Nat) a + S1x256x128.size a ≤ S4x256x1024.size a
  inb_S4x8x256x128_S1x1x256x128_2_6_0_0 : ∀ a, (![2, 6, 0, 0] : Fin 4 → Nat) a + S1x1x256x128.size a ≤ S4x8x256x128.size a
  inb_S4x256x1024_S1x256x128_2_0_768 : ∀ a, (![2, 0, 768] : Fin 3 → Nat) a + S1x256x128.size a ≤ S4x256x1024.size a
  inb_S4x8x256x128_S1x1x256x128_2_7_0_0 : ∀ a, (![2, 7, 0, 0] : Fin 4 → Nat) a + S1x1x256x128.size a ≤ S4x8x256x128.size a
  inb_S4x256x1024_S1x256x128_2_0_896 : ∀ a, (![2, 0, 896] : Fin 3 → Nat) a + S1x256x128.size a ≤ S4x256x1024.size a
  inb_S4x8x256x128_S1x1x256x128_3_0_0_0 : ∀ a, (![3, 0, 0, 0] : Fin 4 → Nat) a + S1x1x256x128.size a ≤ S4x8x256x128.size a
  inb_S4x256x1024_S1x256x128_3_0_0 : ∀ a, (![3, 0, 0] : Fin 3 → Nat) a + S1x256x128.size a ≤ S4x256x1024.size a
  inb_S4x8x256x128_S1x1x256x128_3_1_0_0 : ∀ a, (![3, 1, 0, 0] : Fin 4 → Nat) a + S1x1x256x128.size a ≤ S4x8x256x128.size a
  inb_S4x256x1024_S1x256x128_3_0_128 : ∀ a, (![3, 0, 128] : Fin 3 → Nat) a + S1x256x128.size a ≤ S4x256x1024.size a
  inb_S4x8x256x128_S1x1x256x128_3_2_0_0 : ∀ a, (![3, 2, 0, 0] : Fin 4 → Nat) a + S1x1x256x128.size a ≤ S4x8x256x128.size a
  inb_S4x256x1024_S1x256x128_3_0_256 : ∀ a, (![3, 0, 256] : Fin 3 → Nat) a + S1x256x128.size a ≤ S4x256x1024.size a
  inb_S4x8x256x128_S1x1x256x128_3_3_0_0 : ∀ a, (![3, 3, 0, 0] : Fin 4 → Nat) a + S1x1x256x128.size a ≤ S4x8x256x128.size a
  inb_S4x256x1024_S1x256x128_3_0_384 : ∀ a, (![3, 0, 384] : Fin 3 → Nat) a + S1x256x128.size a ≤ S4x256x1024.size a
  inb_S4x8x256x128_S1x1x256x128_3_4_0_0 : ∀ a, (![3, 4, 0, 0] : Fin 4 → Nat) a + S1x1x256x128.size a ≤ S4x8x256x128.size a
  inb_S4x256x1024_S1x256x128_3_0_512 : ∀ a, (![3, 0, 512] : Fin 3 → Nat) a + S1x256x128.size a ≤ S4x256x1024.size a
  inb_S4x8x256x128_S1x1x256x128_3_5_0_0 : ∀ a, (![3, 5, 0, 0] : Fin 4 → Nat) a + S1x1x256x128.size a ≤ S4x8x256x128.size a
  inb_S4x256x1024_S1x256x128_3_0_640 : ∀ a, (![3, 0, 640] : Fin 3 → Nat) a + S1x256x128.size a ≤ S4x256x1024.size a
  inb_S4x8x256x128_S1x1x256x128_3_6_0_0 : ∀ a, (![3, 6, 0, 0] : Fin 4 → Nat) a + S1x1x256x128.size a ≤ S4x8x256x128.size a
  inb_S4x256x1024_S1x256x128_3_0_768 : ∀ a, (![3, 0, 768] : Fin 3 → Nat) a + S1x256x128.size a ≤ S4x256x1024.size a
  inb_S4x8x256x128_S1x1x256x128_3_7_0_0 : ∀ a, (![3, 7, 0, 0] : Fin 4 → Nat) a + S1x1x256x128.size a ≤ S4x8x256x128.size a
  inb_S4x256x1024_S1x256x128_3_0_896 : ∀ a, (![3, 0, 896] : Fin 3 → Nat) a + S1x256x128.size a ≤ S4x256x1024.size a
  dot_S256x64_S128x64_S256x128_1_1_0_0_n_n_wf : DotDims.WF S256x64 S128x64 S256x128 [1] [1] [0] [0] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x2048x1024.size a
  hwx0_0 : ∀ i : grid0.Coords, EltTy.bits .f32 = 32 ∨ (Rect.block (s := S4x2048x1024) S4x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x1024.size a ≤ S4x2048x1024.size a
  hwx0_1 : ∀ i : grid0.Coords, EltTy.bits .bf16 = 32 ∨ (Rect.block (s := S4x2048x1024) S4x128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x1024.size a ≤ S4x2048x1024.size a
  hwx0_2 : ∀ i : grid0.Coords, EltTy.bits .bf16 = 32 ∨ (Rect.block (s := S4x2048x1024) S4x128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x256x128.size a ≤ S4x1x2048x2048.size a
  hwx0_3 : ∀ i : grid0.Coords, EltTy.bits .f32 = 32 ∨ (Rect.block (s := S4x1x2048x2048) S4x1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x128.size a ≤ S1x16x2048x2048.size a
  hwx0_4 : ∀ i : grid0.Coords, EltTy.bits .f32 = 32 ∨ (Rect.block (s := S1x16x2048x2048) S1x16x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x1024.size a ≤ S4x2048x1024.size a
  hwx0_5 : ∀ i : grid0.Coords, EltTy.bits .f32 = 32 ∨ (Rect.block (s := S4x2048x1024) S4x256x1024.size (cc0_transform_5 i) (hinb0_5 i)).WholeWords (EltTy.packing .f32)

variable [Facts₀]

def dot_S256x64_S128x64_S256x128_1_1_0_0_n_n : DotDims S256x64 S128x64 S256x128 where
  lhsContracting := [1]
  rhsContracting := [1]
  lhsNonContracting := [0]
  rhsNonContracting := [0]
  lhsBatch := []
  rhsBatch := []
  wf := dot_S256x64_S128x64_S256x128_1_1_0_0_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16x256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x1x2048x2048 : Shape := ⟨4, ![4, 1, 2048, 2048]⟩
abbrev S1x16x2048x2048 : Shape := ⟨4, ![1, 16, 2048, 2048]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x1x2048x2048, .f32⟩
  | .hbm, ⟨4, _⟩ => ⟨S1x16x2048x2048, .f32⟩
  | .hbm, ⟨5, _⟩ => ⟨S4x2048x16x64, .f32⟩
  | .hbm, ⟨6, _⟩ => ⟨S4x16x2048x64, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x16x2048x2048, .f32⟩
  | .hbm, ⟨12, _⟩ => ⟨S4x16x2048x2048, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S4x1x2048x2048_S4x16x2048x2048_0_1_2_3 : S4x1x2048x2048.BroadcastsInDim S4x16x2048x2048 (![0, 1, 2, 3] : Fin 4 → Fin S4x16x2048x2048.rank)
  bcast_S1x16x2048x2048_S4x16x2048x2048_0_1_2_3 : S1x16x2048x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/- What both programs compute, as one function of the five argument arrays, index by index, on the extended reals.

   For batch b, head h, query row q and key k the score is
     s(b,h,q,k) = ( Σ_{d<64} Q[b,q,64h+d] · K[b,k,64h+d]  -  mask[b,0,q,k]  +  rel[0,h,q,k] ) · 1/8 ,
   the weights of a row are its softmax taken at the row's maximum,
     p(b,h,q,k) = exp (s(b,h,q,k) - max_k' s(b,h,q,k')) / Σ_k' exp (s(b,h,q,k') - max_k'' s(b,h,q,k'')) ,
   and the result at (b, q, 64h+d) is Σ_k p(b,h,q,k) · V[b,k,64h+d].  The feature axis of length 1024 is the 16 heads
   of 64 features each, side by side: column c belongs to head c / 64 and is feature c % 64 of it. -/
import Idealize.ShloMosaic.PureOps.Ideal.Laws
import Idealize.ShloMosaic.Lib.ValueIdx

noncomputable section

namespace Cert.Attn

open Idealize.ShloMosaic Idealize.ShloMosaic.ValueIdx

/-- The three shapes of the arguments: queries / keys / values, the mask, the relative-position term. -/
abbrev SQ : Shape := ⟨3, ![4, 2048, 1024]⟩
abbrev SM : Shape := ⟨4, ![4, 1, 2048, 2048]⟩
abbrev SR : Shape := ⟨4, ![1, 16, 2048, 2048]⟩

/-- Column 64 h + d of the feature axis: feature d of head h. -/
def col (h : Fin 16) (d : Fin 64) : Fin 1024 := ⟨64 * h.val + d.val, by have := h.isLt; have := d.isLt; omega⟩

/-- The head a column belongs to, and its feature inside the head. -/
def headOf (c : Fin 1024) : Fin 16 := ⟨c.val / 64, by have := c.isLt; omega⟩
def featOf (c : Fin 1024) : Fin 64 := ⟨c.val % 64, Nat.mod_lt _ (by norm_num)⟩

theorem col_head_feat (c : Fin 1024) : col (headOf c) (featOf c) = c := by
  refine Fin.ext ?_
  simp only [col, headOf, featOf]
  omega

theorem headOf_col (h : Fin 16) (d : Fin 64) : headOf (col h d) = h := by
  refine Fin.ext ?_
  have := h.isLt; have := d.isLt
  simp only [col, headOf]
  omega

theorem featOf_col (h : Fin 16) (d : Fin 64) : featOf (col h d) = d := by
  refine Fin.ext ?_
  have := h.isLt; have := d.isLt
  simp only [col, featOf]
  omega

/-- The scaling factor 1/8, as the float word both programs carry. -/
def eighth : EReal := Ideal.ofBits .f32 0x3E000000#32

/-- The score of key k for query q in head h of batch b. -/
def score (Q K : SQ.Idx → EReal) (M : SM.Idx → EReal) (R : SR.Idx → EReal) (b : Fin 4) (h : Fin 16) (q k : Fin 2048) : EReal :=
  ((∑ d : Fin 64, Q (ix3 b q (col h d)) * K (ix3 b k (col h d))) - M (ix4 b 0 q k) + R (ix4 0 h q k)) * eighth

/-- A row's maximum. -/
def rowMax (s : Fin 2048 → EReal) : EReal := Finset.univ.sup s

/-- A row's softmax weight at key k: the exponential at the row's maximum over the sum of the row's exponentials. -/
def weight (s : Fin 2048 → EReal) (k : Fin 2048) : EReal :=
  Ideal.div (Ideal.exp (s k - rowMax s)) (∑ k' : Fin 2048, Ideal.exp (s k' - rowMax s))

/-- The attention result for feature d of head h at query q of batch b. -/
def attn (Q K V : SQ.Idx → EReal) (M : SM.Idx → EReal) (R : SR.Idx → EReal) (b : Fin 4) (h : Fin 16) (q : Fin 2048) (d : Fin 64) : EReal :=
  ∑ k : Fin 2048, weight (score Q K M R b h q) k * V (ix3 b k (col h d))

/-- The whole result array. -/
def G (Q K V : SQ.Idx → EReal) (M : SM.Idx → EReal) (R : SR.Idx → EReal) : SQ.Idx → EReal :=
  fun i => attn Q K V M R (i 0) (headOf (i 2)) (i 1) (featOf (i 2))

end Cert.Attn

end
-- ==== Proof.RefSpec.lean ====
/- The reference program computes the specification.

   Read one operation at a time, the reference program splits the feature axis of the queries, keys and values into
   16 heads of 64 features and moves the head axis forward; takes, per batch and head, the dot products of queries
   with keys; subtracts the mask, adds the relative-position term and multiplies by 1/8; takes each row's maximum
   (a fold of max from minus infinity over the 2048 keys, which is the row's supremum), exponentiates the differences
   to it, sums each row from zero and divides; multiplies the weights with the values; and moves the head axis back
   and merges it with the feature axis. Each lemma below reads one of these groups at an index given by its
   coordinates; the last one puts them together: at every index the result is the function G of the five arguments. -/
import proofs.«103612_j35940286333141_2_alg».proof.Proof.Gen.ReferenceIdeal.Read
import proofs.«103612_j35940286333141_2_alg».proof.Proof.Spec

noncomputable section

namespace Cert.Attn.Ref

open Cert.ReferenceIdeal Cert.ReferenceIdeal.Gen Cert.ReferenceIdeal.Read Idealize.ShloMosaic Idealize.ShloMosaic.ValueIdx

/-! ## Queries, keys and values by head

The reshape to [4, 2048, 16, 64] followed by the transpose to [4, 16, 2048, 64] reads entry (b, h, q, d) of the
head-major array at entry (b, q, 64 h + d) of the argument: the row-major position of (b, q, h, d) in [4, 2048, 16, 64]
is ((b · 2048 + q) · 16 + h) · 64 + d, and its three coordinates in [4, 2048, 1024] are b, q and 64 h + d. -/

theorem heads_idx (b : Fin 4) (h : Fin 16) (q : Fin 2048) (d : Fin 64) :
    idx_main_v0 (idx_main_v1 (ix4 b h q d)) = ix3 b q (col h d) := by
  have hb := b.isLt; have hh := h.isLt; have hq := q.isLt; have hd := d.isLt
  funext a
  match a with
  | ⟨0, _⟩ =>
    refine Fin.ext ?_
    show ((((b.val * 2048 + q.val) * 16 + h.val) * 64 + d.val) / 2097152) = b.val
    omega
  | ⟨1, _⟩ =>
    refine Fin.ext ?_
    show ((((b.val * 2048 + q.val) * 16 + h.val) * 64 + d.val) / 1024 % 2048) = q.val
    omega
  | ⟨2, _⟩ =>
    refine Fin.ext ?_
    show ((((b.val * 2048 + q.val) * 16 + h.val) * 64 + d.val) % 1024) = 64 * h.val + d.val
    omega

/-- The queries by head. -/
theorem q_heads (x0 : (⟨S4x2048x1024, .f32⟩ : BufTy).Contents (Elt Ideal)) (b : Fin 4) (h : Fin 16) (q : Fin 2048) (d : Fin 64) :
    val_main_v1 (F := Ideal) x0 (ix4 b h q d) = x0 (ix3 b q (col h d)) := by
  rw [val_main_v1_apply, val_main_v0_apply, heads_idx]

/-- The keys by head. -/
theorem k_heads (x1 : (⟨S4x2048x1024, .f32⟩ : BufTy).Contents (Elt Ideal)) (b : Fin 4) (h : Fin 16) (k : Fin 2048) (d : Fin 64) :
    val_main_v3 (F := Ideal) x1 (ix4 b h k d) = x1 (ix3 b k (col h d)) := by
  rw [val_main_v3_apply, val_main_v2_apply]
  exact congrArg x1 (heads_idx b h k d)

/-- The values by head. -/
theorem v_heads (x2 : (⟨S4x2048x1024, .f32⟩ : BufTy).Contents (Elt Ideal)) (b : Fin 4) (h : Fin 16) (k : Fin 2048) (d : Fin 64) :
    val_main_v5 (F := Ideal) x2 (ix4 b h k d) = x2 (ix3 b k (col h d)) := by
  rw [val_main_v5_apply, val_main_v4_apply]
  exact congrArg x2 (heads_idx b h k d)

/-! ## The scores -/

/-- Entry (b, h, q, k) of the scaled score array: the dot product over the head's 64 features, minus the mask (one
    mask for all heads), plus the relative-position term (one for all batches), times the constant 1/8. -/
theorem score_eq (x0 x1 : (⟨S4x2048x1024, .f32⟩ : BufTy).Contents (Elt Ideal)) (x3 : (⟨S4x1x2048x2048, .f32⟩ : BufTy).Contents (Elt Ideal))
    (x4 : (⟨S1x16x2048x2048, .f32⟩ : BufTy).Contents (Elt Ideal)) (b : Fin 4) (h : Fin 16) (q k : Fin 2048) :
    val_main_v12 (F := Ideal) x0 x1 x3 x4 (ix4 b h q k) = score x0 x1 x3 x4 b h q k := by
  rw [val_main_v12_apply, val_main_v10_apply, val_main_v8_apply, val_main_v6_apply, val_main_v7_apply, val_main_v9_apply,
    val_main_v11_apply, val_main_cst_apply]
  have hs : (∑ d : Fin 64, val_main_v1 (F := Ideal) x0 (lidx_main_v6 (ix4 b h q k) d) * val_main_v3 (F := Ideal) x1 (ridx_main_v6 (ix4 b h q k) d))
      = ∑ d : Fin 64, x0 (ix3 b q (col h d)) * x1 (ix3 b k (col h d)) :=
    Finset.sum_congr rfl fun d _ => by
      have el : lidx_main_v6 (ix4 b h q k) d = ix4 b h q d := by
        funext a; match a with | ⟨0, _⟩ => rfl | ⟨1, _⟩ => rfl | ⟨2, _⟩ => rfl | ⟨3, _⟩ => rfl
      have er : ridx_main_v6 (ix4 b h q k) d = ix4 b h k d := by
        funext a; match a with | ⟨0, _⟩ => rfl | ⟨1, _⟩ => rfl | ⟨2, _⟩ => rfl | ⟨3, _⟩ => rfl
      rw [el, er, q_heads, k_heads]
  have e7 : idx_main_v7 (ix4 b h q k) = ix4 b 0 q k := by
    funext a; match a with | ⟨0, _⟩ => rfl | ⟨1, _⟩ => rfl | ⟨2, _⟩ => rfl | ⟨3, _⟩ => rfl
  have e9 : idx_main_v9 (ix4 b h q k) = ix4 0 h q k := by
    funext a; match a with | ⟨0, _⟩ => rfl | ⟨1, _⟩ => rfl | ⟨2, _⟩ => rfl | ⟨3, _⟩ => rfl
  rw [hs, e7, e9]
  rfl

/-! ## The row maximum -/

/-- The word 0xFF800000 is minus infinity, the least extended real. -/
theorem neg_inf_eq_bot : FloatOps.ofBits (F := Ideal) .f32 0xFF800000#32 = (⊥ : EReal) := by
  simp [Ideal.ofBits, Ideal.ieee]

/-- A maximum-reduction over the key axis from minus infinity is, at (b, h, q), the supremum of the row: the fold of
    max from the least element over the 2048 keys. -/
theorem reduce_max_row (y : (⟨S4x16x2048x2048, .f32⟩ : BufTy).Contents (Elt Ideal)) (b : Fin 4) (h : Fin 16) (q : Fin 2048) :
    Host.reduce (FloatOps.maximumf (F := Ideal) (φ := .f32)) y (val_main_cst_0 (F := Ideal))
        reducesTo_S4x16x2048x2048_S4x16x2048_d3 h_S_ (ix3 b h q)
      = rowMax (fun k => y (ix4 b h q k)) := by
  have hr : S4x16x2048x2048.Reduces [3] S4x16x2048 := by decide
  refine (Host.reduce_eq_fold_single (α := EReal) (FloatOps.maximumf (F := Ideal) (φ := .f32)) y (val_main_cst_0 (F := Ideal))
    reducesTo_S4x16x2048x2048_S4x16x2048_d3 hr h_S_ (ix3 b h q)).trans ?_
  rw [val_main_cst_0_apply, neg_inf_eq_bot]
  have el : (y ∘ hr.lift (ix3 b h q)) = fun k : Fin 2048 => y (ix4 b h q k) :=
    funext fun k => congrArg y (funext fun a => Fin.ext (by
      match a with | ⟨0, _⟩ => rfl | ⟨1, _⟩ => rfl | ⟨2, _⟩ => rfl | ⟨3, _⟩ => rfl))
  rw [el]
  rfl

/-- The row maximum as the program carries it into the subtraction: reduced, joined with minus infinity (which
    changes nothing), and broadcast back along the key axis. -/
theorem rowmax_eq (x0 x1 : (⟨S4x2048x1024, .f32⟩ : BufTy).Contents (Elt Ideal)) (x3 : (⟨S4x1x2048x2048, .f32⟩ : BufTy).Contents (Elt Ideal))
    (x4 : (⟨S1x16x2048x2048, .f32⟩ : BufTy).Contents (Elt Ideal)) (b : Fin 4) (h : Fin 16) (q k : Fin 2048) :
    val_main_v17 (F := Ideal) x0 x1 x3 x4 (ix4 b h q k) = rowMax (score x0 x1 x3 x4 b h q) := by
  rw [val_main_v17_apply, val_main_v16_apply, val_main_v15_apply, val_main_v14_apply, val_main_cst_1_apply, neg_inf_eq_bot]
  have e : idx_main_v16 (idx_main_v17 (ix4 b h q k)) = ix3 b h q := by
    funext a; match a with | ⟨0, _⟩ => rfl | ⟨1, _⟩ => rfl | ⟨2, _⟩ => rfl
  rw [e]
  unfold val_main_v13
  rw [reduce_max_row]
  have es : (fun k' => val_main_v12 (F := Ideal) x0 x1 x3 x4 (ix4 b h q k')) = score x0 x1 x3 x4 b h q :=
    funext fun k' => score_eq x0 x1 x3 x4 b h q k'
  rw [es]
  exact max_eq_right bot_le

/-! ## The softmax weights -/

/-- Entry (b, h, q, k) of the exponentials: the exponential of the score at the row's maximum. -/
theorem exp_eq (x0 x1 : (⟨S4x2048x1024, .f32⟩ : BufTy).Contents (Elt Ideal)) (x3 : (⟨S4x1x2048x2048, .f32⟩ : BufTy).Contents (Elt Ideal))
    (x4 : (⟨S1x16x2048x2048, .f32⟩ : BufTy).Contents (Elt Ideal)) (b : Fin 4) (h : Fin 16) (q k : Fin 2048) :
    val_main_v19 (F := Ideal) x0 x1 x3 x4 (ix4 b h q k)
      = Ideal.exp (score x0 x1 x3 x4 b h q k - rowMax (score x0 x1 x3 x4 b h q)) := by
  rw [val_main_v19_apply, val_main_v18_apply, score_eq, rowmax_eq]
  rfl

/-- Entry (b, h, q, k) of the normalized array: the row's softmax weight at key k. The sum-reduction starts from the
    word of zero, which adds nothing. -/
theorem weight_eq (x0 x1 : (⟨S4x2048x1024, .f32⟩ : BufTy).Contents (Elt Ideal)) (x3 : (⟨S4x1x2048x2048, .f32⟩ : BufTy).Contents (Elt Ideal))
    (x4 : (⟨S1x16x2048x2048, .f32⟩ : BufTy).Contents (Elt Ideal)) (b : Fin 4) (h : Fin 16) (q k : Fin 2048) :
    val_main_v23 (F := Ideal) x0 x1 x3 x4 (ix4 b h q k) = weight (score x0 x1 x3 x4 b h q) k := by
  rw [val_main_v23_apply, val_main_v22_apply, val_main_v21_apply, exp_eq]
  have e : idx_main_v21 (idx_main_v22 (ix4 b h q k)) = ix3 b h q := by
    funext a; match a with | ⟨0, _⟩ => rfl | ⟨1, _⟩ => rfl | ⟨2, _⟩ => rfl
  rw [e, val_main_v20_apply, val_main_cst_2_apply]
  have hs : (∑ k' : Fin 2048, val_main_v19 (F := Ideal) x0 x1 x3 x4 (idx_main_v20 (ix3 b h q) k'))
      = ∑ k' : Fin 2048, Ideal.exp (score x0 x1 x3 x4 b h q k' - rowMax (score x0 x1 x3 x4 b h q)) :=
    Finset.sum_congr rfl fun k' _ => by
      have ek : idx_main_v20 (ix3 b h q) k' = ix4 b h q k' := by
        funext a; match a with | ⟨0, _⟩ => rfl | ⟨1, _⟩ => rfl | ⟨2, _⟩ => rfl | ⟨3, _⟩ => rfl
      rw [ek, exp_eq]
  rw [hs, Ideal.ofBits_def, Ideal.ofBits_zero_f32, zero_add, Ideal.hostDivf_def]
  rfl

/-! ## The result -/

/-- The transpose back to [4, 2048, 16, 64] and the reshape to [4, 2048, 1024] read entry (b, q, c) of the result at
    entry (b, c / 64, q, c % 64) of the head-major product: the row-major position of (b, q, c) in [4, 2048, 1024] is
    (b · 2048 + q) · 1024 + c. -/
theorem result_idx (b : Fin 4) (q : Fin 2048) (c : Fin 1024) :
    idx_main_v25 (idx_main_v26 (ix3 b q c)) = ix4 b (headOf c) q (featOf c) := by
  have hb := b.isLt; have hq := q.isLt; have hc := c.isLt
  funext a
  match a with
  | ⟨0, _⟩ =>
    refine Fin.ext ?_
    show (((b.val * 2048 + q.val) * 1024 + c.val) / 2097152) = b.val
    omega
  | ⟨1, _⟩ =>
    refine Fin.ext ?_
    show (((b.val * 2048 + q.val) * 1024 + c.val) / 64 % 16) = c.val / 64
    omega
  | ⟨2, _⟩ =>
    refine Fin.ext ?_
    show (((b.val * 2048 + q.val) * 1024 + c.val) / 1024 % 2048) = q.val
    omega
  | ⟨3, _⟩ =>
    refine Fin.ext ?_
    show (((b.val * 2048 + q.val) * 1024 + c.val) % 64) = c.val % 64
    omega

/-- Entry (b, h, q, d) of the head-major product of the weights with the values. -/
theorem attn_eq (x0 x1 x2 : (⟨S4x2048x1024, .f32⟩ : BufTy).Contents (Elt Ideal)) (x3 : (⟨S4x1x2048x2048, .f32⟩ : BufTy).Contents (Elt Ideal))
    (x4 : (⟨S1x16x2048x2048, .f32⟩ : BufTy).Contents (Elt Ideal)) (b : Fin 4) (h : Fin 16) (q : Fin 2048) (d : Fin 64) :
    val_main_v24 (F := Ideal) x0 x1 x2 x3 x4 (ix4 b h q d) = attn x0 x1 x2 x3 x4 b h q d := by
  rw [val_main_v24_apply]
  unfold attn
  refine Finset.sum_congr rfl fun k _ => ?_
  have el : lidx_main_v24 (ix4 b h q d) k = ix4 b h q k := by
    funext a; match a with | ⟨0, _⟩ => rfl | ⟨1, _⟩ => rfl | ⟨2, _⟩ => rfl | ⟨3, _⟩ => rfl
  have er : ridx_main_v24 (ix4 b h q d) k = ix4 b h k d := by
    funext a; match a with | ⟨0, _⟩ => rfl | ⟨1, _⟩ => rfl | ⟨2, _⟩ => rfl | ⟨3, _⟩ => rfl
  rw [el, er, weight_eq, v_heads]

/-- The reference program's result is the specification. -/
theorem ref_eq (x0 x1 x2 : (⟨Cert.ReferenceIdeal.S4x2048x1024, .f32⟩ : BufTy).Contents (Elt Ideal))
    (x3 : (⟨Cert.ReferenceIdeal.S4x1x2048x2048, .f32⟩ : BufTy).Contents (Elt Ideal))
    (x4 : (⟨Cert.ReferenceIdeal.S1x16x2048x2048, .f32⟩ : BufTy).Contents (Elt Ideal)) :
    Cert.ReferenceIdeal.Read.val_main_v26 (F := Ideal) x0 x1 x2 x3 x4 = Cert.Attn.G x0 x1 x2 x3 x4 := by
  funext i
  obtain ⟨b, q, c, rfl⟩ : ∃ (b : Fin 4) (q : Fin 2048) (c : Fin 1024), i = ix3 b q c := ⟨i 0, i 1, i 2, eq_ix3 i⟩
  rw [val_main_v26_apply, val_main_v25_apply, result_idx, attn_eq]
  rfl

end Cert.Attn.Ref

end
-- ==== Proof.Finite.lean ====
/- From the finiteness precondition to "every entry of every argument array is a real number".

   The precondition is the conjunction, over the five argument arrays, of  all (|x| < +∞) : for each array the
   elementwise comparison of the absolute value with the pattern of +∞, reduced by "and" over every axis down to a
   single word, and the five words joined by "and".  Read on the extended reals: the conjunction being 1 makes each
   of the five reductions 1; a reduction by "and" over all axes that is 1 had a 1 at every index; and
   max x (-x) < ⊤ rules out both x = ⊤ and x = ⊥, so x is (the image of) a real. -/
import proofs.«103612_j35940286333141_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Attn.Fin

open Idealize.ShloMosaic Idealize.ShloMosaic.ValueIdx
open Cert.Pre_finite_inputs (S_ S4x2048x1024 S4x1x2048x2048 S1x16x2048x2048)

/-- The shape of rank 0 has exactly one index. -/
theorem subsingleton_scalarIdx : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (exponent all ones, significand zero, sign clear) denotes +∞. -/
theorem inf_f32 : Ideal.ofBits .f32 0x7F800000#32 = ⊤ := by simp [Ideal.ofBits, Ideal.ieee]

/-- The element fact: if the comparison word of  |x| < +∞  is 1 then x is a real number. -/
theorem real_of_cmp (x : EReal) (h : Ideal.cmp .olt (max x (-x)) (Ideal.ofBits .f32 0x7F800000#32) = 1#1) :
    ∃ r : ℝ, x = (r : EReal) := by
  rw [inf_f32] at h
  apply real_of_abs_lt_top
  by_contra hn
  simp [Ideal.cmp, hn] at h

/-- all (|x| < +∞) = 1, over an array of any shape reduced over all of its axes, makes every entry real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) :
    ∀ i, ∃ r : ℝ, x i = (r : EReal) := by
  intro i
  haveI := subsingleton_scalarIdx
  have hi := Host.reduce_andi_all _ _ hr hu ix0 e i
  rw [cmpf_apply, broadcastInDim_scalar_apply] at hi
  exact real_of_cmp (x i) hi

/-- The precondition at the five argument arrays: every entry of each of them is a real number. -/
theorem real_of_pre [Cert.Pre_finite_inputs.Facts] (a0 a1 a2 : FVec Ideal Cert.Pre_finite_inputs.S4x2048x1024 .f32)
    (a3 : FVec Ideal Cert.Pre_finite_inputs.S4x1x2048x2048 .f32) (a4 : FVec Ideal Cert.Pre_finite_inputs.S1x16x2048x2048 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  -- the outer "and" is ((((w0 ∧ w1) ∧ w2) ∧ w3) ∧ w4): peel it from the right
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4⟩

end Cert.Attn.Fin
-- ==== Proof.LibRealSums.lean ====
/-
  Finite sums of extended reals that are real numbers.

  On the extended reals a product does not distribute over a sum in general (at an infinity the
  sum may absorb a term). Where every entry is a real number it does: the coercion from the reals
  is additive and multiplicative, so a finite sum of real entries is the real sum, a real factor
  moves in and out of it, and a product of three real matrices may be bracketed either way,
  entry by entry.
-/
import Mathlib.Data.EReal.Basic
import Mathlib.Data.EReal.Operations
import Mathlib.Algebra.BigOperators.Ring.Finset
import Mathlib.Algebra.BigOperators.Fin

namespace Cert.Lib.RealSums

open scoped BigOperators

/-- An extended real that is a real number: neither infinity. -/
def IsReal (x : EReal) : Prop := ∃ r : ℝ, x = (r : EReal)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rwa [max_eq_right h]
  · rwa [max_eq_left h]

/-- The coercion from the reals carries a finite sum to the finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real entries is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- Entries that are all real are the coercions of one real family. -/
theorem exists_real_family {ι : Type*} (f : ι → EReal) (hf : ∀ i, IsReal (f i)) :
    ∃ g : ι → ℝ, ∀ i, f i = (g i : EReal) := ⟨fun i => (hf i).choose, fun i => (hf i).choose_spec⟩

/-- A real factor moves into a finite sum of real entries. -/
theorem mul_sum {ι : Type*} (s : Finset ι) (a : EReal) (f : ι → EReal) (ha : IsReal a)
    (hf : ∀ i, IsReal (f i)) : a * ∑ i ∈ s, f i = ∑ i ∈ s, a * f i := by
  obtain ⟨r, rfl⟩ := ha
  obtain ⟨g, hg⟩ := exists_real_family f hf
  simp only [hg, coe_sum, ← EReal.coe_mul, Finset.mul_sum]

/-- A real factor moves into a finite sum of real entries, from the right. -/
theorem sum_mul {ι : Type*} (s : Finset ι) (a : EReal) (f : ι → EReal) (ha : IsReal a)
    (hf : ∀ i, IsReal (f i)) : (∑ i ∈ s, f i) * a = ∑ i ∈ s, f i * a := by
  obtain ⟨r, rfl⟩ := ha
  obtain ⟨g, hg⟩ := exists_real_family f hf
  simp only [hg, coe_sum, ← EReal.coe_mul, Finset.sum_mul]

/-- Three real matrices: the product may be bracketed either way, entry by entry.
    `∑ j, (∑ k, h k * z k j) * w j = ∑ k, h k * ∑ j, z k j * w j` for one row `h` and one column `w`. -/
theorem dot_assoc {κ ι : Type*} [Fintype κ] [Fintype ι] (h : κ → EReal) (z : κ → ι → EReal) (w : ι → EReal)
    (hh : ∀ k, IsReal (h k)) (hz : ∀ k j, IsReal (z k j)) (hw : ∀ j, IsReal (w j)) :
    ∑ j, (∑ k, h k * z k j) * w j = ∑ k, h k * ∑ j, z k j * w j := by
  obtain ⟨h', eh⟩ := exists_real_family h hh
  obtain ⟨w', ew⟩ := exists_real_family w hw
  have ez : ∀ k, ∃ g : ι → ℝ, ∀ j, z k j = (g j : EReal) := fun k => exists_real_family (z k) (hz k)
  choose z' ez' using ez
  simp only [eh, ew, ez', ← EReal.coe_mul, coe_sum]
  congr 1
  simp only [Finset.sum_mul, Finset.mul_sum]
  rw [Finset.sum_comm]
  exact Finset.sum_congr rfl fun k _ => Finset.sum_congr rfl fun j _ => by ring

/-- A real row against a sum of two real columns. -/
theorem dot_add {κ : Type*} [Fintype κ] (h a b : κ → EReal)
    (hh : ∀ k, IsReal (h k)) (ha : ∀ k, IsReal (a k)) (hb : ∀ k, IsReal (b k)) :
    ∑ k, h k * (a k + b k) = ∑ k, h k * a k + ∑ k, h k * b k := by
  obtain ⟨h', eh⟩ := exists_real_family h hh
  obtain ⟨a', ea⟩ := exists_real_family a ha
  obtain ⟨b', eb⟩ := exists_real_family b hb
  simp only [eh, ea, eb, ← EReal.coe_add, ← EReal.coe_mul, coe_sum]
  congr 1
  rw [← Finset.sum_add_distrib]
  exact Finset.sum_congr rfl fun k _ => by ring

end Cert.Lib.RealSums
-- ==== Proof.ScoreReal.lean ====
/- The scores and the values are real numbers when the arguments are.

   The scaling constant is the real number 1/8. Where every entry of the queries, the keys, the mask and the
   relative-position term is a real number, every score is one: a dot product of 64 real products, minus a real, plus
   a real, times 1/8, computed in the reals and carried to the extended reals by the coercion, which is additive and
   multiplicative. An array whose entries are all real is the coercion of one real array. -/
import proofs.«103612_j35940286333141_2_alg».proof.Proof.Spec
import proofs.«103612_j35940286333141_2_alg».proof.Proof.LibRealSums

noncomputable section

namespace Cert.Attn.Real

open Idealize.ShloMosaic Idealize.ShloMosaic.ValueIdx Cert.Lib.RealSums

/-- The word 0x3E000000 is the real number 2⁻³, one eighth. -/
theorem eighth_real : Cert.Attn.eighth = (((1 : ℝ) / 8 : ℝ) : EReal) := by
  simp [Cert.Attn.eighth, Ideal.ofBits, Ideal.ieee, -EReal.coe_mul]; norm_num

/-- With real queries, keys, mask and relative-position term every score is a real number: the same expression
    evaluated in the reals. -/
theorem score_real (Q K : Cert.Attn.SQ.Idx → EReal) (M : Cert.Attn.SM.Idx → EReal) (R : Cert.Attn.SR.Idx → EReal)
    (hQ : ∀ i, ∃ r : ℝ, Q i = (r : EReal)) (hK : ∀ i, ∃ r : ℝ, K i = (r : EReal)) (hM : ∀ i, ∃ r : ℝ, M i = (r : EReal)) (hR : ∀ i, ∃ r : ℝ, R i = (r : EReal)) :
    ∃ σ : Fin 4 → Fin 16 → Fin 2048 → Fin 2048 → ℝ, ∀ b h q k, Cert.Attn.score Q K M R b h q k = ((σ b h q k : ℝ) : EReal) := by
  choose qr hq using hQ
  choose kr hk using hK
  choose mr hm using hM
  choose rr hr using hR
  refine ⟨fun b h q k => ((∑ d : Fin 64, qr (ix3 b q (col h d)) * kr (ix3 b k (col h d))) - mr (ix4 b 0 q k) + rr (ix4 0 h q k)) * (1 / 8),
    fun b h q k => ?_⟩
  unfold Cert.Attn.score
  rw [eighth_real]
  simp only [hq, hk, hm, hr, ← EReal.coe_mul, coe_sum, ← EReal.coe_sub, ← EReal.coe_add]

/-- A value array whose entries are all real is the coercion of one real array. -/
theorem value_real (V : Cert.Attn.SQ.Idx → EReal) (hV : ∀ i, ∃ r : ℝ, V i = (r : EReal)) :
    ∃ ν : Cert.Attn.SQ.Idx → ℝ, ∀ i, V i = ((ν i : ℝ) : EReal) := by
  choose ν hν using hV
  exact ⟨ν, hν⟩

end Cert.Attn.Real

end
-- ==== Proof.Blocks.lean ====
/- The blocks the kernel reads at a grid point, as entries of the whole arrays.

   Grid point t is query tile t / 16 and key block t % 16.  The query block is rows 256 (t/16) + r of Q; the key and
   value blocks are rows 128 (t%16) + k of K and V (each first narrowed to 16-bit floats by the host, which changes no
   value over the extended reals); the mask and relative-position blocks are the corresponding 256 × 128 windows. -/
import proofs.«103612_j35940286333141_2_alg».proof.Proof.Gen.KernelIdeal.Frame.Runs
import Idealize.ShloMosaic.Lib.Pipeline.Value
import Idealize.ShloMosaic.Lib.ValueIdx
import Idealize.ShloMosaic.Lib.StableHlo.Run

noncomputable section

namespace Cert.Attn.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Row 256 (t/16) + r of the query axis. -/
def qrow (t : Fin cfg0.N) (r : Fin 256) : Fin 2048 :=
  ⟨256 * (t.val / 16) + r.val, by have := t.isLt; have h : cfg0.N = 128 := N_0; have := r.isLt; omega⟩

/-- Row 128 (t%16) + k of the key axis. -/
def krow (t : Fin cfg0.N) (k : Fin 128) : Fin 2048 :=
  ⟨128 * (t.val % 16) + k.val, by have := k.isLt; omega⟩

theorem idx0 : ∀ t : Fin cfg0.N, win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)
theorem idx1 : ∀ t : Fin cfg0.N, win0_1.index t 0 = 0 ∧ win0_1.index t 1 = t.val % 16 ∧ win0_1.index t 2 = 0 :=
  (by decide +kernel : ∀ t : Fin grid0.N, win0_1.index t 0 = 0 ∧ win0_1.index t 1 = t.val % 16 ∧ win0_1.index t 2 = 0)
theorem idx2 : ∀ t : Fin cfg0.N, win0_2.index t 0 = 0 ∧ win0_2.index t 1 = t.val % 16 ∧ win0_2.index t 2 = 0 :=
  (by decide +kernel : ∀ t : Fin grid0.N, win0_2.index t 0 = 0 ∧ win0_2.index t 1 = t.val % 16 ∧ win0_2.index t 2 = 0)
theorem idx3 : ∀ t : Fin cfg0.N, win0_3.index t 0 = 0 ∧ win0_3.index t 1 = 0 ∧ win0_3.index t 2 = t.val / 16 ∧ win0_3.index t 3 = t.val % 16 :=
  (by decide +kernel : ∀ t : Fin grid0.N, win0_3.index t 0 = 0 ∧ win0_3.index t 1 = 0 ∧ win0_3.index t 2 = t.val / 16 ∧ win0_3.index t 3 = t.val % 16)
theorem idx4 : ∀ t : Fin cfg0.N, win0_4.index t 0 = 0 ∧ win0_4.index t 1 = 0 ∧ win0_4.index t 2 = t.val / 16 ∧ win0_4.index t 3 = t.val % 16 :=
  (by decide +kernel : ∀ t : Fin grid0.N, win0_4.index t 0 = 0 ∧ win0_4.index t 1 = 0 ∧ win0_4.index t 2 = t.val / 16 ∧ win0_4.index t 3 = t.val % 16)
theorem idx5 : ∀ t : Fin cfg0.N, win0_5.index t 0 = 0 ∧ win0_5.index t 1 = t.val / 16 ∧ win0_5.index t 2 = 0 :=
  (by decide +kernel : ∀ t : Fin grid0.N, win0_5.index t 0 = 0 ∧ win0_5.index t 1 = t.val / 16 ∧ win0_5.index t 2 = 0)

/-- The query block at point t, entry (b, r, x): Q at (b, 256 (t/16) + r, x). -/
theorem iblk0_apply (c : Dev nD) (t : Fin cfg0.N) (b : Fin 4) (r : Fin 256) (x : Fin 1024) :
    (iblk m c 0 t : Vec F S4x256x1024 .f32) (ix3 b r x) = V m c main_arg0 (ix3 b (qrow t r) x) := by
  unfold iblk
  rw [View.read_apply]
  show V m c main_arg0 _ = V m c main_arg0 _
  congr 1
  funext a
  apply Fin.ext
  match a with
  | ⟨0, _⟩ => show win0_0.index t 0 * 4 + 1 * b.val = b.val; rw [(idx0 t).1]; omega
  | ⟨1, _⟩ => show win0_0.index t 1 * 256 + 1 * r.val = 256 * (t.val / 16) + r.val; rw [(idx0 t).2.1]; omega
  | ⟨2, _⟩ => show win0_0.index t 2 * 1024 + 1 * x.val = x.val; rw [(idx0 t).2.2]; omega

/-- The key block at point t, entry (b, k, x): the narrowed K at (b, 128 (t%16) + k, x). -/
theorem iblk1_apply (c : Dev nD) (t : Fin cfg0.N) (b : Fin 4) (k : Fin 128) (x : Fin 1024) :
    (iblk m c 1 t : Vec F S4x128x1024 .bf16) (ix3 b k x) = V m c main_v0 (ix3 b (krow t k) x) := by
  unfold iblk
  rw [View.read_apply]
  show V m c main_v0 _ = V m c main_v0 _
  congr 1
  funext a
  apply Fin.ext
  match a with
  | ⟨0, _⟩ => show win0_1.index t 0 * 4 + 1 * b.val = b.val; rw [(idx1 t).1]; omega
  | ⟨1, _⟩ => show win0_1.index t 1 * 128 + 1 * k.val = 128 * (t.val % 16) + k.val; rw [(idx1 t).2.1]; omega
  | ⟨2, _⟩ => show win0_1.index t 2 * 1024 + 1 * x.val = x.val; rw [(idx1 t).2.2]; omega

/-- The value block at point t, entry (b, k, x): the narrowed V at (b, 128 (t%16) + k, x). -/
theorem iblk2_apply (c : Dev nD) (t : Fin cfg0.N) (b : Fin 4) (k : Fin 128) (x : Fin 1024) :
    (iblk m c 2 t : Vec F S4x128x1024 .bf16) (ix3 b k x) = V m c main_v1 (ix3 b (krow t k) x) := by
  unfold iblk
  rw [View.read_apply]
  show V m c main_v1 _ = V m c main_v1 _
  congr 1
  funext a
  apply Fin.ext
  match a with
  | ⟨0, _⟩ => show win0_2.index t 0 * 4 + 1 * b.val = b.val; rw [(idx2 t).1]; omega
  | ⟨1, _⟩ => show win0_2.index t 1 * 128 + 1 * k.val = 128 * (t.val % 16) + k.val; rw [(idx2 t).2.1]; omega
  | ⟨2, _⟩ => show win0_2.index t 2 * 1024 + 1 * x.val = x.val; rw [(idx2 t).2.2]; omega

/-- The mask block at point t, entry (b, 0, r, k): the mask at (b, 0, 256 (t/16) + r, 128 (t%16) + k). -/
theorem iblk3_apply (c : Dev nD) (t : Fin cfg0.N) (b : Fin 4) (r : Fin 256) (k : Fin 128) :
    (iblk m c 3 t : Vec F S4x1x256x128 .f32) (ix4 b 0 r k) = V m c main_arg3 (ix4 b 0 (qrow t r) (krow t k)) := by
  unfold iblk
  rw [View.read_apply]
  show V m c main_arg3 _ = V m c main_arg3 _
  congr 1
  funext a
  apply Fin.ext
  match a with
  | ⟨0, _⟩ => show win0_3.index t 0 * 4 + 1 * b.val = b.val; rw [(idx3 t).1]; omega
  | ⟨1, _⟩ => show win0_3.index t 1 * 1 + 1 * 0 = 0; rw [(idx3 t).2.1]
  | ⟨2, _⟩ => show win0_3.index t 2 * 256 + 1 * r.val = 256 * (t.val / 16) + r.val; rw [(idx3 t).2.2.1]; omega
  | ⟨3, _⟩ => show win0_3.index t 3 * 128 + 1 * k.val = 128 * (t.val % 16) + k.val; rw [(idx3 t).2.2.2]; omega

/-- The relative-position block at point t, entry (0, h, r, k): the term at (0, h, 256 (t/16) + r, 128 (t%16) + k). -/
theorem iblk4_apply (c : Dev nD) (t : Fin cfg0.N) (h : Fin 16) (r : Fin 256) (k : Fin 128) :
    (iblk m c 4 t : Vec F S1x16x256x128 .f32) (ix4 0 h r k) = V m c main_arg4 (ix4 0 h (qrow t r) (krow t k)) := by
  unfold iblk
  rw [View.read_apply]
  show V m c main_arg4 _ = V m c main_arg4 _
  congr 1
  funext a
  apply Fin.ext
  match a with
  | ⟨0, _⟩ => show win0_4.index t 0 * 1 + 1 * 0 = 0; rw [(idx4 t).1]
  | ⟨1, _⟩ => show win0_4.index t 1 * 16 + 1 * h.val = h.val; rw [(idx4 t).2.1]; omega
  | ⟨2, _⟩ => show win0_4.index t 2 * 256 + 1 * r.val = 256 * (t.val / 16) + r.val; rw [(idx4 t).2.2.1]; omega
  | ⟨3, _⟩ => show win0_4.index t 3 * 128 + 1 * k.val = 128 * (t.val % 16) + k.val; rw [(idx4 t).2.2.2]; omega

/-- The key array the region finds is the host's narrowing of the second argument. -/
theorem V_main_v0 (c : Dev nD) :
    (V m c main_v0 : S4x2048x1024.Idx → Elt F .bf16) = truncf .bf16 (m ((c : Thread nD τ).loc main_arg1)) Facts₀.bitsLt_bf16_f32 := by
  dsimp only [V, hostOps0]; after_results

/-- The value array the region finds is the host's narrowing of the third argument. -/
theorem V_main_v1 (c : Dev nD) :
    (V m c main_v1 : S4x2048x1024.Idx → Elt F .bf16) = truncf .bf16 (m ((c : Thread nD τ).loc main_arg2)) Facts₀.bitsLt_bf16_f32 := by
  dsimp only [V, hostOps0]; after_results

end Cert.Attn.Blocks

end
-- ==== Proof.StepDefs.lean ====
/- One step of the kernel for one (batch, head) pair and one block of 128 keys, and the last block's division, written
   as functions of the blocks the step reads.

   The step reads a 256 × 64 block of queries q, 128 × 64 blocks of keys k and values v, 256 × 128 blocks of the mask and
   of the relative-position term, and the three running quantities of its 256 rows: the reference point m (a column),
   the sum l (a column) and the unnormalised result acc (256 × 64).  It forms the block of scores
     s = (q kᵀ - mask + rel) · 1/8,
   moves the reference point to m' = max m (row maximum of s), and rescales:
     l' = exp (m - m') · l + Σ_k exp (s - m'),    acc' = exp (m - m') · acc + exp (s - m') v.
   After the last block a pair of heads sharing 128 lanes is divided, each half by its own sum: acc · (1 / l). -/
import proofs.«103612_j35940286333141_2_alg».proof.KernelIdeal

noncomputable section

namespace Cert.Attn.Step

open Idealize.ShloMosaic Cert.KernelIdeal

variable {F : FTy → Type} [FloatOps F] [Cert.KernelIdeal.Facts]
open Cert.KernelIdeal.Facts₀ Cert.KernelIdeal.Facts

/-- The block of scores (q kᵀ - mask + rel) · 1/8. -/
def scores (q : FVec F S256x64 .f32) (k : FVec F S128x64 .bf16) (mb rp : FVec F S256x128 .f32) : FVec F S256x128 .f32 :=
  mulf (addf (subf (matmul dot_S256x64_S128x64_S256x128_1_1_0_0_n_n none (truncf .bf16 q bitsLt_bf16_f32) k (constant S256x128 .f32 0x00000000#32)) mb) rp)
    (broadcast S256x128 (Scalar.ofBits .f32 0x3E000000#32))

/-- The new reference point: the old one against the block's row maximum. -/
def mNew (m : FVec F S256x1 .f32) (s : FVec F S256x128 .f32) : FVec F S256x1 .f32 :=
  maximumf m (shapeCast S256x1 (multiReduction .maximumf [1] S256 s 0xFF800000#32 reduces_S256x128_S256 (.inl rfl) rfl) shapeCasts_S256_S256x1)

/-- The factor exp (m - m') the old sums are rescaled by. -/
def alpha (m : FVec F S256x1 .f32) (s : FVec F S256x128 .f32) : FVec F S256x1 .f32 :=
  exp (subf m (mNew m s))

/-- The block's exponentials exp (s - m'). -/
def expo (m : FVec F S256x1 .f32) (s : FVec F S256x128 .f32) : FVec F S256x128 .f32 :=
  exp (subf s (broadcastTo S256x128 (mNew m s) broadcasts_S256x1_S256x128))

/-- The new sum exp (m - m') · l + Σ_k exp (s - m'). -/
def lNew (m l : FVec F S256x1 .f32) (s : FVec F S256x128 .f32) : FVec F S256x1 .f32 :=
  addf (mulf (alpha m s) l)
    (shapeCast S256x1 (multiReduction .add [1] S256 (expo m s) 0x00000000#32 reduces_S256x128_S256 (.inl rfl) rfl) shapeCasts_S256_S256x1)

/-- The new unnormalised result exp (m - m') · acc + exp (s - m') v. -/
def accNew (m : FVec F S256x1 .f32) (acc : FVec F S256x64 .f32) (s : FVec F S256x128 .f32) (v : FVec F S128x64 .bf16) : FVec F S256x64 .f32 :=
  addf (mulf (broadcastTo S256x64 (alpha m s) broadcasts_S256x1_S256x64) acc)
    (matmul dot_S256x128_S128x64_S256x64_1_0_0_1_n_n none (truncf .bf16 (expo m s) bitsLt_bf16_f32) v (constant S256x64 .f32 0x00000000#32))

/-- The reciprocal 1 / l of a column of sums. -/
def recip (l : FVec F S256x1 .f32) : FVec F S256x1 .f32 :=
  divf (broadcast S256x1 (Scalar.ofBits .f32 0x3F800000#32)) l

/-- The last block's result for a pair of heads side by side in 128 lanes: each half times the reciprocal of its own sum. -/
def finalPair (l0 l1 : FVec F S256x1 .f32) (a : FVec F S256x128 .f32) : FVec F S256x128 .f32 :=
  concatenate S256x128 1
    [⟨S256x64, mulf (extractStridedSlice S256x64 ![0, 0] a slices_S256x128_o0_0_S256x64) (broadcastTo S256x64 (recip l0) broadcasts_S256x1_S256x64)⟩,
     ⟨S256x64, mulf (extractStridedSlice S256x64 ![0, 64] a slices_S256x128_o0_64_S256x64) (broadcastTo S256x64 (recip l1) broadcasts_S256x1_S256x64)⟩]
    concatenates_S256x64_S256x64_S256x128_d1

end Cert.Attn.Step

end
-- ==== Proof.ScratchFns.lean ====
/- What one grid point leaves in the kernel's three running buffers and in its output block, as functions of the blocks
   it reads and of what the buffers held before.

   The buffers are laid out by batch b, query row r of the tile, and head h: the reference point m and the sum l as
   [4, 256, 16] (entry (b, r, h)), the unnormalised result as [4, 8, 256, 128] (entry (b, h / 2, r, 64 (h % 2) + d) for
   feature d of head h: two heads share 128 lanes).  A grid point applies the step of one block of 128 keys to every
   (b, h) independently, each reading columns 64 h … 64 h + 63 of the query, key and value blocks of batch b, the mask
   block of batch b and the relative-position block of head h.  The last grid point of a query tile then divides. -/
import proofs.«103612_j35940286333141_2_alg».proof.Proof.StepDefs
import proofs.«103612_j35940286333141_2_alg».proof.Proof.Spec
import Idealize.ShloMosaic.Lib.ValueIdx

noncomputable section

namespace Cert.Attn.Scratch

open Idealize.ShloMosaic Idealize.ShloMosaic.ValueIdx Cert.KernelIdeal Cert.Attn

variable {F : FTy → Type} [FloatOps F] [Cert.KernelIdeal.Facts]

/-- The pair of heads 2 hp, 2 hp + 1 that share lane block hp, and a head's lane block and half. -/
def headLo (hp : Fin 8) : Fin 16 := ⟨2 * hp.val, by have := hp.isLt; omega⟩
def headHi (hp : Fin 8) : Fin 16 := ⟨2 * hp.val + 1, by have := hp.isLt; omega⟩
def pairOfHead (h : Fin 16) : Fin 8 := ⟨h.val / 2, by have := h.isLt; omega⟩
/-- Lane 64 (h % 2) + d of the pair's 128 lanes: feature d of head h. -/
def lane (h : Fin 16) (d : Fin 64) : Fin 128 := ⟨64 * (h.val % 2) + d.val, by have := d.isLt; omega⟩
/-- The head a lane of lane block hp belongs to, and its feature. -/
def headOfLane (hp : Fin 8) (x : Fin 128) : Fin 16 := ⟨2 * hp.val + x.val / 64, by have := hp.isLt; have := x.isLt; omega⟩
def featOfLane (x : Fin 128) : Fin 64 := ⟨x.val % 64, Nat.mod_lt _ (by norm_num)⟩

/-- Head h's 256 × 64 block of the query block of batch b. -/
def qOf (x0 : Vec F S4x256x1024 .f32) (b : Fin 4) (h : Fin 16) : FVec F S256x64 .f32 :=
  fun j => x0 (ix3 b (j 0) (col h (j 1)))
/-- Head h's 128 × 64 block of the key (or value) block of batch b. -/
def kOf (x1 : Vec F S4x128x1024 .bf16) (b : Fin 4) (h : Fin 16) : FVec F S128x64 .bf16 :=
  fun j => x1 (ix3 b (j 0) (col h (j 1)))
/-- Batch b's 256 × 128 block of the mask block. -/
def mbOf (x3 : Vec F S4x1x256x128 .f32) (b : Fin 4) : FVec F S256x128 .f32 :=
  fun j => x3 (ix4 b 0 (j 0) (j 1))
/-- Head h's 256 × 128 block of the relative-position block. -/
def rpOf (x4 : Vec F S1x16x256x128 .f32) (h : Fin 16) : FVec F S256x128 .f32 :=
  fun j => x4 (ix4 0 h (j 0) (j 1))
/-- The column of (b, h) in a [4, 256, 16] buffer. -/
def colOf (xs : Vec F S4x256x16 .f32) (b : Fin 4) (h : Fin 16) : FVec F S256x1 .f32 :=
  fun j => xs (ix3 b (j 0) h)
/-- The 256 × 64 block of (b, h) in the [4, 8, 256, 128] buffer. -/
def accOf (xs0 : Vec F S4x8x256x128 .f32) (b : Fin 4) (h : Fin 16) : FVec F S256x64 .f32 :=
  fun j => xs0 (ix4 b (pairOfHead h) (j 0) (lane h (j 1)))
/-- The 256 × 128 block of batch b and lane block hp in the [4, 8, 256, 128] buffer. -/
def pairOf (xs0 : Vec F S4x8x256x128 .f32) (b : Fin 4) (hp : Fin 8) : FVec F S256x128 .f32 :=
  fun j => xs0 (ix4 b hp (j 0) (j 1))

/-- The block of scores of (b, h) at this grid point. -/
def sOf (x0 : Vec F S4x256x1024 .f32) (x1 : Vec F S4x128x1024 .bf16) (x3 : Vec F S4x1x256x128 .f32) (x4 : Vec F S1x16x256x128 .f32)
    (b : Fin 4) (h : Fin 16) : FVec F S256x128 .f32 :=
  Step.scores (qOf x0 b h) (kOf x1 b h) (mbOf x3 b) (rpOf x4 h)

/-- What the point leaves in the reference-point buffer. -/
def mStep (x0 : Vec F S4x256x1024 .f32) (x1 : Vec F S4x128x1024 .bf16) (x3 : Vec F S4x1x256x128 .f32) (x4 : Vec F S1x16x256x128 .f32)
    (xs1 : Vec F S4x256x16 .f32) : Vec F S4x256x16 .f32 :=
  fun y => Step.mNew (colOf xs1 (y 0) (y 2)) (sOf x0 x1 x3 x4 (y 0) (y 2)) (ix2 (y 1) 0)

/-- What the point leaves in the sum buffer. -/
def lStep (x0 : Vec F S4x256x1024 .f32) (x1 : Vec F S4x128x1024 .bf16) (x3 : Vec F S4x1x256x128 .f32) (x4 : Vec F S1x16x256x128 .f32)
    (xs1 xs2 : Vec F S4x256x16 .f32) : Vec F S4x256x16 .f32 :=
  fun y => Step.lNew (colOf xs1 (y 0) (y 2)) (colOf xs2 (y 0) (y 2)) (sOf x0 x1 x3 x4 (y 0) (y 2)) (ix2 (y 1) 0)

/-- What the point leaves in the unnormalised-result buffer. -/
def aStep (x0 : Vec F S4x256x1024 .f32) (x1 x2 : Vec F S4x128x1024 .bf16) (x3 : Vec F S4x1x256x128 .f32) (x4 : Vec F S1x16x256x128 .f32)
    (xs0 : Vec F S4x8x256x128 .f32) (xs1 : Vec F S4x256x16 .f32) : Vec F S4x8x256x128 .f32 :=
  fun y => Step.accNew (colOf xs1 (y 0) (headOfLane (y 1) (y 3))) (accOf xs0 (y 0) (headOfLane (y 1) (y 3)))
    (sOf x0 x1 x3 x4 (y 0) (headOfLane (y 1) (y 3))) (kOf x2 (y 0) (headOfLane (y 1) (y 3))) (ix2 (y 2) (featOfLane (y 3)))

/-- The lane block a column of the 1024 features belongs to, and its lane inside it. -/
def pairOfCol (x : Fin 1024) : Fin 8 := ⟨x.val / 128, by have := x.isLt; omega⟩
def laneOfCol (x : Fin 1024) : Fin 128 := ⟨x.val % 128, Nat.mod_lt _ (by norm_num)⟩

/-- What the last point of a query tile writes to the output block: every pair of heads divided by its sums. -/
def outFinal (a : Vec F S4x8x256x128 .f32) (l : Vec F S4x256x16 .f32) : Vec F S4x256x1024 .f32 :=
  fun y => Step.finalPair (colOf l (y 0) (headLo (pairOfCol (y 2)))) (colOf l (y 0) (headHi (pairOfCol (y 2))))
    (pairOf a (y 0) (pairOfCol (y 2))) (ix2 (y 1) (laneOfCol (y 2)))

/-- The contents the first point of a query tile stores before its step: the finite starting reference point, zero sums. -/
def mInit : Vec F S4x256x16 .f32 := broadcast S4x256x16 (Scalar.ofBits .f32 0xFF333332#32)
def lInit : Vec F S4x256x16 .f32 := broadcast S4x256x16 (Scalar.ofBits .f32 0x00000000#32)
def aInit : Vec F S4x8x256x128 .f32 := broadcast S4x8x256x128 (Scalar.ofBits .f32 0x00000000#32)

end Cert.Attn.Scratch

end
-- ==== Proof.LibOnline.lean ====
/-
  General lemmas on the extended reals for a softmax computed chunk by chunk.

  A row of finite scores `s : ι → ℝ` is split into chunks. The ONLINE computation keeps a running maximum `M` and a
  running sum `L` of `exp (s - M)`; a chunk with maximum `m'` and scores `s'` updates them to
  `M' = max M m'` and `L' = L * exp (M - M') + ∑ exp (s' - M')`. Because `exp (x - M) * exp (M - M') = exp (x - M')`
  on the reals, `L'` is again the sum of `exp (· - M')` over everything seen; started from `M = -∞`, `L = 0` (where
  `exp (-∞ - M') = 0` kills the empty prefix), the final pair is the maximum and the softmax denominator of the whole
  row. The same identity combines partial pairs `(M_c, L_c)` of disjoint parts: `∑_c L_c * exp (M_c - G)` with
  `G = max_c M_c` is the denominator at `G`.
-/
import Idealize.ShloMosaic.PureOps.Ideal.Laws

noncomputable section

namespace Cert.LibOnline

open Idealize.ShloMosaic

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals read in the extended reals, folded from `-∞`, is a real when there is at least one. -/
theorem sup_coe_real {ι : Type*} (s : Finset ι) (hs : s.Nonempty) (f : ι → ℝ) :
    ∃ g : ℝ, s.sup (fun i => (f i : EReal)) = (g : EReal) ∧ (∀ i ∈ s, f i ≤ g) := by
  obtain ⟨i, hi, h⟩ := Finset.exists_mem_eq_sup s hs (fun i => (f i : EReal))
  refine ⟨f i, h, fun j hj => ?_⟩
  have : ((f j : ℝ) : EReal) ≤ s.sup (fun i => (f i : EReal)) := Finset.le_sup (f := fun i => (f i : EReal)) hj
  rw [h] at this
  exact EReal.coe_le_coe_iff.mp this

/-- `Finset.fold max ⊥` is the finite supremum. -/
theorem fold_max_eq_sup {ι : Type*} (s : Finset ι) (f : ι → EReal) : s.fold max ⊥ f = s.sup f := rfl

/-- The exponential of a difference of reals, in the extended reals. -/
theorem exp_coe_sub (x y : ℝ) : Ideal.exp ((x : EReal) - (y : EReal)) = ((Real.exp (x - y) : ℝ) : EReal) := by
  rw [← EReal.coe_sub, Ideal.exp_coe]

/-- The exponential of `-∞ - y` is zero. -/
theorem exp_bot_sub (y : ℝ) : Ideal.exp ((⊥ : EReal) - (y : EReal)) = 0 := by
  rw [EReal.bot_sub, Ideal.exp_bot]

/-- ONE ONLINE STEP, from a real running maximum: the rescaled old sum plus the new chunk's sum is the sum over both. -/
theorem online_step {ι κ : Type*} (A : Finset ι) (B : Finset κ) (s : ι → ℝ) (s' : κ → ℝ) (a b : ℝ) :
    (∑ i ∈ A, Ideal.exp ((s i : EReal) - (a : EReal))) * Ideal.exp ((a : EReal) - (b : EReal))
        + ∑ k ∈ B, Ideal.exp ((s' k : EReal) - (b : EReal))
      = ∑ i ∈ A, Ideal.exp ((s i : EReal) - (b : EReal)) + ∑ k ∈ B, Ideal.exp ((s' k : EReal) - (b : EReal)) := by
  congr 1
  simp only [exp_coe_sub]
  rw [← coe_sum, ← coe_sum, ← EReal.coe_mul, Finset.sum_mul]
  congr 1
  refine Finset.sum_congr rfl fun i _ => ?_
  rw [← Real.exp_add]
  congr 1; ring

/-- THE FIRST STEP, from `M = -∞`, `L = 0`: the empty prefix contributes nothing. -/
theorem online_first (b : ℝ) (T : EReal) : (0 : EReal) * Ideal.exp ((⊥ : EReal) - (b : EReal)) + T = T := by
  rw [zero_mul, zero_add]

/-! ## The whole recurrence -/

section Recurrence

variable {P : Type*} [Fintype P] [Nonempty P]

/-- The chunk maximum, folded from `-∞`. -/
def cmax (s : ℕ → P → ℝ) (i : ℕ) : EReal := Finset.univ.sup fun p => (s i p : EReal)

/-- The running maximum after chunk `i`, started from `-∞`. -/
def runM (s : ℕ → P → ℝ) : ℕ → EReal
  | 0 => max ⊥ (cmax s 0)
  | i + 1 => max (runM s i) (cmax s (i + 1))

/-- The running sum after chunk `i`, started from `0` beside the maximum `-∞`. -/
def runL (s : ℕ → P → ℝ) : ℕ → EReal
  | 0 => (0 : EReal) * Ideal.exp ((⊥ : EReal) - runM s 0) + ∑ p, Ideal.exp ((s 0 p : EReal) - runM s 0)
  | i + 1 => runL s i * Ideal.exp (runM s i - runM s (i + 1)) + ∑ p, Ideal.exp ((s (i + 1) p : EReal) - runM s (i + 1))

theorem cmax_real (s : ℕ → P → ℝ) (i : ℕ) : ∃ a : ℝ, cmax s i = (a : EReal) := by
  obtain ⟨g, hg, -⟩ := sup_coe_real (Finset.univ : Finset P) Finset.univ_nonempty (s i)
  exact ⟨g, hg⟩

theorem runM_real (s : ℕ → P → ℝ) : ∀ i, ∃ a : ℝ, runM s i = (a : EReal)
  | 0 => by
    obtain ⟨a, ha⟩ := cmax_real s 0
    exact ⟨a, by show max ⊥ (cmax s 0) = _; rw [ha, max_eq_right bot_le]⟩
  | i + 1 => by
    obtain ⟨a, ha⟩ := runM_real s i
    obtain ⟨b, hb⟩ := cmax_real s (i + 1)
    exact ⟨max a b, by show max (runM s i) (cmax s (i + 1)) = _; rw [ha, hb]; exact (EReal.coe_strictMono.monotone.map_max).symm⟩

/-- The running maximum is the maximum over every chunk seen. -/
theorem runM_eq_sup (s : ℕ → P → ℝ) : ∀ i, runM s i = (Finset.range (i + 1)).sup fun i' => cmax s i'
  | 0 => by
    show max ⊥ (cmax s 0) = _
    rw [max_eq_right bot_le, Finset.range_one, Finset.sup_singleton]
  | i + 1 => by
    show max (runM s i) (cmax s (i + 1)) = _
    rw [runM_eq_sup s i, Finset.range_add_one (n := i + 1), Finset.sup_insert, max_comm]

/-- THE INVARIANT: the running sum is the sum, over every chunk seen, of `exp (score - running maximum)`. -/
theorem runL_eq_sum (s : ℕ → P → ℝ) : ∀ i,
    runL s i = ∑ i' ∈ Finset.range (i + 1), ∑ p, Ideal.exp ((s i' p : EReal) - runM s i)
  | 0 => by
    show (0 : EReal) * Ideal.exp ((⊥ : EReal) - runM s 0) + _ = _
    rw [zero_mul, zero_add, Finset.range_one, Finset.sum_singleton]
  | i + 1 => by
    obtain ⟨a, ha⟩ := runM_real s i
    obtain ⟨b, hb⟩ := runM_real s (i + 1)
    show runL s i * Ideal.exp (runM s i - runM s (i + 1)) + _ = _
    rw [runL_eq_sum s i, Finset.sum_range_succ (n := i + 1), ha, hb]
    congr 1
    -- the seen chunks, rescaled from `a` to `b`
    have hcoe : ∀ (x y : ℝ), Ideal.exp ((x : EReal) - (y : EReal)) = ((Real.exp (x - y) : ℝ) : EReal) := exp_coe_sub
    simp only [hcoe]
    simp only [← coe_sum]
    rw [← EReal.coe_mul, Finset.sum_mul]
    congr 1
    refine Finset.sum_congr rfl fun i' _ => ?_
    rw [Finset.sum_mul]
    refine Finset.sum_congr rfl fun p _ => ?_
    rw [← Real.exp_add]
    congr 1; ring

end Recurrence

end Cert.LibOnline

end
-- ==== Proof.OnlineSoftmax.lean ====
/- The online form of a softmax-weighted sum.

   A row of real scores σ : ι → ℝ with real values ν : ι → ℝ is consumed a block of keys at a time.  A pair (m, a) of
   extended reals TRACKS a set J of keys when m is a real number and a = Σ_{j ∈ J} exp (σ j - m) · ν j.  Nothing tracks
   less than the empty set from any real m with a = 0.  Consuming a block B of new keys moves the reference point to
   m' = max m (max_B σ), and exp (m - m') · a + Σ_{k ∈ B} exp (σ k - m') · ν k tracks J ∪ B from m', because
   exp (m - m') · exp (σ j - m) = exp (σ j - m').  When all keys are consumed, the weighted sum a over the plain sum l
   (the same with ν = 1) is the softmax-weighted sum of ν, whatever real reference point the pair ended at. -/
import proofs.«103612_j35940286333141_2_alg».proof.Proof.LibOnline

noncomputable section

namespace Cert.Attn.Online

open Idealize.ShloMosaic Finset Cert.LibOnline

/-- Moving the reference point of an exponential sum: exp (m - m') · Σ exp (σ k - m) · w k = Σ exp (σ k - m') · w k. -/
theorem rescale_sum {ι : Type*} (t : Finset ι) (s w : ι → ℝ) (m m' : ℝ) :
    Real.exp (m - m') * ∑ k ∈ t, Real.exp (s k - m) * w k = ∑ k ∈ t, Real.exp (s k - m') * w k := by
  rw [Finset.mul_sum]
  refine Finset.sum_congr rfl fun k _ => ?_
  rw [← mul_assoc, ← Real.exp_add]
  congr 2
  ring

/-- The softmax-weighted sum does not depend on the reference point. -/
theorem quotient_shift {ι : Type*} (t : Finset ι) (s v : ι → ℝ) (m m' : ℝ) :
    (∑ k ∈ t, Real.exp (s k - m) * v k) * (1 / ∑ k ∈ t, Real.exp (s k - m))
      = (∑ k ∈ t, Real.exp (s k - m') * v k) * (1 / ∑ k ∈ t, Real.exp (s k - m')) := by
  have h1 := rescale_sum t s v m m'
  have h2 := rescale_sum t s (fun _ => 1) m m'
  simp only [mul_one] at h2
  rw [← h1, ← h2]
  have he : Real.exp (m - m') ≠ 0 := (Real.exp_pos _).ne'
  field_simp

/-- The pair (m, a) tracks the keys J: m is real and a is the exponential sum over J, weighted by ν, taken at m. -/
def Tracks {ι : Type*} (J : Finset ι) (σ ν : ι → ℝ) (m a : EReal) : Prop :=
  ∃ mr : ℝ, m = (mr : EReal) ∧ a = ((∑ j ∈ J, Real.exp (σ j - mr) * ν j : ℝ) : EReal)

/-- From any real reference point, zero tracks no keys. -/
theorem tracks_empty {ι : Type*} (σ ν : ι → ℝ) (mr : ℝ) : Tracks (∅ : Finset ι) σ ν (mr : EReal) 0 :=
  ⟨mr, rfl, by simp⟩

/-- A real against the maximum of finitely many reals (folded from -∞) is a real. -/
theorem max_sup_real {κ : Type*} (B : Finset κ) (f : κ → ℝ) (mr : ℝ) :
    ∃ r : ℝ, max (mr : EReal) (B.sup fun c => (f c : EReal)) = (r : EReal) := by
  classical
  induction B using Finset.induction_on with
  | empty => exact ⟨mr, by simp⟩
  | insert b B hb ih =>
    obtain ⟨r, hr⟩ := ih
    refine ⟨max (f b) r, ?_⟩
    rw [Finset.sup_insert, max_left_comm, hr]
    exact (EReal.coe_strictMono.monotone.map_max).symm

/-- ONE BLOCK: consuming the keys `e c`, none of them in J, from a pair tracking J gives a pair tracking J with the block. -/
theorem Tracks.step {ι κ : Type*} [DecidableEq ι] [Fintype κ] {J : Finset ι} {σ ν : ι → ℝ} {m a : EReal}
    (h : Tracks J σ ν m a) (e : κ ↪ ι) (hd : ∀ c, e c ∉ J) :
    Tracks (J ∪ Finset.univ.map e) σ ν (max m (Finset.univ.sup fun c => (σ (e c) : EReal)))
      (Ideal.exp (m - max m (Finset.univ.sup fun c => (σ (e c) : EReal))) * a
        + ∑ c, Ideal.exp ((σ (e c) : EReal) - max m (Finset.univ.sup fun c => (σ (e c) : EReal))) * (ν (e c) : EReal)) := by
  obtain ⟨mr, rfl, rfl⟩ := h
  obtain ⟨r, hr⟩ := max_sup_real Finset.univ (fun c => σ (e c)) mr
  rw [hr]
  refine ⟨r, rfl, ?_⟩
  have hdisj : Disjoint J (Finset.univ.map e) := by
    rw [Finset.disjoint_right]
    intro x hx
    obtain ⟨c, -, rfl⟩ := Finset.mem_map.mp hx
    exact hd c
  simp only [exp_coe_sub]
  simp only [← EReal.coe_mul]
  rw [← coe_sum, ← EReal.coe_add]
  congr 1
  rw [Finset.sum_union hdisj, Finset.sum_map, rescale_sum]

/-- The same block for the plain sum (ν = 1), in the form without the factor 1. -/
theorem Tracks.step_one {ι κ : Type*} [DecidableEq ι] [Fintype κ] {J : Finset ι} {σ : ι → ℝ} {m l : EReal}
    (h : Tracks J σ (fun _ => 1) m l) (e : κ ↪ ι) (hd : ∀ c, e c ∉ J) :
    Tracks (J ∪ Finset.univ.map e) σ (fun _ => 1) (max m (Finset.univ.sup fun c => (σ (e c) : EReal)))
      (Ideal.exp (m - max m (Finset.univ.sup fun c => (σ (e c) : EReal))) * l
        + ∑ c, Ideal.exp ((σ (e c) : EReal) - max m (Finset.univ.sup fun c => (σ (e c) : EReal)))) := by
  have h' := h.step e hd
  simpa only [EReal.coe_one, mul_one] using h'

/-- ALL KEYS CONSUMED: the weighted sum times the reciprocal of the plain sum is the softmax-weighted sum of ν, the
    softmax taken at the row's maximum. -/
theorem Tracks.final {ι : Type*} [Fintype ι] [Nonempty ι] {σ ν : ι → ℝ} {m l a : EReal}
    (hl : Tracks Finset.univ σ (fun _ => 1) m l) (ha : Tracks Finset.univ σ ν m a) :
    a * Ideal.div 1 l
      = ∑ k, Ideal.div (Ideal.exp ((σ k : EReal) - Finset.univ.sup fun k' => (σ k' : EReal)))
          (∑ k', Ideal.exp ((σ k' : EReal) - Finset.univ.sup fun k'' => (σ k'' : EReal))) * (ν k : EReal) := by
  obtain ⟨mr, rfl, rfl⟩ := hl
  obtain ⟨mr', hmr, rfl⟩ := ha
  obtain rfl : mr = mr' := EReal.coe_injective hmr
  obtain ⟨g, hg, -⟩ := sup_coe_real (Finset.univ : Finset ι) Finset.univ_nonempty σ
  rw [hg]
  simp only [exp_coe_sub, mul_one]
  simp only [← coe_sum]
  have hpos : ∀ x : ℝ, (∑ k : ι, Real.exp (σ k - x)) ≠ 0 := fun x =>
    (Finset.sum_pos (fun k _ => Real.exp_pos _) Finset.univ_nonempty).ne'
  rw [Ideal.div_coe (hpos mr)]
  simp only [Ideal.div_coe (hpos g)]
  rw [← EReal.coe_one, ← EReal.coe_mul, ← EReal.coe_mul]
  simp only [← EReal.coe_mul]
  rw [← coe_sum]
  congr 1
  rw [one_mul, quotient_shift Finset.univ σ ν mr g, Finset.sum_mul]
  refine Finset.sum_congr rfl fun k _ => ?_
  ring

end Cert.Attn.Online

end
-- ==== Proof.InvDefs.lean ====
/- The invariant of the kernel's run over the grid points of one query tile.

   Grid point t is query tile t / 16 and key block t % 16.  After point t the kernel has consumed the keys
   0 … 128 (t % 16 + 1) - 1 of every row of the tile.  For batch b, head h and row r of the tile (query 256 (t/16) + r),
   with σ the row's real scores and ν the real values of one feature column, the reference-point buffer's entry tracks
   those keys together with the sum buffer's entry (weights 1) and with the unnormalised-result buffer's entry
   (weights ν), in the sense of the online softmax. -/
import proofs.«103612_j35940286333141_2_alg».proof.Proof.Gen.KernelIdeal.Frame
import proofs.«103612_j35940286333141_2_alg».proof.Proof.Blocks
import proofs.«103612_j35940286333141_2_alg».proof.Proof.ScratchFns
import proofs.«103612_j35940286333141_2_alg».proof.Proof.OnlineSoftmax
import proofs.«103612_j35940286333141_2_alg».proof.Proof.Spec

noncomputable section

namespace Cert.Attn.Kernel

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (c : Dev nD)

/-- The five argument arrays, as the memory holds them at launch. -/
abbrev argQ : SQ.Idx → EReal := m ((c : Thread nD τ).loc main_arg0)
abbrev argK : SQ.Idx → EReal := m ((c : Thread nD τ).loc main_arg1)
abbrev argV : SQ.Idx → EReal := m ((c : Thread nD τ).loc main_arg2)
abbrev argM : SM.Idx → EReal := m ((c : Thread nD τ).loc main_arg3)
abbrev argR : SR.Idx → EReal := m ((c : Thread nD τ).loc main_arg4)

/-- The keys consumed after grid point t of its query tile. -/
def seen (t : Fin cfg0.N) : Finset (Fin 2048) := Finset.univ.filter fun K => K.val < 128 * (t.val % 16 + 1)

/-- The invariant at point t for batch b, tile row r, head h. -/
def InvAt (σ : Fin 4 → Fin 16 → Fin 2048 → Fin 2048 → ℝ) (ν : SQ.Idx → ℝ)
    (t : Fin cfg0.N) (b : Fin 4) (r : Fin 256) (h : Fin 16) : Prop :=
  Online.Tracks (seen t) (σ b h (Blocks.qrow t r)) (fun _ => 1)
      ((outsAt0 m c t.val t.isLt).2.2.1 (ix3 b r h)) ((outsAt0 m c t.val t.isLt).2.2.2 (ix3 b r h))
    ∧ ∀ d : Fin 64, Online.Tracks (seen t) (σ b h (Blocks.qrow t r)) (fun K => ν (ix3 b K (col h d)))
      ((outsAt0 m c t.val t.isLt).2.2.1 (ix3 b r h))
      ((outsAt0 m c t.val t.isLt).2.1 (ix4 b (Scratch.pairOfHead h) r (Scratch.lane h d)))

end Cert.Attn.Kernel

end
-- ==== Proof.PieceBlocks.lean ====
/- The blocks one (batch, head) iteration of the kernel body loads and stores, read back: a block loaded through a
   unit-stride rectangle of a whole buffer and recast to two axes is the corresponding block function of the buffer's
   contents; a column or block recast for its store is read at the rectangle's own index; and the payload an iteration
   stores into each running buffer is the whole-buffer step function on the iteration's rectangle. -/
import proofs.«103612_j35940286333141_2_alg».proof.Proof.Gen.KernelIdeal.Frame
import proofs.«103612_j35940286333141_2_alg».proof.Proof.ScratchFns
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

theorem inb_q (b h : ℕ) (hb : b < 4) (hh : h < 16) : ∀ a : Fin 3, (![b, 0, 64 * h] : Fin 3 → ℕ) a + S1x256x64.size a ≤ S4x256x1024.size a := by
  intro a
  fin_cases a <;> simp [Shape.size] <;> omega

theorem qX_eq (b h cq : ℕ) (hb : b < 4) (hh : h < 16) (hcq : cq = 64 * h) (arg2 : Memref sig .tc .vmem S4x256x1024 .f32) (harg2 : arg2.IsWhole) (x0 : Vec F S4x256x1024 .f32)
    (inb : ∀ a : Fin 3, (![b, 0, cq] : Fin 3 → ℕ) a + S1x256x64.size a ≤ S4x256x1024.size a) :
    shapeCast S256x64 (View.readAt (Elt F) arg2.view (Rect.unit (s := S4x256x1024) ![b, 0, cq] S1x256x64.size inb).toLoadRect (harg2.unread x0)) shapeCasts_S1x256x64_S256x64
      = Scratch.qOf x0 ⟨b, hb⟩ ⟨h, hh⟩ := by
  funext j
  rw [View.readAt_eq_ld, harg2.read_unread]
  rw [shapeCast_dropUnit_apply]
  unfold View.ld Scratch.qOf
  congr 1
  funext a
  apply Fin.ext
  match a with
  | ⟨0, _⟩ => show b + 1 * 0 = b; omega
  | ⟨1, _⟩ => show 0 + 1 * (j 0).val = (j 0).val; omega
  | ⟨2, _⟩ => show cq + 1 * (j 1).val = 64 * h + (j 1).val; omega

theorem inb_m (b h : ℕ) (hb : b < 4) (hh : h < 16) : ∀ a : Fin 3, (![b, 0, h] : Fin 3 → ℕ) a + S1x256x1.size a ≤ S4x256x16.size a := by
  intro a
  fin_cases a <;> simp [Shape.size] <;> omega

theorem colX_eq (b h : ℕ) (hb : b < 4) (hh : h < 16) (arg9 : Memref sig .tc .vmem S4x256x16 .f32) (harg9 : arg9.IsWhole) (xs : Vec F S4x256x16 .f32)
    (inb : ∀ a : Fin 3, (![b, 0, h] : Fin 3 → ℕ) a + S1x256x1.size a ≤ S4x256x16.size a) :
    shapeCast S256x1 (View.readAt (Elt F) arg9.view (Rect.unit (s := S4x256x16) ![b, 0, h] S1x256x1.size inb).toLoadRect (harg9.unread xs)) shapeCasts_S1x256x1_S256x1
      = Scratch.colOf xs ⟨b, hb⟩ ⟨h, hh⟩ := by
  funext j
  rw [View.readAt_eq_ld, harg9.read_unread]
  rw [shapeCast_dropUnit_apply]
  unfold View.ld Scratch.colOf
  congr 1
  funext a
  apply Fin.ext
  match a with
  | ⟨0, _⟩ => show b + 1 * 0 = b; omega
  | ⟨1, _⟩ => show 0 + 1 * (j 0).val = (j 0).val; omega
  | ⟨2, _⟩ => show h + 1 * (j 1).val = h; have := (j 1).isLt; simp at this; omega

/-- the store side: a [256,1] column cast to [1,256,1] -/
theorem storeCol_apply (v : FVec F S256x1 .f32) (x : S1x256x1.Idx) :
    shapeCast S1x256x1 v shapeCasts_S256x1_S1x256x1 x = v (ix2 (x 1) (x 2)) := by
  rw [shapeCast_addUnit_apply]
  congr 1
  funext a
  match a with
  | ⟨0, _⟩ => rfl
  | ⟨1, _⟩ => rfl

theorem inb_k (b h : ℕ) (hb : b < 4) (hh : h < 16) : ∀ a : Fin 3, (![b, 0, 64 * h] : Fin 3 → ℕ) a + S1x128x64.size a ≤ S4x128x1024.size a := by
  intro a
  fin_cases a <;> simp [Shape.size] <;> omega

theorem kX_eq (b h cq : ℕ) (hb : b < 4) (hh : h < 16) (hcq : cq = 64 * h) (arg3 : Memref sig .tc .vmem S4x128x1024 .bf16) (harg3 : arg3.IsWhole) (x1 : Vec F S4x128x1024 .bf16)
    (inb : ∀ a : Fin 3, (![b, 0, cq] : Fin 3 → ℕ) a + S1x128x64.size a ≤ S4x128x1024.size a) :
    shapeCast S128x64 (View.readAt (Elt F) arg3.view (Rect.unit (s := S4x128x1024) ![b, 0, cq] S1x128x64.size inb).toLoadRect (harg3.unread x1)) shapeCasts_S1x128x64_S128x64
      = Scratch.kOf x1 ⟨b, hb⟩ ⟨h, hh⟩ := by
  funext j
  rw [View.readAt_eq_ld, harg3.read_unread]
  rw [shapeCast_dropUnit_apply]
  unfold View.ld Scratch.kOf
  congr 1
  funext a
  apply Fin.ext
  match a with
  | ⟨0, _⟩ => show b + 1 * 0 = b; omega
  | ⟨1, _⟩ => show 0 + 1 * (j 0).val = (j 0).val; omega
  | ⟨2, _⟩ => show cq + 1 * (j 1).val = 64 * h + (j 1).val; omega

theorem mbX_eq (b : ℕ) (hb : b < 4) (arg5 : Memref sig .tc .vmem S4x1x256x128 .f32) (harg5 : arg5.IsWhole) (x3 : Vec F S4x1x256x128 .f32)
    (inb : ∀ a : Fin 4, (![b, 0, 0, 0] : Fin 4 → ℕ) a + S1x1x256x128.size a ≤ S4x1x256x128.size a) :
    shapeCast S256x128 (View.readAt (Elt F) arg5.view (Rect.unit (s := S4x1x256x128) ![b, 0, 0, 0] S1x1x256x128.size inb).toLoadRect (harg5.unread x3)) shapeCasts_S1x1x256x128_S256x128
      = Scratch.mbOf x3 ⟨b, hb⟩ := by
  funext j
  rw [View.readAt_eq_ld, harg5.read_unread]
  refine (shapeCast_apply _ _ j (ix4 (0 : Fin 1) (0 : Fin 1) (j 0) (j 1)) (by
    rw [Shape.rowMajor_val_four, Shape.rowMajor_val_two]
    show ((0 * 1 + 0) * 256 + (j 0).val) * 128 + (j 1).val = (j 0).val * 128 + (j 1).val
    omega)).trans ?_
  unfold View.ld Scratch.mbOf
  congr 1
  funext a
  apply Fin.ext
  match a with
  | ⟨0, _⟩ => show b + 1 * 0 = b; omega
  | ⟨1, _⟩ => show 0 + 1 * 0 = 0; omega
  | ⟨2, _⟩ => show 0 + 1 * (j 0).val = (j 0).val; omega
  | ⟨3, _⟩ => show 0 + 1 * (j 1).val = (j 1).val; omega

theorem rpX_eq (h : ℕ) (hh : h < 16) (arg6 : Memref sig .tc .vmem S1x16x256x128 .f32) (harg6 : arg6.IsWhole) (x4 : Vec F S1x16x256x128 .f32)
    (inb : ∀ a : Fin 4, (![0, h, 0, 0] : Fin 4 → ℕ) a + S1x1x256x128.size a ≤ S1x16x256x128.size a) :
    shapeCast S256x128 (View.readAt (Elt F) arg6.view (Rect.unit (s := S1x16x256x128) ![0, h, 0, 0] S1x1x256x128.size inb).toLoadRect (harg6.unread x4)) shapeCasts_S1x1x256x128_S256x128
      = Scratch.rpOf x4 ⟨h, hh⟩ := by
  funext j
  rw [View.readAt_eq_ld, harg6.read_unread]
  refine (shapeCast_apply _ _ j (ix4 (0 : Fin 1) (0 : Fin 1) (j 0) (j 1)) (by
    rw [Shape.rowMajor_val_four, Shape.rowMajor_val_two]
    show ((0 * 1 + 0) * 256 + (j 0).val) * 128 + (j 1).val = (j 0).val * 128 + (j 1).val
    omega)).trans ?_
  unfold View.ld Scratch.rpOf
  congr 1
  funext a
  apply Fin.ext
  match a with
  | ⟨0, _⟩ => show 0 + 1 * 0 = 0; omega
  | ⟨1, _⟩ => show h + 1 * 0 = h; omega
  | ⟨2, _⟩ => show 0 + 1 * (j 0).val = (j 0).val; omega
  | ⟨3, _⟩ => show 0 + 1 * (j 1).val = (j 1).val; omega

/-- The (b, h) piece of the reference-point buffer is the step function on its rectangle. -/
theorem mPiece_spec (b h cq : ℕ) (hb : b < 4) (hh : h < 16) (hcq : cq = 64 * h)
    (arg2 : Memref sig .tc .vmem S4x256x1024 .f32) (harg2 : arg2.IsWhole) (arg3 : Memref sig .tc .vmem S4x128x1024 .bf16) (harg3 : arg3.IsWhole)
    (arg5 : Memref sig .tc .vmem S4x1x256x128 .f32) (harg5 : arg5.IsWhole) (arg6 : Memref sig .tc .vmem S1x16x256x128 .f32) (harg6 : arg6.IsWhole)
    (arg9 : Memref sig .tc .vmem S4x256x16 .f32) (harg9 : arg9.IsWhole)
    (x0 : Vec F S4x256x1024 .f32) (x1 : Vec F S4x128x1024 .bf16) (x3 : Vec F S4x1x256x128 .f32) (x4 : Vec F S1x16x256x128 .f32) (xs1 : Vec F S4x256x16 .f32)
    (iq : ∀ a : Fin 3, (![b, 0, cq] : Fin 3 → ℕ) a + S1x256x64.size a ≤ S4x256x1024.size a)
    (ik : ∀ a : Fin 3, (![b, 0, cq] : Fin 3 → ℕ) a + S1x128x64.size a ≤ S4x128x1024.size a)
    (imb : ∀ a : Fin 4, (![b, 0, 0, 0] : Fin 4 → ℕ) a + S1x1x256x128.size a ≤ S4x1x256x128.size a)
    (irp : ∀ a : Fin 4, (![0, h, 0, 0] : Fin 4 → ℕ) a + S1x1x256x128.size a ≤ S1x16x256x128.size a)
    (im im' : ∀ a : Fin 3, (![b, 0, h] : Fin 3 → ℕ) a + S1x256x1.size a ≤ S4x256x16.size a)
    (x : S1x256x1.Idx) :
    shapeCast S1x256x1 (Step.mNew
        (shapeCast S256x1 (View.readAt (Elt F) arg9.view (Rect.unit (s := S4x256x16) ![b, 0, h] S1x256x1.size im).toLoadRect (harg9.unread xs1)) shapeCasts_S1x256x1_S256x1)
        (Step.scores
          (shapeCast S256x64 (View.readAt (Elt F) arg2.view (Rect.unit (s := S4x256x1024) ![b, 0, cq] S1x256x64.size iq).toLoadRect (harg2.unread x0)) shapeCasts_S1x256x64_S256x64)
          (shapeCast S128x64 (View.readAt (Elt F) arg3.view (Rect.unit (s := S4x128x1024) ![b, 0, cq] S1x128x64.size ik).toLoadRect (harg3.unread x1)) shapeCasts_S1x128x64_S128x64)
          (shapeCast S256x128 (View.readAt (Elt F) arg5.view (Rect.unit (s := S4x1x256x128) ![b, 0, 0, 0] S1x1x256x128.size imb).toLoadRect (harg5.unread x3)) shapeCasts_S1x1x256x128_S256x128)
          (shapeCast S256x128 (View.readAt (Elt F) arg6.view (Rect.unit (s := S1x16x256x128) ![0, h, 0, 0] S1x1x256x128.size irp).toLoadRect (harg6.unread x4)) shapeCasts_S1x1x256x128_S256x128)))
      shapeCasts_S256x1_S1x256x1 x
      = Scratch.mStep x0 x1 x3 x4 xs1 ((Rect.unit (s := S4x256x16) ![b, 0, h] S1x256x1.size im').emb x) := by
  rw [storeCol_apply, colX_eq b h hb hh, qX_eq b h cq hb hh hcq, kX_eq b h cq hb hh hcq, mbX_eq b hb, rpX_eq h hh]
  have e0 : ((Rect.unit (s := S4x256x16) ![b, 0, h] S1x256x1.size im').emb x) 0 = (⟨b, hb⟩ : Fin 4) :=
    Fin.ext (by show b + 1 * (x 0).val = b; have := (x 0).isLt; simp at this; omega)
  have e2 : ((Rect.unit (s := S4x256x16) ![b, 0, h] S1x256x1.size im').emb x) 2 = (⟨h, hh⟩ : Fin 16) :=
    Fin.ext (by show h + 1 * (x 2).val = h; have := (x 2).isLt; simp at this; omega)
  have e1 : ((Rect.unit (s := S4x256x16) ![b, 0, h] S1x256x1.size im').emb x) 1 = (x 1 : Fin 256) :=
    Fin.ext (by show 0 + 1 * (x 1).val = (x 1).val; omega)
  unfold Scratch.mStep Scratch.sOf
  rw [e0, e2, e1]
  congr 1
  funext a
  match a with
  | ⟨0, _⟩ => rfl
  | ⟨1, _⟩ => exact Fin.ext (by have := (x 2).isLt; simp at this; simpa using this)

end Cert.KernelIdeal.Gen

end
-- ==== Proof.PieceBlocks2.lean ====
/- The blocks one (batch, head) iteration loads from and stores into the sum and unnormalised-result buffers, read back:
   the 256 × 64 block of head h in lane block h / 2 at lanes 64 (h % 2) onwards, the recast of a 256 × 64 block for its
   store, and the payloads the iteration stores into the two buffers as the whole-buffer step functions on the
   iteration's rectangles. -/
import proofs.«103612_j35940286333141_2_alg».proof.Proof.PieceBlocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

/-- The (b, h) piece of the sum buffer is the step function on its rectangle: the iteration's payload is the step's new
    sum of the columns (b, ·, h) of the reference-point and sum buffers and of the scores of (b, h). -/
theorem lPiece_spec (b h cq : ℕ) (hb : b < 4) (hh : h < 16) (hcq : cq = 64 * h)
    (arg2 : Memref sig .tc .vmem S4x256x1024 .f32) (harg2 : arg2.IsWhole) (arg3 : Memref sig .tc .vmem S4x128x1024 .bf16) (harg3 : arg3.IsWhole)
    (arg5 : Memref sig .tc .vmem S4x1x256x128 .f32) (harg5 : arg5.IsWhole) (arg6 : Memref sig .tc .vmem S1x16x256x128 .f32) (harg6 : arg6.IsWhole)
    (arg9 : Memref sig .tc .vmem S4x256x16 .f32) (harg9 : arg9.IsWhole) (arg10 : Memref sig .tc .vmem S4x256x16 .f32) (harg10 : arg10.IsWhole)
    (x0 : Vec F S4x256x1024 .f32) (x1 : Vec F S4x128x1024 .bf16) (x3 : Vec F S4x1x256x128 .f32) (x4 : Vec F S1x16x256x128 .f32)
    (xs1 xs2 : Vec F S4x256x16 .f32)
    (iq : ∀ a : Fin 3, (![b, 0, cq] : Fin 3 → ℕ) a + S1x256x64.size a ≤ S4x256x1024.size a)
    (ik : ∀ a : Fin 3, (![b, 0, cq] : Fin 3 → ℕ) a + S1x128x64.size a ≤ S4x128x1024.size a)
    (imb : ∀ a : Fin 4, (![b, 0, 0, 0] : Fin 4 → ℕ) a + S1x1x256x128.size a ≤ S4x1x256x128.size a)
    (irp : ∀ a : Fin 4, (![0, h, 0, 0] : Fin 4 → ℕ) a + S1x1x256x128.size a ≤ S1x16x256x128.size a)
    (im il il' : ∀ a : Fin 3, (![b, 0, h] : Fin 3 → ℕ) a + S1x256x1.size a ≤ S4x256x16.size a)
    (x : S1x256x1.Idx) :
    shapeCast S1x256x1 (Step.lNew
        (shapeCast S256x1 (View.readAt (Elt F) arg9.view (Rect.unit (s := S4x256x16) ![b, 0, h] S1x256x1.size im).toLoadRect (harg9.unread xs1)) shapeCasts_S1x256x1_S256x1)
        (shapeCast S256x1 (View.readAt (Elt F) arg10.view (Rect.unit (s := S4x256x16) ![b, 0, h] S1x256x1.size il).toLoadRect (harg10.unread xs2)) shapeCasts_S1x256x1_S256x1)
        (Step.scores
          (shapeCast S256x64 (View.readAt (Elt F) arg2.view (Rect.unit (s := S4x256x1024) ![b, 0, cq] S1x256x64.size iq).toLoadRect (harg2.unread x0)) shapeCasts_S1x256x64_S256x64)
          (shapeCast S128x64 (View.readAt (Elt F) arg3.view (Rect.unit (s := S4x128x1024) ![b, 0, cq] S1x128x64.size ik).toLoadRect (harg3.unread x1)) shapeCasts_S1x128x64_S128x64)
          (shapeCast S256x128 (View.readAt (Elt F) arg5.view (Rect.unit (s := S4x1x256x128) ![b, 0, 0, 0] S1x1x256x128.size imb).toLoadRect (harg5.unread x3)) shapeCasts_S1x1x256x128_S256x128)
          (shapeCast S256x128 (View.readAt (Elt F) arg6.view (Rect.unit (s := S1x16x256x128) ![0, h, 0, 0] S1x1x256x128.size irp).toLoadRect (harg6.unread x4)) shapeCasts_S1x1x256x128_S256x128)))
      shapeCasts_S256x1_S1x256x1 x
      = Scratch.lStep x0 x1 x3 x4 xs1 xs2 ((Rect.unit (s := S4x256x16) ![b, 0, h] S1x256x1.size il').emb x) := by
  rw [storeCol_apply, colX_eq b h hb hh arg9 harg9 xs1, colX_eq b h hb hh arg10 harg10 xs2, qX_eq b h cq hb hh hcq, kX_eq b h cq hb hh hcq,
    mbX_eq b hb, rpX_eq h hh]
  have h0 : (x 0).val < 1 := (x 0).isLt
  have h2 : (x 2).val < 1 := (x 2).isLt
  have e0 : ((Rect.unit (s := S4x256x16) ![b, 0, h] S1x256x1.size il').emb x) 0 = (⟨b, hb⟩ : Fin 4) :=
    Fin.ext (by show b + 1 * (x 0).val = b; omega)
  have e2 : ((Rect.unit (s := S4x256x16) ![b, 0, h] S1x256x1.size il').emb x) 2 = (⟨h, hh⟩ : Fin 16) :=
    Fin.ext (by show h + 1 * (x 2).val = h; omega)
  have e1 : ((Rect.unit (s := S4x256x16) ![b, 0, h] S1x256x1.size il').emb x) 1 = (x 1 : Fin 256) :=
    Fin.ext (by show 0 + 1 * (x 1).val = (x 1).val; omega)
  unfold Scratch.lStep Scratch.sOf
  rw [e0, e2, e1]
  congr 1
  funext a
  match a with
  | ⟨0, _⟩ => rfl
  | ⟨1, _⟩ => exact Fin.ext (by show (x 2).val = 0; omega)

theorem inb_acc (b h : ℕ) (hb : b < 4) (hh : h < 16) :
    ∀ a : Fin 4, (![b, h / 2, 0, 64 * (h % 2)] : Fin 4 → ℕ) a + S1x1x256x64.size a ≤ S4x8x256x128.size a := by
  intro a
  fin_cases a <;> simp [Shape.size] <;> omega

/-- The 256 × 64 block of the unnormalised-result buffer loaded for (b, h): lane block h / 2, lanes 64 (h % 2) onwards. -/
theorem accX_eq (b h hp cl : ℕ) (hb : b < 4) (hh : h < 16) (hhp : hp = h / 2) (hcl : cl = 64 * (h % 2))
    (arg8 : Memref sig .tc .vmem S4x8x256x128 .f32) (harg8 : arg8.IsWhole) (xs0 : Vec F S4x8x256x128 .f32)
    (inb : ∀ a : Fin 4, (![b, hp, 0, cl] : Fin 4 → ℕ) a + S1x1x256x64.size a ≤ S4x8x256x128.size a) :
    shapeCast S256x64 (View.readAt (Elt F) arg8.view (Rect.unit (s := S4x8x256x128) ![b, hp, 0, cl] S1x1x256x64.size inb).toLoadRect (harg8.unread xs0)) shapeCasts_S1x1x256x64_S256x64
      = Scratch.accOf xs0 ⟨b, hb⟩ ⟨h, hh⟩ := by
  funext j
  rw [View.readAt_eq_ld, harg8.read_unread]
  refine (shapeCast_apply _ _ j (ix4 (0 : Fin 1) (0 : Fin 1) (j 0) (j 1)) (by
    rw [Shape.rowMajor_val_four, Shape.rowMajor_val_two]
    show ((0 * 1 + 0) * 256 + (j 0).val) * 64 + (j 1).val = (j 0).val * 64 + (j 1).val
    omega)).trans ?_
  unfold View.ld Scratch.accOf
  congr 1
  funext a
  apply Fin.ext
  match a with
  | ⟨0, _⟩ => show b + 1 * 0 = b; omega
  | ⟨1, _⟩ => show hp + 1 * 0 = h / 2; omega
  | ⟨2, _⟩ => show 0 + 1 * (j 0).val = (j 0).val; omega
  | ⟨3, _⟩ => show cl + 1 * (j 1).val = 64 * (h % 2) + (j 1).val; omega

/-- The store side: a 256 × 64 block cast to [1, 1, 256, 64] is read at the last two coordinates. -/
theorem storeAcc_apply (v : FVec F S256x64 .f32) (x : S1x1x256x64.Idx) :
    shapeCast S1x1x256x64 v shapeCasts_S256x64_S1x1x256x64 x = v (ix2 (x 2) (x 3)) := by
  have h0 : (x 0).val < 1 := (x 0).isLt
  have h1 : (x 1).val < 1 := (x 1).isLt
  exact shapeCast_apply v _ x (ix2 (x 2) (x 3)) (by
    rw [Shape.rowMajor_val_two, Shape.rowMajor_val_four]
    show (x 2).val * 64 + (x 3).val = (((x 0).val * 1 + (x 1).val) * 256 + (x 2).val) * 64 + (x 3).val
    omega)

/-- The (b, h) piece of the unnormalised-result buffer is the step function on its rectangle: the iteration's payload is
    the step's new result of the column (b, ·, h) of the reference points, head h's 64 lanes of the buffer, the scores of
    (b, h) and head h's values. -/
theorem aPiece_spec (b h hp cl cq : ℕ) (hb : b < 4) (hh : h < 16) (hhp : hp = h / 2) (hcl : cl = 64 * (h % 2)) (hcq : cq = 64 * h)
    (arg2 : Memref sig .tc .vmem S4x256x1024 .f32) (harg2 : arg2.IsWhole) (arg3 : Memref sig .tc .vmem S4x128x1024 .bf16) (harg3 : arg3.IsWhole)
    (arg4 : Memref sig .tc .vmem S4x128x1024 .bf16) (harg4 : arg4.IsWhole)
    (arg5 : Memref sig .tc .vmem S4x1x256x128 .f32) (harg5 : arg5.IsWhole) (arg6 : Memref sig .tc .vmem S1x16x256x128 .f32) (harg6 : arg6.IsWhole)
    (arg8 : Memref sig .tc .vmem S4x8x256x128 .f32) (harg8 : arg8.IsWhole) (arg9 : Memref sig .tc .vmem S4x256x16 .f32) (harg9 : arg9.IsWhole)
    (x0 : Vec F S4x256x1024 .f32) (x1 x2 : Vec F S4x128x1024 .bf16) (x3 : Vec F S4x1x256x128 .f32) (x4 : Vec F S1x16x256x128 .f32)
    (xs0 : Vec F S4x8x256x128 .f32) (xs1 : Vec F S4x256x16 .f32)
    (iq : ∀ a : Fin 3, (![b, 0, cq] : Fin 3 → ℕ) a + S1x256x64.size a ≤ S4x256x1024.size a)
    (ik iv : ∀ a : Fin 3, (![b, 0, cq] : Fin 3 → ℕ) a + S1x128x64.size a ≤ S4x128x1024.size a)
    (imb : ∀ a : Fin 4, (![b, 0, 0, 0] : Fin 4 → ℕ) a + S1x1x256x128.size a ≤ S4x1x256x128.size a)
    (irp : ∀ a : Fin 4, (![0, h, 0, 0] : Fin 4 → ℕ) a + S1x1x256x128.size a ≤ S1x16x256x128.size a)
    (im : ∀ a : Fin 3, (![b, 0, h] : Fin 3 → ℕ) a + S1x256x1.size a ≤ S4x256x16.size a)
    (ia ia' : ∀ a : Fin 4, (![b, hp, 0, cl] : Fin 4 → ℕ) a + S1x1x256x64.size a ≤ S4x8x256x128.size a)
    (x : S1x1x256x64.Idx) :
    shapeCast S1x1x256x64 (Step.accNew
        (shapeCast S256x1 (View.readAt (Elt F) arg9.view (Rect.unit (s := S4x256x16) ![b, 0, h] S1x256x1.size im).toLoadRect (harg9.unread xs1)) shapeCasts_S1x256x1_S256x1)
        (shapeCast S256x64 (View.readAt (Elt F) arg8.view (Rect.unit (s := S4x8x256x128) ![b, hp, 0, cl] S1x1x256x64.size ia).toLoadRect (harg8.unread xs0)) shapeCasts_S1x1x256x64_S256x64)
        (Step.scores
          (shapeCast S256x64 (View.readAt (Elt F) arg2.view (Rect.unit (s := S4x256x1024) ![b, 0, cq] S1x256x64.size iq).toLoadRect (harg2.unread x0)) shapeCasts_S1x256x64_S256x64)
          (shapeCast S128x64 (View.readAt (Elt F) arg3.view (Rect.unit (s := S4x128x1024) ![b, 0, cq] S1x128x64.size ik).toLoadRect (harg3.unread x1)) shapeCasts_S1x128x64_S128x64)
          (shapeCast S256x128 (View.readAt (Elt F) arg5.view (Rect.unit (s := S4x1x256x128) ![b, 0, 0, 0] S1x1x256x128.size imb).toLoadRect (harg5.unread x3)) shapeCasts_S1x1x256x128_S256x128)
          (shapeCast S256x128 (View.readAt (Elt F) arg6.view (Rect.unit (s := S1x16x256x128) ![0, h, 0, 0] S1x1x256x128.size irp).toLoadRect (harg6.unread x4)) shapeCasts_S1x1x256x128_S256x128))
        (shapeCast S128x64 (View.readAt (Elt F) arg4.view (Rect.unit (s := S4x128x1024) ![b, 0, cq] S1x128x64.size iv).toLoadRect (harg4.unread x2)) shapeCasts_S1x128x64_S128x64))
      shapeCasts_S256x64_S1x1x256x64 x
      = Scratch.aStep x0 x1 x2 x3 x4 xs0 xs1 ((Rect.unit (s := S4x8x256x128) ![b, hp, 0, cl] S1x1x256x64.size ia').emb x) := by
  rw [storeAcc_apply, colX_eq b h hb hh, accX_eq b h hp cl hb hh hhp hcl, qX_eq b h cq hb hh hcq, kX_eq b h cq hb hh hcq arg3 harg3 x1,
    kX_eq b h cq hb hh hcq arg4 harg4 x2, mbX_eq b hb, rpX_eq h hh]
  have h0 : (x 0).val < 1 := (x 0).isLt
  have h1 : (x 1).val < 1 := (x 1).isLt
  have h3 : (x 3).val < 64 := (x 3).isLt
  have e0 : ((Rect.unit (s := S4x8x256x128) ![b, hp, 0, cl] S1x1x256x64.size ia').emb x) 0 = (⟨b, hb⟩ : Fin 4) :=
    Fin.ext (by show b + 1 * (x 0).val = b; omega)
  have eh : Scratch.headOfLane (((Rect.unit (s := S4x8x256x128) ![b, hp, 0, cl] S1x1x256x64.size ia').emb x) 1)
      (((Rect.unit (s := S4x8x256x128) ![b, hp, 0, cl] S1x1x256x64.size ia').emb x) 3) = (⟨h, hh⟩ : Fin 16) :=
    Fin.ext (by show 2 * (hp + 1 * (x 1).val) + (cl + 1 * (x 3).val) / 64 = h; omega)
  have e2 : ((Rect.unit (s := S4x8x256x128) ![b, hp, 0, cl] S1x1x256x64.size ia').emb x) 2 = (x 2 : Fin 256) :=
    Fin.ext (by show 0 + 1 * (x 2).val = (x 2).val; omega)
  have ef : Scratch.featOfLane (((Rect.unit (s := S4x8x256x128) ![b, hp, 0, cl] S1x1x256x64.size ia').emb x) 3) = (x 3 : Fin 64) :=
    Fin.ext (by show (cl + 1 * (x 3).val) % 64 = (x 3).val; omega)
  unfold Scratch.aStep Scratch.sOf
  rw [e0, eh, e2, ef]

end Cert.KernelIdeal.Gen

end
-- ==== Proof.PiecesA.lean ====
/- What the first grid point of a query tile leaves in the three running buffers.

   At such a point the body first stores the three buffers whole (a finite starting reference point, zero sums) and then
   runs its 64 (batch, head) iterations; iteration 16 b + h loads column (b, ·, h) of the reference-point and sum
   buffers and head h's 64 lanes of the unnormalised result of batch b THROUGH what has been stored so far, and stores
   the step's new values over them. No iteration reads what another iteration wrote: after n iterations the entries of
   the iterations below n hold the step over the starting contents and every other entry still holds the starting
   contents. By induction along the stores this closed form holds after all 64, where it is the step everywhere. -/
import proofs.«103612_j35940286333141_2_alg».proof.Proof.PieceBlocks2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

/-! ## Loads through the pieces stored so far -/

/-- A load of a whole buffer through the pieces stored so far reads what a buffer holding their canonical contents
    would give. -/
theorem readCov_eq_readAt_unread {s : Shape} {e : EltTy} (arg : Memref sig .tc .vmem s e) (harg : arg.IsWhole)
    (L : List (View.Piece (Elt F) s e)) (B : LoadRect s) :
    arg.view.readCov L B = View.readAt (Elt F) arg.view B (harg.unread (View.canon L)) := by
  rw [View.readCov_eq_canon']
  funext j
  rw [View.readAt_apply, harg.read_unread]

/-! ## The contents after n iterations, in closed form

Iteration n = 16 b + h rewrites column (b, ·, h) of the reference-point and sum buffers and head h's 64 lanes of the
unnormalised-result buffer of batch b, from what those entries held at the start. After n iterations the entries of
the iterations below n hold the step over the starting contents, the others the starting contents. -/

def cfM (x0 : Vec F S4x256x1024 .f32) (x1 : Vec F S4x128x1024 .bf16) (x3 : Vec F S4x1x256x128 .f32) (x4 : Vec F S1x16x256x128 .f32)
    (n : ℕ) : Vec F S4x256x16 .f32 :=
  fun y => if 16 * (y 0).val + (y 2).val < n then Scratch.mStep x0 x1 x3 x4 Scratch.mInit y else Scratch.mInit y

def cfL (x0 : Vec F S4x256x1024 .f32) (x1 : Vec F S4x128x1024 .bf16) (x3 : Vec F S4x1x256x128 .f32) (x4 : Vec F S1x16x256x128 .f32)
    (n : ℕ) : Vec F S4x256x16 .f32 :=
  fun y => if 16 * (y 0).val + (y 2).val < n then Scratch.lStep x0 x1 x3 x4 Scratch.mInit Scratch.lInit y else Scratch.lInit y

def cfA (x0 : Vec F S4x256x1024 .f32) (x1 x2 : Vec F S4x128x1024 .bf16) (x3 : Vec F S4x1x256x128 .f32) (x4 : Vec F S1x16x256x128 .f32)
    (n : ℕ) : Vec F S4x8x256x128 .f32 :=
  fun y => if 16 * (y 0).val + (2 * (y 1).val + (y 3).val / 64) < n then Scratch.aStep x0 x1 x2 x3 x4 Scratch.aInit Scratch.mInit y
    else Scratch.aInit y

/-- Column (b, ·, h) is untouched before iteration 16 b + h. -/
theorem colOf_cfM (x0 : Vec F S4x256x1024 .f32) (x1 : Vec F S4x128x1024 .bf16) (x3 : Vec F S4x1x256x128 .f32) (x4 : Vec F S1x16x256x128 .f32)
    (n b h : ℕ) (hb : b < 4) (hh : h < 16) (hn : n = 16 * b + h) :
    Scratch.colOf (cfM x0 x1 x3 x4 n) ⟨b, hb⟩ ⟨h, hh⟩ = Scratch.colOf Scratch.mInit ⟨b, hb⟩ ⟨h, hh⟩ := by
  funext j
  unfold Scratch.colOf cfM
  exact if_neg (by show ¬(16 * b + h < n); omega)

theorem colOf_cfL (x0 : Vec F S4x256x1024 .f32) (x1 : Vec F S4x128x1024 .bf16) (x3 : Vec F S4x1x256x128 .f32) (x4 : Vec F S1x16x256x128 .f32)
    (n b h : ℕ) (hb : b < 4) (hh : h < 16) (hn : n = 16 * b + h) :
    Scratch.colOf (cfL x0 x1 x3 x4 n) ⟨b, hb⟩ ⟨h, hh⟩ = Scratch.colOf Scratch.lInit ⟨b, hb⟩ ⟨h, hh⟩ := by
  funext j
  unfold Scratch.colOf cfL
  exact if_neg (by show ¬(16 * b + h < n); omega)

theorem accOf_cfA (x0 : Vec F S4x256x1024 .f32) (x1 x2 : Vec F S4x128x1024 .bf16) (x3 : Vec F S4x1x256x128 .f32) (x4 : Vec F S1x16x256x128 .f32)
    (n b h : ℕ) (hb : b < 4) (hh : h < 16) (hn : n = 16 * b + h) :
    Scratch.accOf (cfA x0 x1 x2 x3 x4 n) ⟨b, hb⟩ ⟨h, hh⟩ = Scratch.accOf Scratch.aInit ⟨b, hb⟩ ⟨h, hh⟩ := by
  funext j
  unfold Scratch.accOf cfA
  have hj : (j 1).val < 64 := (j 1).isLt
  exact if_neg (by show ¬(16 * b + (2 * (h / 2) + (64 * (h % 2) + (j 1).val) / 64) < n); omega)

/-! ## One iteration -/

theorem stepM (x0 : Vec F S4x256x1024 .f32) (x1 : Vec F S4x128x1024 .bf16) (x3 : Vec F S4x1x256x128 .f32) (x4 : Vec F S1x16x256x128 .f32)
    (n b h : ℕ) (hb : b < 4) (hh : h < 16) (hn : n = 16 * b + h)
    (inb : ∀ a : Fin 3, (![b, 0, h] : Fin 3 → ℕ) a + S1x256x1.size a ≤ S4x256x16.size a)
    (w : S1x256x1.Idx → Elt F .f32) (L : List (View.Piece (Elt F) S4x256x16 .f32))
    (hw : ∀ x, w x = Scratch.mStep x0 x1 x3 x4 (View.canon L) ((Rect.unit (s := S4x256x16) ![b, 0, h] S1x256x1.size inb).emb x))
    (H : View.canon L = cfM x0 x1 x3 x4 n) :
    View.canon ((⟨Rect.unit (s := S4x256x16) ![b, 0, h] S1x256x1.size inb, w⟩ : View.Piece (Elt F) S4x256x16 .f32) :: L)
      = cfM x0 x1 x3 x4 (n + 1) := by
  funext y
  have y0 : (y 0).val < 4 := (y 0).isLt
  have y2 : (y 2).val < 16 := (y 2).isLt
  by_cases hy : y ∈ (Rect.unit (s := S4x256x16) ![b, 0, h] S1x256x1.size inb).set
  · obtain ⟨x, rfl⟩ := (Rect.unit (s := S4x256x16) ![b, 0, h] S1x256x1.size inb).exists_idx_of_mem hy
    rw [show (Rect.unit (s := S4x256x16) ![b, 0, h] S1x256x1.size inb).idx x = (Rect.unit (s := S4x256x16) ![b, 0, h] S1x256x1.size inb).emb x from rfl,
      View.canon_cons_emb, hw, H]
    have h0 : (x 0).val < 1 := (x 0).isLt
    have h2 : (x 2).val < 1 := (x 2).isLt
    have e0 : ((Rect.unit (s := S4x256x16) ![b, 0, h] S1x256x1.size inb).emb x) 0 = (⟨b, hb⟩ : Fin 4) :=
      Fin.ext (by show b + 1 * (x 0).val = b; omega)
    have e2 : ((Rect.unit (s := S4x256x16) ![b, 0, h] S1x256x1.size inb).emb x) 2 = (⟨h, hh⟩ : Fin 16) :=
      Fin.ext (by show h + 1 * (x 2).val = h; omega)
    have hc : cfM x0 x1 x3 x4 (n + 1) ((Rect.unit (s := S4x256x16) ![b, 0, h] S1x256x1.size inb).emb x)
        = Scratch.mStep x0 x1 x3 x4 Scratch.mInit ((Rect.unit (s := S4x256x16) ![b, 0, h] S1x256x1.size inb).emb x) := by
      unfold cfM
      refine if_pos ?_
      rw [e0, e2]
      show 16 * b + h < n + 1
      omega
    rw [hc]
    unfold Scratch.mStep
    rw [e0, e2, colOf_cfM x0 x1 x3 x4 n b h hb hh hn]
  · rw [View.canon_cons_of_not_mem (⟨Rect.unit (s := S4x256x16) ![b, 0, h] S1x256x1.size inb, w⟩ : View.Piece (Elt F) S4x256x16 .f32) L hy, H]
    have hne : 16 * (y 0).val + (y 2).val ≠ n := by
      intro e
      apply hy
      rw [Rect.mem_set_unit]
      intro a
      match a with
      | ⟨0, _⟩ => exact ⟨by show b ≤ (y 0).val; omega, by show (y 0).val < b + 1; omega⟩
      | ⟨1, _⟩ => exact ⟨Nat.zero_le _, by show (y 1).val < 0 + 256; have y1 : (y 1).val < 256 := (y 1).isLt; omega⟩
      | ⟨2, _⟩ => exact ⟨by show h ≤ (y 2).val; omega, by show (y 2).val < h + 1; omega⟩
    unfold cfM
    by_cases hlt : 16 * (y 0).val + (y 2).val < n
    · rw [if_pos hlt, if_pos (by omega)]
    · rw [if_neg hlt, if_neg (by omega)]

theorem stepL (x0 : Vec F S4x256x1024 .f32) (x1 : Vec F S4x128x1024 .bf16) (x3 : Vec F S4x1x256x128 .f32) (x4 : Vec F S1x16x256x128 .f32)
    (n b h : ℕ) (hb : b < 4) (hh : h < 16) (hn : n = 16 * b + h)
    (inb : ∀ a : Fin 3, (![b, 0, h] : Fin 3 → ℕ) a + S1x256x1.size a ≤ S4x256x16.size a)
    (w : S1x256x1.Idx → Elt F .f32) (Lm L : List (View.Piece (Elt F) S4x256x16 .f32))
    (hw : ∀ x, w x = Scratch.lStep x0 x1 x3 x4 (View.canon Lm) (View.canon L) ((Rect.unit (s := S4x256x16) ![b, 0, h] S1x256x1.size inb).emb x))
    (Hm : View.canon Lm = cfM x0 x1 x3 x4 n) (H : View.canon L = cfL x0 x1 x3 x4 n) :
    View.canon ((⟨Rect.unit (s := S4x256x16) ![b, 0, h] S1x256x1.size inb, w⟩ : View.Piece (Elt F) S4x256x16 .f32) :: L)
      = cfL x0 x1 x3 x4 (n + 1) := by
  funext y
  have y0 : (y 0).val < 4 := (y 0).isLt
  have y2 : (y 2).val < 16 := (y 2).isLt
  by_cases hy : y ∈ (Rect.unit (s := S4x256x16) ![b, 0, h] S1x256x1.size inb).set
  · obtain ⟨x, rfl⟩ := (Rect.unit (s := S4x256x16) ![b, 0, h] S1x256x1.size inb).exists_idx_of_mem hy
    rw [show (Rect.unit (s := S4x256x16) ![b, 0, h] S1x256x1.size inb).idx x = (Rect.unit (s := S4x256x16) ![b, 0, h] S1x256x1.size inb).emb x from rfl,
      View.canon_cons_emb, hw, Hm, H]
    have h0 : (x 0).val < 1 := (x 0).isLt
    have h2 : (x 2).val < 1 := (x 2).isLt
    have e0 : ((Rect.unit (s := S4x256x16) ![b, 0, h] S1x256x1.size inb).emb x) 0 = (⟨b, hb⟩ : Fin 4) :=
      Fin.ext (by show b + 1 * (x 0).val = b; omega)
    have e2 : ((Rect.unit (s := S4x256x16) ![b, 0, h] S1x256x1.size inb).emb x) 2 = (⟨h, hh⟩ : Fin 16) :=
      Fin.ext (by show h + 1 * (x 2).val = h; omega)
    have hc : cfL x0 x1 x3 x4 (n + 1) ((Rect.unit (s := S4x256x16) ![b, 0, h] S1x256x1.size inb).emb x)
        = Scratch.lStep x0 x1 x3 x4 Scratch.mInit Scratch.lInit ((Rect.unit (s := S4x256x16) ![b, 0, h] S1x256x1.size inb).emb x) := by
      unfold cfL
      refine if_pos ?_
      rw [e0, e2]
      show 16 * b + h < n + 1
      omega
    rw [hc]
    unfold Scratch.lStep
    rw [e0, e2, colOf_cfM x0 x1 x3 x4 n b h hb hh hn, colOf_cfL x0 x1 x3 x4 n b h hb hh hn]
  · rw [View.canon_cons_of_not_mem (⟨Rect.unit (s := S4x256x16) ![b, 0, h] S1x256x1.size inb, w⟩ : View.Piece (Elt F) S4x256x16 .f32) L hy, H]
    have hne : 16 * (y 0).val + (y 2).val ≠ n := by
      intro e
      apply hy
      rw [Rect.mem_set_unit]
      intro a
      match a with
      | ⟨0, _⟩ => exact ⟨by show b ≤ (y 0).val; omega, by show (y 0).val < b + 1; omega⟩
      | ⟨1, _⟩ => exact ⟨Nat.zero_le _, by show (y 1).val < 0 + 256; have y1 : (y 1).val < 256 := (y 1).isLt; omega⟩
      | ⟨2, _⟩ => exact ⟨by show h ≤ (y 2).val; omega, by show (y 2).val < h + 1; omega⟩
    unfold cfL
    by_cases hlt : 16 * (y 0).val + (y 2).val < n
    · rw [if_pos hlt, if_pos (by omega)]
    · rw [if_neg hlt, if_neg (by omega)]

theorem stepA (x0 : Vec F S4x256x1024 .f32) (x1 x2 : Vec F S4x128x1024 .bf16) (x3 : Vec F S4x1x256x128 .f32) (x4 : Vec F S1x16x256x128 .f32)
    (n b h hp cl : ℕ) (hb : b < 4) (hh : h < 16) (hhp : hp = h / 2) (hcl : cl = 64 * (h % 2)) (hn : n = 16 * b + h)
    (inb : ∀ a : Fin 4, (![b, hp, 0, cl] : Fin 4 → ℕ) a + S1x1x256x64.size a ≤ S4x8x256x128.size a)
    (w : S1x1x256x64.Idx → Elt F .f32) (Lm : List (View.Piece (Elt F) S4x256x16 .f32)) (L : List (View.Piece (Elt F) S4x8x256x128 .f32))
    (hw : ∀ x, w x = Scratch.aStep x0 x1 x2 x3 x4 (View.canon L) (View.canon Lm)
      ((Rect.unit (s := S4x8x256x128) ![b, hp, 0, cl] S1x1x256x64.size inb).emb x))
    (Hm : View.canon Lm = cfM x0 x1 x3 x4 n) (H : View.canon L = cfA x0 x1 x2 x3 x4 n) :
    View.canon ((⟨Rect.unit (s := S4x8x256x128) ![b, hp, 0, cl] S1x1x256x64.size inb, w⟩ : View.Piece (Elt F) S4x8x256x128 .f32) :: L)
      = cfA x0 x1 x2 x3 x4 (n + 1) := by
  funext y
  have y0 : (y 0).val < 4 := (y 0).isLt
  have y1 : (y 1).val < 8 := (y 1).isLt
  have y3 : (y 3).val < 128 := (y 3).isLt
  by_cases hy : y ∈ (Rect.unit (s := S4x8x256x128) ![b, hp, 0, cl] S1x1x256x64.size inb).set
  · obtain ⟨x, rfl⟩ := (Rect.unit (s := S4x8x256x128) ![b, hp, 0, cl] S1x1x256x64.size inb).exists_idx_of_mem hy
    rw [show (Rect.unit (s := S4x8x256x128) ![b, hp, 0, cl] S1x1x256x64.size inb).idx x
        = (Rect.unit (s := S4x8x256x128) ![b, hp, 0, cl] S1x1x256x64.size inb).emb x from rfl,
      View.canon_cons_emb, hw, Hm, H]
    have h0 : (x 0).val < 1 := (x 0).isLt
    have h1 : (x 1).val < 1 := (x 1).isLt
    have h3 : (x 3).val < 64 := (x 3).isLt
    have e0 : ((Rect.unit (s := S4x8x256x128) ![b, hp, 0, cl] S1x1x256x64.size inb).emb x) 0 = (⟨b, hb⟩ : Fin 4) :=
      Fin.ext (by show b + 1 * (x 0).val = b; omega)
    have eh : Scratch.headOfLane (((Rect.unit (s := S4x8x256x128) ![b, hp, 0, cl] S1x1x256x64.size inb).emb x) 1)
        (((Rect.unit (s := S4x8x256x128) ![b, hp, 0, cl] S1x1x256x64.size inb).emb x) 3) = (⟨h, hh⟩ : Fin 16) :=
      Fin.ext (by show 2 * (hp + 1 * (x 1).val) + (cl + 1 * (x 3).val) / 64 = h; omega)
    have hc : cfA x0 x1 x2 x3 x4 (n + 1) ((Rect.unit (s := S4x8x256x128) ![b, hp, 0, cl] S1x1x256x64.size inb).emb x)
        = Scratch.aStep x0 x1 x2 x3 x4 Scratch.aInit Scratch.mInit ((Rect.unit (s := S4x8x256x128) ![b, hp, 0, cl] S1x1x256x64.size inb).emb x) := by
      unfold cfA
      refine if_pos ?_
      show 16 * (b + 1 * (x 0).val) + (2 * (hp + 1 * (x 1).val) + (cl + 1 * (x 3).val) / 64) < n + 1
      omega
    rw [hc]
    unfold Scratch.aStep
    rw [e0, eh, colOf_cfM x0 x1 x3 x4 n b h hb hh hn, accOf_cfA x0 x1 x2 x3 x4 n b h hb hh hn]
  · rw [View.canon_cons_of_not_mem (⟨Rect.unit (s := S4x8x256x128) ![b, hp, 0, cl] S1x1x256x64.size inb, w⟩ : View.Piece (Elt F) S4x8x256x128 .f32) L hy, H]
    have hne : 16 * (y 0).val + (2 * (y 1).val + (y 3).val / 64) ≠ n := by
      intro e
      apply hy
      rw [Rect.mem_set_unit]
      intro a
      match a with
      | ⟨0, _⟩ => exact ⟨by show b ≤ (y 0).val; omega, by show (y 0).val < b + 1; omega⟩
      | ⟨1, _⟩ => exact ⟨by show hp ≤ (y 1).val; omega, by show (y 1).val < hp + 1; omega⟩
      | ⟨2, _⟩ => exact ⟨Nat.zero_le _, by show (y 2).val < 0 + 256; have y2 : (y 2).val < 256 := (y 2).isLt; omega⟩
      | ⟨3, _⟩ => exact ⟨by show cl ≤ (y 3).val; omega, by show (y 3).val < cl + 64; omega⟩
    unfold cfA
    by_cases hlt : 16 * (y 0).val + (2 * (y 1).val + (y 3).val / 64) < n
    · rw [if_pos hlt, if_pos (by omega)]
    · rw [if_neg hlt, if_neg (by omega)]

/-! ## The iteration's payloads, reading through the pieces stored so far -/

theorem mPieceCov (b h cq : ℕ) (hb : b < 4) (hh : h < 16) (hcq : cq = 64 * h)
    (arg2 : Memref sig .tc .vmem S4x256x1024 .f32) (harg2 : arg2.IsWhole) (arg3 : Memref sig .tc .vmem S4x128x1024 .bf16) (harg3 : arg3.IsWhole)
    (arg5 : Memref sig .tc .vmem S4x1x256x128 .f32) (harg5 : arg5.IsWhole) (arg6 : Memref sig .tc .vmem S1x16x256x128 .f32) (harg6 : arg6.IsWhole)
    (arg9 : Memref sig .tc .vmem S4x256x16 .f32) (harg9 : arg9.IsWhole)
    (x0 : Vec F S4x256x1024 .f32) (x1 : Vec F S4x128x1024 .bf16) (x3 : Vec F S4x1x256x128 .f32) (x4 : Vec F S1x16x256x128 .f32)
    (Lm : List (View.Piece (Elt F) S4x256x16 .f32))
    (iq : ∀ a : Fin 3, (![b, 0, cq] : Fin 3 → ℕ) a + S1x256x64.size a ≤ S4x256x1024.size a)
    (ik : ∀ a : Fin 3, (![b, 0, cq] : Fin 3 → ℕ) a + S1x128x64.size a ≤ S4x128x1024.size a)
    (imb : ∀ a : Fin 4, (![b, 0, 0, 0] : Fin 4 → ℕ) a + S1x1x256x128.size a ≤ S4x1x256x128.size a)
    (irp : ∀ a : Fin 4, (![0, h, 0, 0] : Fin 4 → ℕ) a + S1x1x256x128.size a ≤ S1x16x256x128.size a)
    (im im' : ∀ a : Fin 3, (![b, 0, h] : Fin 3 → ℕ) a + S1x256x1.size a ≤ S4x256x16.size a)
    (x : S1x256x1.Idx) :
    shapeCast S1x256x1 (Step.mNew
        (shapeCast S256x1 (arg9.view.readCov Lm (Rect.unit (s := S4x256x16) ![b, 0, h] S1x256x1.size im).toLoadRect) shapeCasts_S1x256x1_S256x1)
        (Step.scores
          (shapeCast S256x64 (View.readAt (Elt F) arg2.view (Rect.unit (s := S4x256x1024) ![b, 0, cq] S1x256x64.size iq).toLoadRect (harg2.unread x0)) shapeCasts_S1x256x64_S256x64)
          (shapeCast S128x64 (View.readAt (Elt F) arg3.view (Rect.unit (s := S4x128x1024) ![b, 0, cq] S1x128x64.size ik).toLoadRect (harg3.unread x1)) shapeCasts_S1x128x64_S128x64)
          (shapeCast S256x128 (View.readAt (Elt F) arg5.view (Rect.unit (s := S4x1x256x128) ![b, 0, 0, 0] S1x1x256x128.size imb).toLoadRect (harg5.unread x3)) shapeCasts_S1x1x256x128_S256x128)
          (shapeCast S256x128 (View.readAt (Elt F) arg6.view (Rect.unit (s := S1x16x256x128) ![0, h, 0, 0] S1x1x256x128.size irp).toLoadRect (harg6.unread x4)) shapeCasts_S1x1x256x128_S256x128)))
      shapeCasts_S256x1_S1x256x1 x
      = Scratch.mStep x0 x1 x3 x4 (View.canon Lm) ((Rect.unit (s := S4x256x16) ![b, 0, h] S1x256x1.size im').emb x) := by
  rw [readCov_eq_readAt_unread arg9 harg9]
  exact mPiece_spec b h cq hb hh hcq arg2 harg2 arg3 harg3 arg5 harg5 arg6 harg6 arg9 harg9 x0 x1 x3 x4 (View.canon Lm) iq ik imb irp im im' x

theorem lPieceCov (b h cq : ℕ) (hb : b < 4) (hh : h < 16) (hcq : cq = 64 * h)
    (arg2 : Memref sig .tc .vmem S4x256x1024 .f32) (harg2 : arg2.IsWhole) (arg3 : Memref sig .tc .vmem S4x128x1024 .bf16) (harg3 : arg3.IsWhole)
    (arg5 : Memref sig .tc .vmem S4x1x256x128 .f32) (harg5 : arg5.IsWhole) (arg6 : Memref sig .tc .vmem S1x16x256x128 .f32) (harg6 : arg6.IsWhole)
    (arg9 : Memref sig .tc .vmem S4x256x16 .f32) (harg9 : arg9.IsWhole) (arg10 : Memref sig .tc .vmem S4x256x16 .f32) (harg10 : arg10.IsWhole)
    (x0 : Vec F S4x256x1024 .f32) (x1 : Vec F S4x128x1024 .bf16) (x3 : Vec F S4x1x256x128 .f32) (x4 : Vec F S1x16x256x128 .f32)
    (Lm Ll : List (View.Piece (Elt F) S4x256x16 .f32))
    (iq : ∀ a : Fin 3, (![b, 0, cq] : Fin 3 → ℕ) a + S1x256x64.size a ≤ S4x256x1024.size a)
    (ik : ∀ a : Fin 3, (![b, 0, cq] : Fin 3 → ℕ) a + S1x128x64.size a ≤ S4x128x1024.size a)
    (imb : ∀ a : Fin 4, (![b, 0, 0, 0] : Fin 4 → ℕ) a + S1x1x256x128.size a ≤ S4x1x256x128.size a)
    (irp : ∀ a : Fin 4, (![0, h, 0, 0] : Fin 4 → ℕ) a + S1x1x256x128.size a ≤ S1x16x256x128.size a)
    (im il il' : ∀ a : Fin 3, (![b, 0, h] : Fin 3 → ℕ) a + S1x256x1.size a ≤ S4x256x16.size a)
    (x : S1x256x1.Idx) :
    shapeCast S1x256x1 (Step.lNew
        (shapeCast S256x1 (arg9.view.readCov Lm (Rect.unit (s := S4x256x16) ![b, 0, h] S1x256x1.size im).toLoadRect) shapeCasts_S1x256x1_S256x1)
        (shapeCast S256x1 (arg10.view.readCov Ll (Rect.unit (s := S4x256x16) ![b, 0, h] S1x256x1.size il).toLoadRect) shapeCasts_S1x256x1_S256x1)
        (Step.scores
          (shapeCast S256x64 (View.readAt (Elt F) arg2.view (Rect.unit (s := S4x256x1024) ![b, 0, cq] S1x256x64.size iq).toLoadRect (harg2.unread x0)) shapeCasts_S1x256x64_S256x64)
          (shapeCast S128x64 (View.readAt (Elt F) arg3.view (Rect.unit (s := S4x128x1024) ![b, 0, cq] S1x128x64.size ik).toLoadRect (harg3.unread x1)) shapeCasts_S1x128x64_S128x64)
          (shapeCast S256x128 (View.readAt (Elt F) arg5.view (Rect.unit (s := S4x1x256x128) ![b, 0, 0, 0] S1x1x256x128.size imb).toLoadRect (harg5.unread x3)) shapeCasts_S1x1x256x128_S256x128)
          (shapeCast S256x128 (View.readAt (Elt F) arg6.view (Rect.unit (s := S1x16x256x128) ![0, h, 0, 0] S1x1x256x128.size irp).toLoadRect (harg6.unread x4)) shapeCasts_S1x1x256x128_S256x128)))
      shapeCasts_S256x1_S1x256x1 x
      = Scratch.lStep x0 x1 x3 x4 (View.canon Lm) (View.canon Ll) ((Rect.unit (s := S4x256x16) ![b, 0, h] S1x256x1.size il').emb x) := by
  rw [readCov_eq_readAt_unread arg9 harg9, readCov_eq_readAt_unread arg10 harg10]
  exact lPiece_spec b h cq hb hh hcq arg2 harg2 arg3 harg3 arg5 harg5 arg6 harg6 arg9 harg9 arg10 harg10 x0 x1 x3 x4 (View.canon Lm) (View.canon Ll)
    iq ik imb irp im il il' x

theorem aPieceCov (b h hp cl cq : ℕ) (hb : b < 4) (hh : h < 16) (hhp : hp = h / 2) (hcl : cl = 64 * (h % 2)) (hcq : cq = 64 * h)
    (arg2 : Memref sig .tc .vmem S4x256x1024 .f32) (harg2 : arg2.IsWhole) (arg3 : Memref sig .tc .vmem S4x128x1024 .bf16) (harg3 : arg3.IsWhole)
    (arg4 : Memref sig .tc .vmem S4x128x1024 .bf16) (harg4 : arg4.IsWhole)
    (arg5 : Memref sig .tc .vmem S4x1x256x128 .f32) (harg5 : arg5.IsWhole) (arg6 : Memref sig .tc .vmem S1x16x256x128 .f32) (harg6 : arg6.IsWhole)
    (arg8 : Memref sig .tc .vmem S4x8x256x128 .f32) (harg8 : arg8.IsWhole) (arg9 : Memref sig .tc .vmem S4x256x16 .f32) (harg9 : arg9.IsWhole)
    (x0 : Vec F S4x256x1024 .f32) (x1 x2 : Vec F S4x128x1024 .bf16) (x3 : Vec F S4x1x256x128 .f32) (x4 : Vec F S1x16x256x128 .f32)
    (La : List (View.Piece (Elt F) S4x8x256x128 .f32)) (Lm : List (View.Piece (Elt F) S4x256x16 .f32))
    (iq : ∀ a : Fin 3, (![b, 0, cq] : Fin 3 → ℕ) a + S1x256x64.size a ≤ S4x256x1024.size a)
    (ik iv : ∀ a : Fin 3, (![b, 0, cq] : Fin 3 → ℕ) a + S1x128x64.size a ≤ S4x128x1024.size a)
    (imb : ∀ a : Fin 4, (![b, 0, 0, 0] : Fin 4 → ℕ) a + S1x1x256x128.size a ≤ S4x1x256x128.size a)
    (irp : ∀ a : Fin 4, (![0, h, 0, 0] : Fin 4 → ℕ) a + S1x1x256x128.size a ≤ S1x16x256x128.size a)
    (im : ∀ a : Fin 3, (![b, 0, h] : Fin 3 → ℕ) a + S1x256x1.size a ≤ S4x256x16.size a)
    (ia ia' : ∀ a : Fin 4, (![b, hp, 0, cl] : Fin 4 → ℕ) a + S1x1x256x64.size a ≤ S4x8x256x128.size a)
    (x : S1x1x256x64.Idx) :
    shapeCast S1x1x256x64 (Step.accNew
        (shapeCast S256x1 (arg9.view.readCov Lm (Rect.unit (s := S4x256x16) ![b, 0, h] S1x256x1.size im).toLoadRect) shapeCasts_S1x256x1_S256x1)
        (shapeCast S256x64 (arg8.view.readCov La (Rect.unit (s := S4x8x256x128) ![b, hp, 0, cl] S1x1x256x64.size ia).toLoadRect) shapeCasts_S1x1x256x64_S256x64)
        (Step.scores
          (shapeCast S256x64 (View.readAt (Elt F) arg2.view (Rect.unit (s := S4x256x1024) ![b, 0, cq] S1x256x64.size iq).toLoadRect (harg2.unread x0)) shapeCasts_S1x256x64_S256x64)
          (shapeCast S128x64 (View.readAt (Elt F) arg3.view (Rect.unit (s := S4x128x1024) ![b, 0, cq] S1x128x64.size ik).toLoadRect (harg3.unread x1)) shapeCasts_S1x128x64_S128x64)
          (shapeCast S256x128 (View.readAt (Elt F) arg5.view (Rect.unit (s := S4x1x256x128) ![b, 0, 0, 0] S1x1x256x128.size imb).toLoadRect (harg5.unread x3)) shapeCasts_S1x1x256x128_S256x128)
          (shapeCast S256x128 (View.readAt (Elt F) arg6.view (Rect.unit (s := S1x16x256x128) ![0, h, 0, 0] S1x1x256x128.size irp).toLoadRect (harg6.unread x4)) shapeCasts_S1x1x256x128_S256x128))
        (shapeCast S128x64 (View.readAt (Elt F) arg4.view (Rect.unit (s := S4x128x1024) ![b, 0, cq] S1x128x64.size iv).toLoadRect (harg4.unread x2)) shapeCasts_S1x128x64_S128x64))
      shapeCasts_S256x64_S1x1x256x64 x
      = Scratch.aStep x0 x1 x2 x3 x4 (View.canon La) (View.canon Lm) ((Rect.unit (s := S4x8x256x128) ![b, hp, 0, cl] S1x1x256x64.size ia').emb x) := by
  rw [readCov_eq_readAt_unread arg9 harg9, readCov_eq_readAt_unread arg8 harg8]
  exact aPiece_spec b h hp cl cq hb hh hhp hcl hcq arg2 harg2 arg3 harg3 arg4 harg4 arg5 harg5 arg6 harg6 arg8 harg8 arg9 harg9 x0 x1 x2 x3 x4
    (View.canon La) (View.canon Lm) iq ik iv imb irp im ia ia' x

/-! ## The three buffers together -/

/-- After n iterations the three lists of pieces hold the closed forms. -/
def GoodA (x0 : Vec F S4x256x1024 .f32) (x1 x2 : Vec F S4x128x1024 .bf16) (x3 : Vec F S4x1x256x128 .f32) (x4 : Vec F S1x16x256x128 .f32)
    (n : ℕ) (Lm Ll : List (View.Piece (Elt F) S4x256x16 .f32)) (La : List (View.Piece (Elt F) S4x8x256x128 .f32)) : Prop :=
  View.canon Lm = cfM x0 x1 x3 x4 n ∧ View.canon Ll = cfL x0 x1 x3 x4 n ∧ View.canon La = cfA x0 x1 x2 x3 x4 n

theorem good_step (x0 : Vec F S4x256x1024 .f32) (x1 x2 : Vec F S4x128x1024 .bf16) (x3 : Vec F S4x1x256x128 .f32) (x4 : Vec F S1x16x256x128 .f32)
    (n b h hp cl : ℕ) (hb : b < 4) (hh : h < 16) (hhp : hp = h / 2) (hcl : cl = 64 * (h % 2)) (hn : n = 16 * b + h)
    (inbM inbL : ∀ a : Fin 3, (![b, 0, h] : Fin 3 → ℕ) a + S1x256x1.size a ≤ S4x256x16.size a)
    (inbA : ∀ a : Fin 4, (![b, hp, 0, cl] : Fin 4 → ℕ) a + S1x1x256x64.size a ≤ S4x8x256x128.size a)
    (wM wL : S1x256x1.Idx → Elt F .f32) (wA : S1x1x256x64.Idx → Elt F .f32)
    (Lm Ll : List (View.Piece (Elt F) S4x256x16 .f32)) (La : List (View.Piece (Elt F) S4x8x256x128 .f32))
    (hwM : ∀ x, wM x = Scratch.mStep x0 x1 x3 x4 (View.canon Lm) ((Rect.unit (s := S4x256x16) ![b, 0, h] S1x256x1.size inbM).emb x))
    (hwL : ∀ x, wL x = Scratch.lStep x0 x1 x3 x4 (View.canon Lm) (View.canon Ll) ((Rect.unit (s := S4x256x16) ![b, 0, h] S1x256x1.size inbL).emb x))
    (hwA : ∀ x, wA x = Scratch.aStep x0 x1 x2 x3 x4 (View.canon La) (View.canon Lm)
      ((Rect.unit (s := S4x8x256x128) ![b, hp, 0, cl] S1x1x256x64.size inbA).emb x))
    (G : GoodA x0 x1 x2 x3 x4 n Lm Ll La) :
    GoodA x0 x1 x2 x3 x4 (n + 1)
      ((⟨Rect.unit (s := S4x256x16) ![b, 0, h] S1x256x1.size inbM, wM⟩ : View.Piece (Elt F) S4x256x16 .f32) :: Lm)
      ((⟨Rect.unit (s := S4x256x16) ![b, 0, h] S1x256x1.size inbL, wL⟩ : View.Piece (Elt F) S4x256x16 .f32) :: Ll)
      ((⟨Rect.unit (s := S4x8x256x128) ![b, hp, 0, cl] S1x1x256x64.size inbA, wA⟩ : View.Piece (Elt F) S4x8x256x128 .f32) :: La) :=
  ⟨stepM x0 x1 x3 x4 n b h hb hh hn inbM wM Lm hwM G.1,
    stepL x0 x1 x3 x4 n b h hb hh hn inbL wL Lm Ll hwL G.1 G.2.1,
    stepA x0 x1 x2 x3 x4 n b h hp cl hb hh hhp hcl hn inbA wA Lm La hwA G.1 G.2.2⟩

/-! ## The starting contents -/

theorem initM_eq : (k0_pay67 (F := F)) = Scratch.mInit := by
  unfold k0_pay67 Scratch.mInit
  exact shapeCast_self _ _

theorem initL_eq : (k0_pay68 (F := F)) = Scratch.lInit := by
  unfold k0_pay68 Scratch.lInit
  exact shapeCast_self _ _

theorem initA_eq : (k0_pay66 (F := F)) = Scratch.aInit := by
  unfold k0_pay66 Scratch.aInit
  exact shapeCast_self _ _

theorem good_zero (x0 : Vec F S4x256x1024 .f32) (x1 x2 : Vec F S4x128x1024 .bf16) (x3 : Vec F S4x1x256x128 .f32) (x4 : Vec F S1x16x256x128 .f32) :
    GoodA x0 x1 x2 x3 x4 0 kernelRun0_A.sl.HS1_1 kernelRun0_A.sl.HS2_1 kernelRun0_A.sl.HS0_1 := by
  refine ⟨?_, ?_, ?_⟩
  · unfold kernelRun0_A.sl.HS1_1
    rw [View.canon_unit_zero (by funext a; fin_cases a <;> rfl), initM_eq]
    funext y
    unfold cfM
    exact (if_neg (Nat.not_lt_zero _)).symm
  · unfold kernelRun0_A.sl.HS2_1
    rw [View.canon_unit_zero (by funext a; fin_cases a <;> rfl), initL_eq]
    funext y
    unfold cfL
    exact (if_neg (Nat.not_lt_zero _)).symm
  · unfold kernelRun0_A.sl.HS0_1
    rw [View.canon_unit_zero (by funext a; fin_cases a <;> rfl), initA_eq]
    funext y
    unfold cfA
    exact (if_neg (Nat.not_lt_zero _)).symm

/-! ## The first point of a query tile -/

set_option maxHeartbeats 64000000 in
/-- After the body's 64 iterations at the first point of a tile, the three lists of pieces hold the closed forms at 64:
    walked down the lists, one iteration's three pieces at a time, to the three whole-buffer stores of the start. -/
theorem goodA (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) :
    GoodA x0 x1 x2 x3 x4 64 (kernelRun0_A c i arg2 harg2 arg3 harg3 arg4 harg4 arg5 harg5 arg6 harg6 arg7 harg7 arg8 harg8 arg9 harg9 arg10 harg10 hc0 hc1 x0 x1 x2 x3 x4).2.2.1 (kernelRun0_A c i arg2 harg2 arg3 harg3 arg4 harg4 arg5 harg5 arg6 harg6 arg7 harg7 arg8 harg8 arg9 harg9 arg10 harg10 hc0 hc1 x0 x1 x2 x3 x4).2.2.2.1 (kernelRun0_A c i arg2 harg2 arg3 harg3 arg4 harg4 arg5 harg5 arg6 harg6 arg7 harg7 arg8 harg8 arg9 harg9 arg10 harg10 hc0 hc1 x0 x1 x2 x3 x4).2.1 := by
  unfold kernelRun0_A
  dsimp only
  repeat (first
    | exact good_zero x0 x1 x2 x3 x4
    | refine good_step x0 x1 x2 x3 x4 _ _ _ _ _ (by omega) (by omega) (by omega) (by omega) (by omega) _ _ _ _ _ _ _ _ _
        (fun x => mPieceCov _ _ _ (by omega) (by omega) (by omega) arg2 harg2 arg3 harg3 arg5 harg5 arg6 harg6 arg9 harg9 x0 x1 x3 x4 _ _ _ _ _ _ _ x)
        (fun x => lPieceCov _ _ _ (by omega) (by omega) (by omega) arg2 harg2 arg3 harg3 arg5 harg5 arg6 harg6 arg9 harg9 arg10 harg10 x0 x1 x3 x4 _ _ _ _ _ _ _ _ _ x)
        (fun x => aPieceCov _ _ _ _ _ (by omega) (by omega) (by omega) (by omega) (by omega) arg2 harg2 arg3 harg3 arg4 harg4 arg5 harg5 arg6 harg6 arg8 harg8 arg9 harg9 x0 x1 x2 x3 x4 _ _ _ _ _ _ _ _ _ _ x)
        ?_)

/-- The first point of a tile leaves the step over the starting contents in the reference-point buffer. -/
theorem sout_A_1 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) :
    sout0_A_1 c i arg2 harg2 arg3 harg3 arg4 harg4 arg5 harg5 arg6 harg6 arg7 harg7 arg8 harg8 arg9 harg9 arg10 harg10 hc0 hc1 x0 x1 x2 x3 x4 = Scratch.mStep x0 x1 x3 x4 Scratch.mInit := by
  unfold sout0_A_1
  rw [View.read_writes_junk_eq_canon, (goodA c i arg2 harg2 arg3 harg3 arg4 harg4 arg5 harg5 arg6 harg6 arg7 harg7 arg8 harg8 arg9 harg9 arg10 harg10 hc0 hc1 x0 x1 x2 x3 x4).1]
  funext y
  have y0 : (y 0).val < 4 := (y 0).isLt
  have y2 : (y 2).val < 16 := (y 2).isLt
  unfold cfM
  exact if_pos (by omega)

/-- The first point of a tile leaves the step over the starting contents in the sum buffer. -/
theorem sout_A_2 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) :
    sout0_A_2 c i arg2 harg2 arg3 harg3 arg4 harg4 arg5 harg5 arg6 harg6 arg7 harg7 arg8 harg8 arg9 harg9 arg10 harg10 hc0 hc1 x0 x1 x2 x3 x4 = Scratch.lStep x0 x1 x3 x4 Scratch.mInit Scratch.lInit := by
  unfold sout0_A_2
  rw [View.read_writes_junk_eq_canon, (goodA c i arg2 harg2 arg3 harg3 arg4 harg4 arg5 harg5 arg6 harg6 arg7 harg7 arg8 harg8 arg9 harg9 arg10 harg10 hc0 hc1 x0 x1 x2 x3 x4).2.1]
  funext y
  have y0 : (y 0).val < 4 := (y 0).isLt
  have y2 : (y 2).val < 16 := (y 2).isLt
  unfold cfL
  exact if_pos (by omega)

/-- The first point of a tile leaves the step over the starting contents in the unnormalised-result buffer. -/
theorem sout_A_0 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) :
    sout0_A_0 c i arg2 harg2 arg3 harg3 arg4 harg4 arg5 harg5 arg6 harg6 arg7 harg7 arg8 harg8 arg9 harg9 arg10 harg10 hc0 hc1 x0 x1 x2 x3 x4 = Scratch.aStep x0 x1 x2 x3 x4 Scratch.aInit Scratch.mInit := by
  unfold sout0_A_0
  rw [View.read_writes_junk_eq_canon, (goodA c i arg2 harg2 arg3 harg3 arg4 harg4 arg5 harg5 arg6 harg6 arg7 harg7 arg8 harg8 arg9 harg9 arg10 harg10 hc0 hc1 x0 x1 x2 x3 x4).2.2]
  funext y
  have y0 : (y 0).val < 4 := (y 0).isLt
  have y1 : (y 1).val < 8 := (y 1).isLt
  have y3 : (y 3).val < 128 := (y 3).isLt
  unfold cfA
  exact if_pos (by omega)

end Cert.KernelIdeal.Gen

end
-- ==== Proof.PiecesB1.lean ====
/- What a middle grid point leaves in the reference-point buffer. -/
import proofs.«103612_j35940286333141_2_alg».proof.Proof.PieceBlocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 8000000 in
/-- A middle point leaves the step over the previous contents in the reference-point buffer: each of its 64 pieces is
    the step function on the piece's rectangle, and the pieces cover the buffer. -/
theorem sout_B_1 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = Scratch.mStep x0 x1 x3 x4 xs1 := by
  unfold sout0_B_1
  rw [View.read_writes_junk_eq_canon]
  funext y
  refine View.canon_apply_of_pieces (Scratch.mStep x0 x1 x3 x4 xs1) _ ?_ y (scover0_B_1 c i arg2 harg2 arg3 harg3 arg4 harg4 arg5 harg5 arg6 harg6 arg7 harg7 arg8 harg8 arg9 harg9 arg10 harg10 hc0 hc1 x0 x1 x2 x3 x4 xs0 xs1 xs2 y)
  unfold kernelRun0_B
  dsimp only
  repeat (first
    | exact fun _ h => absurd h List.not_mem_nil
    | refine List.forall_mem_cons.2 ⟨fun x => mPiece_spec _ _ _ (by omega) (by omega) (by omega) _ _ _ _ _ _ _ _ _ _ _ _ _ _ _ (by decide) (by decide) (by decide) (by decide) (by decide) (by decide) x, ?_⟩)

end Cert.KernelIdeal.Gen

end
-- ==== Proof.PiecesB2.lean ====
/- What a middle grid point leaves in the sum buffer. -/
import proofs.«103612_j35940286333141_2_alg».proof.Proof.PieceBlocks2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 8000000 in
/-- A middle point leaves the step over the previous contents in the sum buffer: each of its 64 pieces is the step
    function on the piece's rectangle, and the pieces cover the buffer. -/
theorem sout_B_2 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = Scratch.lStep x0 x1 x3 x4 xs1 xs2 := by
  unfold sout0_B_2
  rw [View.read_writes_junk_eq_canon]
  funext y
  refine View.canon_apply_of_pieces (Scratch.lStep x0 x1 x3 x4 xs1 xs2) _ ?_ y (scover0_B_2 c i arg2 harg2 arg3 harg3 arg4 harg4 arg5 harg5 arg6 harg6 arg7 harg7 arg8 harg8 arg9 harg9 arg10 harg10 hc0 hc1 x0 x1 x2 x3 x4 xs0 xs1 xs2 y)
  unfold kernelRun0_B
  dsimp only
  repeat (first
    | exact fun _ h => absurd h List.not_mem_nil
    | refine List.forall_mem_cons.2 ⟨fun x => lPiece_spec _ _ _ (by omega) (by omega) (by omega) _ _ _ _ _ _ _ _ _ _ _ _ _ _ _ _ _ _ (by decide) (by decide) (by decide) (by decide) (by decide) (by decide) (by decide) x, ?_⟩)

end Cert.KernelIdeal.Gen

end
-- ==== Proof.PiecesB0.lean ====
/- What a middle grid point leaves in the unnormalised-result buffer. -/
import proofs.«103612_j35940286333141_2_alg».proof.Proof.PieceBlocks2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 8000000 in
/-- A middle point leaves the step over the previous contents in the unnormalised-result buffer: each of its 64 pieces
    is the step function on the piece's rectangle, and the pieces cover the buffer. -/
theorem sout_B_0 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : ¬cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = Scratch.aStep x0 x1 x2 x3 x4 xs0 xs1 := by
  unfold sout0_B_0
  rw [View.read_writes_junk_eq_canon]
  funext y
  refine View.canon_apply_of_pieces (Scratch.aStep x0 x1 x2 x3 x4 xs0 xs1) _ ?_ y (scover0_B_0 c i arg2 harg2 arg3 harg3 arg4 harg4 arg5 harg5 arg6 harg6 arg7 harg7 arg8 harg8 arg9 harg9 arg10 harg10 hc0 hc1 x0 x1 x2 x3 x4 xs0 xs1 xs2 y)
  unfold kernelRun0_B
  dsimp only
  repeat (first
    | exact fun _ h => absurd h List.not_mem_nil
    | refine List.forall_mem_cons.2 ⟨fun x => aPiece_spec _ _ _ _ _ (by omega) (by omega) (by omega) (by omega) (by omega) _ _ _ _ _ _ _ _ _ _ _ _ _ _ _ _ _ _ _ _ _ (by decide) (by decide) (by decide) (by decide) (by decide) (by decide) (by decide) (by decide) x, ?_⟩)

end Cert.KernelIdeal.Gen

end
-- ==== Proof.PiecesC1.lean ====
/- What the last grid point of a query tile leaves in the reference-point buffer: the same step as a middle point. -/
import proofs.«103612_j35940286333141_2_alg».proof.Proof.PieceBlocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 8000000 in
/-- The 64 pieces the last point of a query tile stores into the reference-point buffer are each the step function on
    the piece's rectangle, and they cover the buffer: read together they are the step over the previous contents. -/
theorem canon_C_1 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    View.canon (kernelRun0_C c i arg2 harg2 arg3 harg3 arg4 harg4 arg5 harg5 arg6 harg6 arg7 harg7 arg8 harg8 arg9 harg9 arg10 harg10 hc0 hc1 x0 x1 x2 x3 x4 xs0 xs1 xs2).2.2.1 = Scratch.mStep x0 x1 x3 x4 xs1 := by
  funext y
  refine View.canon_apply_of_pieces (Scratch.mStep x0 x1 x3 x4 xs1) _ ?_ y (scover0_C_1 c i arg2 harg2 arg3 harg3 arg4 harg4 arg5 harg5 arg6 harg6 arg7 harg7 arg8 harg8 arg9 harg9 arg10 harg10 hc0 hc1 x0 x1 x2 x3 x4 xs0 xs1 xs2 y)
  unfold kernelRun0_C
  dsimp only
  repeat (first
    | exact fun _ h => absurd h List.not_mem_nil
    | refine List.forall_mem_cons.2 ⟨fun x => mPiece_spec _ _ _ (by omega) (by omega) (by omega) _ _ _ _ _ _ _ _ _ _ _ _ _ _ _ (by decide) (by decide) (by decide) (by decide) (by decide) (by decide) x, ?_⟩)

/-- So the last point of a query tile leaves the step over the previous contents in the reference-point buffer. -/
theorem sout_C_1 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = Scratch.mStep x0 x1 x3 x4 xs1 := by
  unfold sout0_C_1
  rw [View.read_writes_junk_eq_canon]
  exact canon_C_1 c i arg2 harg2 arg3 harg3 arg4 harg4 arg5 harg5 arg6 harg6 arg7 harg7 arg8 harg8 arg9 harg9 arg10 harg10 hc0 hc1 x0 x1 x2 x3 x4 xs0 xs1 xs2

end Cert.KernelIdeal.Gen

end
-- ==== Proof.PiecesC2.lean ====
/- What the last grid point of a query tile leaves in the sum buffer: the same step as a middle point. -/
import proofs.«103612_j35940286333141_2_alg».proof.Proof.PieceBlocks2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 8000000 in
/-- The 64 pieces the last point of a query tile stores into the sum buffer are each the step function on the piece's
    rectangle, and they cover the buffer: read together they are the step over the previous contents. -/
theorem canon_C_2 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    View.canon (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1 = Scratch.lStep x0 x1 x3 x4 xs1 xs2 := by
  funext y
  refine View.canon_apply_of_pieces (Scratch.lStep x0 x1 x3 x4 xs1 xs2) _ ?_ y (scover0_C_2 c i arg2 harg2 arg3 harg3 arg4 harg4 arg5 harg5 arg6 harg6 arg7 harg7 arg8 harg8 arg9 harg9 arg10 harg10 hc0 hc1 x0 x1 x2 x3 x4 xs0 xs1 xs2 y)
  unfold kernelRun0_C
  dsimp only
  repeat (first
    | exact fun _ h => absurd h List.not_mem_nil
    | refine List.forall_mem_cons.2 ⟨fun x => lPiece_spec _ _ _ (by omega) (by omega) (by omega) _ _ _ _ _ _ _ _ _ _ _ _ _ _ _ _ _ _ (by decide) (by decide) (by decide) (by decide) (by decide) (by decide) (by decide) x, ?_⟩)

/-- So the last point of a query tile leaves the step over the previous contents in the sum buffer. -/
theorem sout_C_2 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = Scratch.lStep x0 x1 x3 x4 xs1 xs2 := by
  unfold sout0_C_2
  rw [View.read_writes_junk_eq_canon]
  exact canon_C_2 c i arg2 harg2 arg3 harg3 arg4 harg4 arg5 harg5 arg6 harg6 arg7 harg7 arg8 harg8 arg9 harg9 arg10 harg10 hc0 hc1 x0 x1 x2 x3 x4 xs0 xs1 xs2

end Cert.KernelIdeal.Gen

end
-- ==== Proof.PiecesC0.lean ====
/- What the last grid point of a query tile leaves in the unnormalised-result buffer: the same step as a middle point. -/
import proofs.«103612_j35940286333141_2_alg».proof.Proof.PieceBlocks2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 8000000 in
/-- The 64 pieces the last point of a query tile stores into the unnormalised-result buffer are each the step function on
    the piece's rectangle, and they cover the buffer: read together they are the step over the previous contents. -/
theorem canon_C_0 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    View.canon (kernelRun0_C c i arg2 harg2 arg3 harg3 arg4 harg4 arg5 harg5 arg6 harg6 arg7 harg7 arg8 harg8 arg9 harg9 arg10 harg10 hc0 hc1 x0 x1 x2 x3 x4 xs0 xs1 xs2).2.1 = Scratch.aStep x0 x1 x2 x3 x4 xs0 xs1 := by
  funext y
  refine View.canon_apply_of_pieces (Scratch.aStep x0 x1 x2 x3 x4 xs0 xs1) _ ?_ y (scover0_C_0 c i arg2 harg2 arg3 harg3 arg4 harg4 arg5 harg5 arg6 harg6 arg7 harg7 arg8 harg8 arg9 harg9 arg10 harg10 hc0 hc1 x0 x1 x2 x3 x4 xs0 xs1 xs2 y)
  unfold kernelRun0_C
  dsimp only
  repeat (first
    | exact fun _ h => absurd h List.not_mem_nil
    | refine List.forall_mem_cons.2 ⟨fun x => aPiece_spec _ _ _ _ _ (by omega) (by omega) (by omega) (by omega) (by omega) _ _ _ _ _ _ _ _ _ _ _ _ _ _ _ _ _ _ _ _ _ (by decide) (by decide) (by decide) (by decide) (by decide) (by decide) (by decide) (by decide) x, ?_⟩)

/-- So the last point of a query tile leaves the step over the previous contents in the unnormalised-result buffer. -/
theorem sout_C_0 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = Scratch.aStep x0 x1 x2 x3 x4 xs0 xs1 := by
  unfold sout0_C_0
  rw [View.read_writes_junk_eq_canon]
  exact canon_C_0 c i arg2 harg2 arg3 harg3 arg4 harg4 arg5 harg5 arg6 harg6 arg7 harg7 arg8 harg8 arg9 harg9 arg10 harg10 hc0 hc1 x0 x1 x2 x3 x4 xs0 xs1 xs2

end Cert.KernelIdeal.Gen

end
-- ==== Proof.PieceBlocksOut.lean ====
/- The last key block's division, read back.  After the 64 iterations the body loads, for every batch and every pair of
   heads sharing 128 lanes, the two columns of sums and the 256 × 128 block of unnormalised results through what the
   iterations stored; a load through stored pieces reads the pieces' canonical contents.  The payload stored into the
   output block is the division of the pair, which is the whole-buffer output function on the piece's rectangle. -/
import proofs.«103612_j35940286333141_2_alg».proof.Proof.PieceBlocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

theorem lcovX_eq (b h : ℕ) (hb : b < 4) (hh : h < 16) (arg10 : Memref sig .tc .vmem S4x256x16 .f32)
    (L : List (View.Piece (Elt F) S4x256x16 .f32))
    (inb : ∀ a : Fin 3, (![b, 0, h] : Fin 3 → ℕ) a + S1x256x1.size a ≤ S4x256x16.size a) :
    shapeCast S256x1 (arg10.view.readCov L (Rect.unit (s := S4x256x16) ![b, 0, h] S1x256x1.size inb).toLoadRect) shapeCasts_S1x256x1_S256x1
      = Scratch.colOf (View.canon L) ⟨b, hb⟩ ⟨h, hh⟩ := by
  funext j
  rw [View.readCov_eq_canon', shapeCast_dropUnit_apply]
  unfold Scratch.colOf
  dsimp only
  congr 1
  funext a
  apply Fin.ext
  match a with
  | ⟨0, _⟩ => show b + 1 * 0 = b; omega
  | ⟨1, _⟩ => show 0 + 1 * (j 0).val = (j 0).val; omega
  | ⟨2, _⟩ => show h + 1 * (j 1).val = h; have := (j 1).isLt; simp at this; omega

theorem pairX_eq (b hp : ℕ) (hb : b < 4) (hhp : hp < 8) (arg8 : Memref sig .tc .vmem S4x8x256x128 .f32)
    (L : List (View.Piece (Elt F) S4x8x256x128 .f32))
    (inb : ∀ a : Fin 4, (![b, hp, 0, 0] : Fin 4 → ℕ) a + S1x1x256x128.size a ≤ S4x8x256x128.size a) :
    shapeCast S256x128 (arg8.view.readCov L (Rect.unit (s := S4x8x256x128) ![b, hp, 0, 0] S1x1x256x128.size inb).toLoadRect) shapeCasts_S1x1x256x128_S256x128
      = Scratch.pairOf (View.canon L) ⟨b, hb⟩ ⟨hp, hhp⟩ := by
  funext j
  rw [View.readCov_eq_canon']
  refine (shapeCast_apply _ _ j (ix4 (0 : Fin 1) (0 : Fin 1) (j 0) (j 1)) (by
    rw [Shape.rowMajor_val_four, Shape.rowMajor_val_two]
    show ((0 * 1 + 0) * 256 + (j 0).val) * 128 + (j 1).val = (j 0).val * 128 + (j 1).val
    omega)).trans ?_
  unfold Scratch.pairOf
  dsimp only
  congr 1
  funext a
  apply Fin.ext
  match a with
  | ⟨0, _⟩ => show b + 1 * 0 = b; omega
  | ⟨1, _⟩ => show hp + 1 * 0 = hp; omega
  | ⟨2, _⟩ => show 0 + 1 * (j 0).val = (j 0).val; omega
  | ⟨3, _⟩ => show 0 + 1 * (j 1).val = (j 1).val; omega

/-- the store side: a [256,128] block cast to [1,256,128] -/
theorem storeOut_apply (v : FVec F S256x128 .f32) (x : S1x256x128.Idx) :
    shapeCast S1x256x128 v shapeCasts_S256x128_S1x256x128 x = v (ix2 (x 1) (x 2)) := by
  rw [shapeCast_addUnit_apply]
  congr 1
  funext a
  match a with
  | ⟨0, _⟩ => rfl
  | ⟨1, _⟩ => rfl

/-- The output piece of batch b and lane block hp: the division of the pair of heads, read off what the loop's stores
    left in the sum and unnormalised-result buffers. -/
theorem oPiece_spec (b hp h0 h1 cp : ℕ) (hb : b < 4) (hhp : hp < 8) (hh0 : h0 < 16) (hh1 : h1 < 16)
    (e0 : h0 = 2 * hp) (e1 : h1 = 2 * hp + 1) (ecp : cp = 128 * hp)
    (arg8 : Memref sig .tc .vmem S4x8x256x128 .f32) (arg10 : Memref sig .tc .vmem S4x256x16 .f32)
    (L0 : List (View.Piece (Elt F) S4x8x256x128 .f32)) (L2 : List (View.Piece (Elt F) S4x256x16 .f32))
    (i0 : ∀ a : Fin 3, (![b, 0, h0] : Fin 3 → ℕ) a + S1x256x1.size a ≤ S4x256x16.size a)
    (i1 : ∀ a : Fin 3, (![b, 0, h1] : Fin 3 → ℕ) a + S1x256x1.size a ≤ S4x256x16.size a)
    (ip : ∀ a : Fin 4, (![b, hp, 0, 0] : Fin 4 → ℕ) a + S1x1x256x128.size a ≤ S4x8x256x128.size a)
    (io : ∀ a : Fin 3, (![b, 0, cp] : Fin 3 → ℕ) a + S1x256x128.size a ≤ S4x256x1024.size a)
    (x : S1x256x128.Idx) :
    shapeCast S1x256x128 (Step.finalPair
        (shapeCast S256x1 (arg10.view.readCov L2 (Rect.unit (s := S4x256x16) ![b, 0, h0] S1x256x1.size i0).toLoadRect) shapeCasts_S1x256x1_S256x1)
        (shapeCast S256x1 (arg10.view.readCov L2 (Rect.unit (s := S4x256x16) ![b, 0, h1] S1x256x1.size i1).toLoadRect) shapeCasts_S1x256x1_S256x1)
        (shapeCast S256x128 (arg8.view.readCov L0 (Rect.unit (s := S4x8x256x128) ![b, hp, 0, 0] S1x1x256x128.size ip).toLoadRect) shapeCasts_S1x1x256x128_S256x128))
      shapeCasts_S256x128_S1x256x128 x
      = Scratch.outFinal (View.canon L0) (View.canon L2) ((Rect.unit (s := S4x256x1024) ![b, 0, cp] S1x256x128.size io).emb x) := by
  subst e0 e1 ecp
  rw [storeOut_apply, lcovX_eq b (2 * hp) hb hh0, lcovX_eq b (2 * hp + 1) hb hh1, pairX_eq b hp hb hhp]
  have ey0 : ((Rect.unit (s := S4x256x1024) ![b, 0, 128 * hp] S1x256x128.size io).emb x) 0 = (⟨b, hb⟩ : Fin 4) :=
    Fin.ext (by show b + 1 * (x 0).val = b; have := (x 0).isLt; simp at this; omega)
  have ey1 : ((Rect.unit (s := S4x256x1024) ![b, 0, 128 * hp] S1x256x128.size io).emb x) 1 = (x 1 : Fin 256) :=
    Fin.ext (by show 0 + 1 * (x 1).val = (x 1).val; omega)
  have eP : Scratch.pairOfCol (((Rect.unit (s := S4x256x1024) ![b, 0, 128 * hp] S1x256x128.size io).emb x) 2) = (⟨hp, hhp⟩ : Fin 8) :=
    Fin.ext (by show (128 * hp + 1 * (x 2).val) / 128 = hp; have := (x 2).isLt; simp at this; omega)
  have eL : Scratch.laneOfCol (((Rect.unit (s := S4x256x1024) ![b, 0, 128 * hp] S1x256x128.size io).emb x) 2) = (x 2 : Fin 128) :=
    Fin.ext (by show (128 * hp + 1 * (x 2).val) % 128 = (x 2).val; have := (x 2).isLt; simp at this; omega)
  unfold Scratch.outFinal
  rw [ey0, ey1, eP, eL]
  rfl

/-- The output piece at column offset cp of batch b, with the loads' positions written from cp: the two heads of the
    pair are cp / 64 and cp / 64 + 1, the lane block is cp / 128. -/
theorem oPiece_spec2 (b cp : ℕ) (hb : b < 4) (hcp : cp % 128 = 0) (hcp' : cp < 1024)
    (arg8 : Memref sig .tc .vmem S4x8x256x128 .f32) (arg10 : Memref sig .tc .vmem S4x256x16 .f32)
    (L0 : List (View.Piece (Elt F) S4x8x256x128 .f32)) (L2 : List (View.Piece (Elt F) S4x256x16 .f32))
    (i0 : ∀ a : Fin 3, (![b, 0, cp / 64] : Fin 3 → ℕ) a + S1x256x1.size a ≤ S4x256x16.size a)
    (i1 : ∀ a : Fin 3, (![b, 0, cp / 64 + 1] : Fin 3 → ℕ) a + S1x256x1.size a ≤ S4x256x16.size a)
    (ip : ∀ a : Fin 4, (![b, cp / 128, 0, 0] : Fin 4 → ℕ) a + S1x1x256x128.size a ≤ S4x8x256x128.size a)
    (io : ∀ a : Fin 3, (![b, 0, cp] : Fin 3 → ℕ) a + S1x256x128.size a ≤ S4x256x1024.size a)
    (x : S1x256x128.Idx) :
    Scratch.outFinal (View.canon L0) (View.canon L2) ((Rect.unit (s := S4x256x1024) ![b, 0, cp] S1x256x128.size io).emb x)
      = shapeCast S1x256x128 (Step.finalPair
        (shapeCast S256x1 (arg10.view.readCov L2 (Rect.unit (s := S4x256x16) ![b, 0, cp / 64] S1x256x1.size i0).toLoadRect) shapeCasts_S1x256x1_S256x1)
        (shapeCast S256x1 (arg10.view.readCov L2 (Rect.unit (s := S4x256x16) ![b, 0, cp / 64 + 1] S1x256x1.size i1).toLoadRect) shapeCasts_S1x256x1_S256x1)
        (shapeCast S256x128 (arg8.view.readCov L0 (Rect.unit (s := S4x8x256x128) ![b, cp / 128, 0, 0] S1x1x256x128.size ip).toLoadRect) shapeCasts_S1x1x256x128_S256x128))
      shapeCasts_S256x128_S1x256x128 x :=
  (oPiece_spec b (cp / 128) (cp / 64) (cp / 64 + 1) cp hb (by omega) (by omega) (by omega) (by omega) (by omega) (by omega)
    arg8 arg10 L0 L2 i0 i1 ip io x).symm

end Cert.KernelIdeal.Gen

end
-- ==== Proof.PiecesOut.lean ====
/- What the last grid point of a query tile writes to the output block. -/
import proofs.«103612_j35940286333141_2_alg».proof.Proof.PieceBlocksOut
import proofs.«103612_j35940286333141_2_alg».proof.Proof.PiecesC2
import proofs.«103612_j35940286333141_2_alg».proof.Proof.PiecesC0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn

variable {F : FTy → Type} [FloatOps F]

set_option maxHeartbeats 16000000 in
/-- The last point of a query tile writes, into the output block, the division of what its own step left in the
    unnormalised-result and sum buffers: each of its 32 pieces is the output function on the piece's rectangle, over
    the canonical contents of the lists the step stored, which are the step functions. -/
theorem out_C_5 (c : Dev nD) (i : grid0.Coords) (arg2 : Memref sig .tc .vmem S4x256x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S4x1x256x128 .f32) (harg5 : arg5.IsWhole) (arg6 : Memref sig .tc .vmem S1x16x256x128 .f32) (harg6 : arg6.IsWhole) (arg7 : Memref sig .tc .vmem S4x256x1024 .f32) (harg7 : arg7.IsWhole) (arg8 : Memref sig .tc .vmem S4x8x256x128 .f32) (harg8 : arg8.IsWhole) (arg9 : Memref sig .tc .vmem S4x256x16 .f32) (harg9 : arg9.IsWhole) (arg10 : Memref sig .tc .vmem S4x256x16 .f32) (harg10 : arg10.IsWhole) (hc0 : ¬cond0_0 i) (hc1 : cond0_1 i)
    (x0 : Vec F S4x256x1024 .f32) (x1 : Vec F S4x128x1024 .bf16) (x2 : Vec F S4x128x1024 .bf16) (x3 : Vec F S4x1x256x128 .f32) (x4 : Vec F S1x16x256x128 .f32) (xs0 : Vec F S4x8x256x128 .f32) (xs1 : Vec F S4x256x16 .f32) (xs2 : Vec F S4x256x16 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = Scratch.outFinal (Scratch.aStep x0 x1 x2 x3 x4 xs0 xs1) (Scratch.lStep x0 x1 x3 x4 xs1 xs2) := by
  unfold out0_C_5
  rw [View.read_writes_junk_eq_canon]
  have ha : View.canon (kernelRun0_C.sl.HS0_64 c arg2 harg2 arg3 harg3 arg4 harg4 arg5 harg5 arg6 harg6 arg8 harg8 arg9 harg9 x0 x1 x2 x3 x4 xs0 xs1) = Scratch.aStep x0 x1 x2 x3 x4 xs0 xs1 :=
    canon_C_0 c i arg2 harg2 arg3 harg3 arg4 harg4 arg5 harg5 arg6 harg6 arg7 harg7 arg8 harg8 arg9 harg9 arg10 harg10 hc0 hc1 x0 x1 x2 x3 x4 xs0 xs1 xs2
  have hl : View.canon (kernelRun0_C.sl.HS2_64 c arg2 harg2 arg3 harg3 arg5 harg5 arg6 harg6 arg9 harg9 arg10 harg10 x0 x1 x3 x4 xs1 xs2) = Scratch.lStep x0 x1 x3 x4 xs1 xs2 :=
    canon_C_2 c i arg2 harg2 arg3 harg3 arg4 harg4 arg5 harg5 arg6 harg6 arg7 harg7 arg8 harg8 arg9 harg9 arg10 harg10 hc0 hc1 x0 x1 x2 x3 x4 xs0 xs1 xs2
  rw [← ha, ← hl]
  funext y
  refine View.canon_apply_of_pieces (Scratch.outFinal (View.canon (kernelRun0_C.sl.HS0_64 c arg2 harg2 arg3 harg3 arg4 harg4 arg5 harg5 arg6 harg6 arg8 harg8 arg9 harg9 x0 x1 x2 x3 x4 xs0 xs1)) (View.canon (kernelRun0_C.sl.HS2_64 c arg2 harg2 arg3 harg3 arg5 harg5 arg6 harg6 arg9 harg9 arg10 harg10 x0 x1 x3 x4 xs1 xs2))) _ ?_ y (cover0_C_5 c i arg2 harg2 arg3 harg3 arg4 harg4 arg5 harg5 arg6 harg6 arg7 harg7 arg8 harg8 arg9 harg9 arg10 harg10 hc0 hc1 x0 x1 x2 x3 x4 xs0 xs1 xs2 y)
  unfold kernelRun0_C
  dsimp only
  repeat (first
    | exact fun _ h => absurd h List.not_mem_nil
    | refine List.forall_mem_cons.2 ⟨fun x => Eq.symm (oPiece_spec2 _ _ (by omega) (by omega) (by omega) _ _ _ _ (by decide) (by decide) (by decide) (by decide) x), ?_⟩)

end Cert.KernelIdeal.Gen

end
-- ==== Proof.Pieces.lean ====
/- What each control case of the kernel body leaves in the three running buffers and in the output block, as the
   whole-buffer step functions: the body's 64 (batch, head) iterations each store one rectangle of each buffer, and the
   rectangles tile the buffers.  The first point of a query tile stores the starting contents first and steps over
   them; a middle point steps over what the point before left; the last point steps likewise and then divides into
   the output block.  One module per case and buffer; this one gathers them. -/
import proofs.«103612_j35940286333141_2_alg».proof.Proof.PiecesA
import proofs.«103612_j35940286333141_2_alg».proof.Proof.PiecesB1
import proofs.«103612_j35940286333141_2_alg».proof.Proof.PiecesB2
import proofs.«103612_j35940286333141_2_alg».proof.Proof.PiecesB0
import proofs.«103612_j35940286333141_2_alg».proof.Proof.PiecesC1
import proofs.«103612_j35940286333141_2_alg».proof.Proof.PiecesC2
import proofs.«103612_j35940286333141_2_alg».proof.Proof.PiecesC0
import proofs.«103612_j35940286333141_2_alg».proof.Proof.PiecesOut
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.StepApply.lean ====
/- One step of the kernel, and the last block's division, read entry by entry on the extended reals.

   Each quantity of the step is a composition of pointwise operations with a few operations that move or combine
   entries: a product of two blocks, a reduction along the 128 lanes of a row, a column of per-row values spread along
   a row, a cut of 64 lanes out of 128, and two 64-lane halves laid side by side. Read at one entry:
     the score at (r, c) is (Σ_{d<64} q(r,d) · k(c,d) - mask(r,c) + rel(r,c)) · 1/8 — the product contracts the
       feature axis of both operands, so the keys enter by rows;
     the new reference point of row r is max (m r) (sup_c s(r,c)) — a maximum started from minus infinity is a supremum;
     the rescaling factor is exp (m r - m' r), an exponential is exp (s(r,c) - m' r);
     the new sum is exp (m r - m' r) · l r + Σ_c exp (s(r,c) - m' r), and the new unnormalised result at (r, d) is
       exp (m r - m' r) · acc(r,d) + Σ_c exp (s(r,c) - m' r) · v(c,d);
     the final pair at lane d < 64 is a(r,d) · (1 / l0 r), and at lane 64 + d it is a(r,64+d) · (1 / l1 r).
   A change of float format is the identity on the extended reals, so the roundings to bf16 in front of the two
   products leave no trace. -/
import proofs.«103612_j35940286333141_2_alg».proof.Proof.StepDefs
import proofs.«103612_j35940286333141_2_alg».proof.Proof.Spec
import proofs.«103612_j35940286333141_2_alg».proof.Proof.LibPlainDot
import proofs.«103612_j35940286333141_2_alg».proof.Proof.LibColumn
import Idealize.ShloMosaic.Lib.ValueLayout
import Idealize.ShloMosaic.Lib.Pipeline.Value

noncomputable section

open scoped BigOperators

namespace Cert.Attn.StepApply

open Idealize.ShloMosaic Idealize.ShloMosaic.ValueIdx Cert.KernelIdeal

variable [Cert.KernelIdeal.Facts]
open Cert.KernelIdeal.Facts₀ Cert.KernelIdeal.Facts

/-! ## Two float words as extended reals -/

/-- The word of 1.0 is the number one. -/
theorem ofBits_one_f32 : Ideal.ofBits .f32 0x3F800000#32 = 1 := by
  simp [Ideal.ofBits, Ideal.ieee]
  rw [← EReal.coe_mul]
  norm_num

/-- The word of minus infinity is the least extended real. -/
theorem ofBits_negInf_f32 : Ideal.ofBits .f32 0xFF800000#32 = ⊥ := by
  simp [Ideal.ofBits, Ideal.ieee]

/-! ## A product against a transposed right operand -/

/-- For dimension numbers that contract the second axis of both operands, an [M, K] array against a [P, K] array, the
    product into a zero accumulator read at row p and column q is the sum over k of l (p, k) · r (q, k). The
    contraction's index set has one axis, and the sum is re-indexed through that axis's coordinate. -/
theorem matmul_nt_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

/-! ## The step's two products -/

/-- Queries against keys: row r of q against row c of k. -/
theorem qk_apply (q : FVec Ideal S256x64 .bf16) (k : FVec Ideal S128x64 .bf16) (r : Fin 256) (c : Fin 128) :
    matmul dot_S256x64_S128x64_S256x128_1_1_0_0_n_n none q k (constant S256x128 .f32 0x00000000#32) (ix2 r c)
      = ∑ d : Fin 64, q (ix2 r d) * k (ix2 c d) :=
  matmul_nt_zero_apply dot_S256x64_S128x64_S256x128_1_1_0_0_n_n rfl rfl
    (fun j c => by
      unfold DotDims.lhsIdx
      rw [dif_neg (show ¬(0 : Fin S256x64.rank) ∈ dot_S256x64_S128x64_S256x128_1_1_0_0_n_n.lhsBatch from List.not_mem_nil),
        dif_pos (show (0 : Fin S256x64.rank) ∈ dot_S256x64_S128x64_S256x128_1_1_0_0_n_n.lhsNonContracting from List.mem_singleton.mpr rfl)]
      rfl)
    (fun j c => by
      unfold DotDims.rhsIdx
      rw [dif_neg (show ¬(0 : Fin S128x64.rank) ∈ dot_S256x64_S128x64_S256x128_1_1_0_0_n_n.rhsBatch from List.not_mem_nil),
        dif_pos (show (0 : Fin S128x64.rank) ∈ dot_S256x64_S128x64_S256x128_1_1_0_0_n_n.rhsNonContracting from List.mem_singleton.mpr rfl)]
      rfl)
    rfl rfl none q k r c

/-- Weights against values: row r of p against column d of v. -/
theorem pv_apply (p : FVec Ideal S256x128 .bf16) (v : FVec Ideal S128x64 .bf16) (r : Fin 256) (d : Fin 64) :
    matmul dot_S256x128_S128x64_S256x64_1_0_0_1_n_n none p v (constant S256x64 .f32 0x00000000#32) (ix2 r d)
      = ∑ c : Fin 128, p (ix2 r c) * v (ix2 c d) :=
  Cert.LibPlainDot.matmul_zero_apply dot_S256x128_S128x64_S256x64_1_0_0_1_n_n rfl rfl
    (fun j c => by
      unfold DotDims.lhsIdx
      rw [dif_neg (show ¬(0 : Fin S256x128.rank) ∈ dot_S256x128_S128x64_S256x64_1_0_0_1_n_n.lhsBatch from List.not_mem_nil),
        dif_pos (show (0 : Fin S256x128.rank) ∈ dot_S256x128_S128x64_S256x64_1_0_0_1_n_n.lhsNonContracting from List.mem_singleton.mpr rfl)]
      rfl)
    (fun j c => by
      unfold DotDims.rhsIdx
      rw [dif_neg (show ¬(1 : Fin S128x64.rank) ∈ dot_S256x128_S128x64_S256x64_1_0_0_1_n_n.rhsBatch from List.not_mem_nil),
        dif_pos (show (1 : Fin S128x64.rank) ∈ dot_S256x128_S128x64_S256x64_1_0_0_1_n_n.rhsNonContracting from List.mem_singleton.mpr rfl)]
      rfl)
    rfl rfl none p v r d

/-! ## Row reductions of a 256 × 128 block, and columns -/

/-- The index a reduction along the lanes reads for row r and lane c. -/
theorem lift_row (r : Fin 256) (c : Fin 128) : reduces_S256x128_S256.lift (ix1 r) c = ix2 r c :=
  funext fun a => Fin.ext (by
    match a with
    | ⟨0, _⟩ => rfl
    | ⟨1, _⟩ => rfl)

/-- The lane sum of a block at row r is the sum of the row's 128 entries. -/
theorem rowSum_apply (x : FVec Ideal S256x128 .f32) (r : Fin 256) :
    multiReduction .add [1] S256 x 0x00000000#32 reduces_S256x128_S256 (.inl rfl) rfl (ix1 r) = ∑ c : Fin 128, x (ix2 r c) := by
  refine (Ideal.multiReduction_add_single x 0x00000000#32 reduces_S256x128_S256 (.inl rfl) rfl (ix1 r)).trans ?_
  exact Finset.sum_congr rfl fun c _ => congrArg x (lift_row r c)

/-- The lane maximum of a block at row r, started from minus infinity, is the supremum of the row's 128 entries. -/
theorem rowMax_apply (x : FVec Ideal S256x128 .f32) (r : Fin 256) :
    multiReduction .maximumf [1] S256 x 0xFF800000#32 reduces_S256x128_S256 (.inl rfl) rfl (ix1 r)
      = Finset.univ.sup fun c : Fin 128 => x (ix2 r c) := by
  refine (Ideal.multiReduction_maximumf_single x 0xFF800000#32 reduces_S256x128_S256 (.inl rfl) rfl (ix1 r)).trans ?_
  have e : (x ∘ reduces_S256x128_S256.lift (ix1 r)) = fun c : Fin 128 => x (ix2 r c) :=
    funext fun c => congrArg x (lift_row r c)
  rw [e, Ideal.ofBits_def, ofBits_negInf_f32]
  rfl

end Cert.Attn.StepApply

namespace Cert.Attn.Step

open Idealize.ShloMosaic Idealize.ShloMosaic.ValueIdx Cert.KernelIdeal Cert.Attn.StepApply

variable [Cert.KernelIdeal.Facts]
open Cert.KernelIdeal.Facts₀ Cert.KernelIdeal.Facts

/-! ## The step read at an index -/

/-- A score: the query row against the key row, less the mask, plus the relative-position term, times 1/8. -/
theorem scores_apply (q : FVec Ideal S256x64 .f32) (k : FVec Ideal S128x64 .bf16) (mb rp : FVec Ideal S256x128 .f32)
    (r : Fin 256) (c : Fin 128) :
    scores (F := Ideal) q k mb rp (ix2 r c)
      = ((∑ d : Fin 64, q (ix2 r d) * k (ix2 c d)) - mb (ix2 r c) + rp (ix2 r c)) * Cert.Attn.eighth := by
  unfold scores
  rw [mulf_apply, addf_apply, subf_apply, qk_apply]
  rfl

/-- The new reference point of a row: the old one against the row's largest score. -/
theorem mNew_apply (m : FVec Ideal S256x1 .f32) (s : FVec Ideal S256x128 .f32) (r : Fin 256) :
    mNew (F := Ideal) m s (ix2 r 0) = max (m (ix2 r 0)) (Finset.univ.sup fun c : Fin 128 => s (ix2 r c)) := by
  unfold mNew
  rw [maximumf_apply, Cert.LibColumn.shapeCast_a_a1_apply, rowMax_apply]

/-- The rescaling factor of a row. -/
theorem alpha_apply (m : FVec Ideal S256x1 .f32) (s : FVec Ideal S256x128 .f32) (r : Fin 256) :
    alpha (F := Ideal) m s (ix2 r 0) = Ideal.exp (m (ix2 r 0) - mNew (F := Ideal) m s (ix2 r 0)) := rfl

/-- A score's exponential, taken at the row's new reference point. -/
theorem expo_apply (m : FVec Ideal S256x1 .f32) (s : FVec Ideal S256x128 .f32) (r : Fin 256) (c : Fin 128) :
    expo (F := Ideal) m s (ix2 r c) = Ideal.exp (s (ix2 r c) - mNew (F := Ideal) m s (ix2 r 0)) := by
  unfold expo
  show Ideal.exp (s (ix2 r c) - broadcastTo S256x128 (mNew (F := Ideal) m s) broadcasts_S256x1_S256x128 (ix2 r c)) = _
  rw [Cert.LibColumn.broadcastTo_a1_ab_apply]

/-- The new sum of a row: the old one rescaled, plus the block's exponentials. -/
theorem lNew_apply (m l : FVec Ideal S256x1 .f32) (s : FVec Ideal S256x128 .f32) (r : Fin 256) :
    lNew (F := Ideal) m l s (ix2 r 0)
      = alpha (F := Ideal) m s (ix2 r 0) * l (ix2 r 0) + ∑ c : Fin 128, expo (F := Ideal) m s (ix2 r c) := by
  unfold lNew
  rw [addf_apply, mulf_apply, Cert.LibColumn.shapeCast_a_a1_apply, rowSum_apply]

/-- The new unnormalised result: the old one rescaled, plus the block's exponentials against the values. -/
theorem accNew_apply (m : FVec Ideal S256x1 .f32) (acc : FVec Ideal S256x64 .f32) (s : FVec Ideal S256x128 .f32)
    (v : FVec Ideal S128x64 .bf16) (r : Fin 256) (d : Fin 64) :
    accNew (F := Ideal) m acc s v (ix2 r d)
      = alpha (F := Ideal) m s (ix2 r 0) * acc (ix2 r d) + ∑ c : Fin 128, expo (F := Ideal) m s (ix2 r c) * v (ix2 c d) := by
  unfold accNew
  rw [addf_apply, mulf_apply, Cert.LibColumn.broadcastTo_a1_ab_apply, pv_apply]
  rfl

/-- The reciprocal of a row's sum. -/
theorem recip_apply (l : FVec Ideal S256x1 .f32) (r : Fin 256) :
    recip (F := Ideal) l (ix2 r 0) = Ideal.div 1 (l (ix2 r 0)) := by
  unfold recip
  rw [divf_apply, broadcast_apply]
  show Ideal.div (Ideal.ofBits .f32 0x3F800000#32) _ = _
  rw [ofBits_one_f32]

/-- The left half of the final pair: lane d is divided by the first head's sum. -/
theorem finalPair_apply_lo (l0 l1 : FVec Ideal S256x1 .f32) (a : FVec Ideal S256x128 .f32) (r : Fin 256) (d : Fin 64) :
    finalPair (F := Ideal) l0 l1 a (ix2 r (⟨d.val, by have := d.isLt; omega⟩ : Fin 128))
      = a (ix2 r (⟨d.val, by have := d.isLt; omega⟩ : Fin 128)) * Ideal.div 1 (l0 (ix2 r 0)) := by
  unfold finalPair
  refine (concatenate_pair_apply_left (1 : Fin S256x128.rank) _ _ concatenates_S256x64_S256x64_S256x128_d1 _ rfl (ix2 r d)
    (fun b => by
      match b with
      | ⟨0, _⟩ => rfl
      | ⟨1, _⟩ => rfl)).trans ?_
  rw [mulf_apply, slice2_axis1_apply 0 a slices_S256x128_o0_0_S256x64 r d ⟨d.val, by have := d.isLt; omega⟩ (Nat.zero_add _).symm,
    Cert.LibColumn.broadcastTo_a1_ab_apply, recip_apply]

/-- The right half of the final pair: lane 64 + d is divided by the second head's sum. -/
theorem finalPair_apply_hi (l0 l1 : FVec Ideal S256x1 .f32) (a : FVec Ideal S256x128 .f32) (r : Fin 256) (d : Fin 64) :
    finalPair (F := Ideal) l0 l1 a (ix2 r (⟨64 + d.val, by have := d.isLt; omega⟩ : Fin 128))
      = a (ix2 r (⟨64 + d.val, by have := d.isLt; omega⟩ : Fin 128)) * Ideal.div 1 (l1 (ix2 r 0)) := by
  unfold finalPair
  refine (concatenate_pair_apply_right (1 : Fin S256x128.rank) _ _ concatenates_S256x64_S256x64_S256x128_d1 _ rfl rfl (ix2 r d)
    (fun b => by
      match b with
      | ⟨0, _⟩ => exact fun _ => rfl
      | ⟨1, _⟩ => exact fun h => absurd rfl h)
    (by show d.val + 64 = 64 + d.val; omega)).trans ?_
  rw [mulf_apply, slice2_axis1_apply 64 a slices_S256x128_o0_64_S256x64 r d ⟨64 + d.val, by have := d.isLt; omega⟩ rfl,
    Cert.LibColumn.broadcastTo_a1_ab_apply, recip_apply]

end Cert.Attn.Step

end
-- ==== Proof.ScratchApply.lean ====
/- What one grid point leaves in the kernel's running buffers and in its output block, read entry by entry on the
   extended reals.

   A grid point applies the step to each (batch b, head h) on that pair's own blocks: head h's 64 columns of the query,
   key and value blocks of batch b, batch b's mask block, head h's relative-position block, and the entries (b, ·, h) of the
   reference-point and sum buffers; the unnormalised result of head h sits in lanes 64 (h % 2) … 64 (h % 2) + 63 of lane
   block h / 2. Reading the step's formulas through these selections gives, with s(r, c) the score of key c for query row r,
     m'(b, r, h) = max (m(b, r, h)) (sup_c s(r, c)),
     l'(b, r, h) = exp (m - m') · l(b, r, h) + Σ_c exp (s(r, c) - m'),
     acc'(b, h / 2, r, 64 (h % 2) + d) = exp (m - m') · acc(…) + Σ_c exp (s(r, c) - m') · V(b, c, 64 h + d),
   and the output at column 64 h + d is acc(b, h / 2, r, 64 (h % 2) + d) · (1 / l(b, r, h)): an even head is the first of
   its pair and takes the first 64 lanes, an odd head the second and the last 64. The arithmetic on head, lane block,
   lane and column numbers is stated first. -/
import proofs.«103612_j35940286333141_2_alg».proof.Proof.ScratchFns
import proofs.«103612_j35940286333141_2_alg».proof.Proof.StepApply
import proofs.«103612_j35940286333141_2_alg».proof.Proof.Spec

noncomputable section

open scoped BigOperators

namespace Cert.Attn.Scratch

open Idealize.ShloMosaic Idealize.ShloMosaic.ValueIdx Cert.KernelIdeal Cert.Attn

variable [Cert.KernelIdeal.Facts]

/-! ## Heads, lane blocks and lanes -/

/-- Lane 64 (h % 2) + d of lane block h / 2 belongs to head h … -/
theorem headOfLane_lane (h : Fin 16) (d : Fin 64) : headOfLane (pairOfHead h) (lane h d) = h := Fin.ext (by
  have := d.isLt
  show 2 * (h.val / 2) + (64 * (h.val % 2) + d.val) / 64 = h.val
  omega)

/-- … and is its feature d. -/
theorem featOfLane_lane (h : Fin 16) (d : Fin 64) : featOfLane (lane h d) = d := Fin.ext (by
  have := d.isLt
  show (64 * (h.val % 2) + d.val) % 64 = d.val
  omega)

/-- Column 64 h + d of the 1024 features lies in lane block h / 2 … -/
theorem pairOfCol_col (h : Fin 16) (d : Fin 64) : pairOfCol (col h d) = pairOfHead h := Fin.ext (by
  have := d.isLt
  show (64 * h.val + d.val) / 128 = h.val / 2
  omega)

/-- … at lane 64 (h % 2) + d. -/
theorem laneOfCol_col (h : Fin 16) (d : Fin 64) : laneOfCol (col h d) = lane h d := Fin.ext (by
  have := d.isLt
  show (64 * h.val + d.val) % 128 = 64 * (h.val % 2) + d.val
  omega)

/-- An even head is the first of its pair … -/
theorem headLo_pairOfHead (h : Fin 16) (he : h.val % 2 = 0) : headLo (pairOfHead h) = h := Fin.ext (by
  show 2 * (h.val / 2) = h.val
  omega)

/-- … and an odd head the second. -/
theorem headHi_pairOfHead (h : Fin 16) (ho : h.val % 2 = 1) : headHi (pairOfHead h) = h := Fin.ext (by
  show 2 * (h.val / 2) + 1 = h.val
  omega)

/-- An even head's features fill the first 64 lanes … -/
theorem lane_even (h : Fin 16) (d : Fin 64) (he : h.val % 2 = 0) :
    lane h d = (⟨d.val, by have := d.isLt; omega⟩ : Fin 128) := Fin.ext (by
  show 64 * (h.val % 2) + d.val = d.val
  omega)

/-- … and an odd head's the last 64. -/
theorem lane_odd (h : Fin 16) (d : Fin 64) (ho : h.val % 2 = 1) :
    lane h d = (⟨64 + d.val, by have := d.isLt; omega⟩ : Fin 128) := Fin.ext (by
  show 64 * (h.val % 2) + d.val = 64 + d.val
  omega)

/-! ## The buffers after a grid point, read at an index -/

/-- A score of (b, h): head h's 64 features of query row r against those of key row c. -/
theorem sOf_apply (x0 : Vec Ideal S4x256x1024 .f32) (x1 : Vec Ideal S4x128x1024 .bf16) (x3 : Vec Ideal S4x1x256x128 .f32)
    (x4 : Vec Ideal S1x16x256x128 .f32) (b : Fin 4) (h : Fin 16) (r : Fin 256) (c : Fin 128) :
    sOf (F := Ideal) x0 x1 x3 x4 b h (ix2 r c)
      = ((∑ d : Fin 64, x0 (ix3 b r (col h d)) * x1 (ix3 b c (col h d))) - x3 (ix4 b 0 r c) + x4 (ix4 0 h r c)) * eighth := by
  unfold sOf
  rw [Step.scores_apply]
  rfl

/-- The reference-point buffer at (b, r, h) is the step's new reference point of row r for the blocks of (b, h). -/
theorem mStep_eq (x0 : Vec Ideal S4x256x1024 .f32) (x1 : Vec Ideal S4x128x1024 .bf16) (x3 : Vec Ideal S4x1x256x128 .f32)
    (x4 : Vec Ideal S1x16x256x128 .f32) (xs1 : Vec Ideal S4x256x16 .f32) (b : Fin 4) (r : Fin 256) (h : Fin 16) :
    mStep (F := Ideal) x0 x1 x3 x4 xs1 (ix3 b r h)
      = Step.mNew (F := Ideal) (colOf xs1 b h) (sOf (F := Ideal) x0 x1 x3 x4 b h) (ix2 r 0) := rfl

theorem mStep_apply (x0 : Vec Ideal S4x256x1024 .f32) (x1 : Vec Ideal S4x128x1024 .bf16) (x3 : Vec Ideal S4x1x256x128 .f32)
    (x4 : Vec Ideal S1x16x256x128 .f32) (xs1 : Vec Ideal S4x256x16 .f32) (b : Fin 4) (r : Fin 256) (h : Fin 16) :
    mStep (F := Ideal) x0 x1 x3 x4 xs1 (ix3 b r h)
      = max (xs1 (ix3 b r h)) (Finset.univ.sup fun c : Fin 128 => sOf (F := Ideal) x0 x1 x3 x4 b h (ix2 r c)) := by
  rw [mStep_eq, Step.mNew_apply]
  rfl

theorem lStep_apply (x0 : Vec Ideal S4x256x1024 .f32) (x1 : Vec Ideal S4x128x1024 .bf16) (x3 : Vec Ideal S4x1x256x128 .f32)
    (x4 : Vec Ideal S1x16x256x128 .f32) (xs1 xs2 : Vec Ideal S4x256x16 .f32) (b : Fin 4) (r : Fin 256) (h : Fin 16) :
    lStep (F := Ideal) x0 x1 x3 x4 xs1 xs2 (ix3 b r h)
      = Ideal.exp (xs1 (ix3 b r h) - mStep (F := Ideal) x0 x1 x3 x4 xs1 (ix3 b r h)) * xs2 (ix3 b r h)
        + ∑ c : Fin 128, Ideal.exp (sOf (F := Ideal) x0 x1 x3 x4 b h (ix2 r c) - mStep (F := Ideal) x0 x1 x3 x4 xs1 (ix3 b r h)) := by
  rw [mStep_eq]
  show Step.lNew (F := Ideal) (colOf xs1 b h) (colOf xs2 b h) (sOf (F := Ideal) x0 x1 x3 x4 b h) (ix2 r 0) = _
  rw [Step.lNew_apply, Step.alpha_apply]
  simp only [Step.expo_apply]
  rfl

theorem aStep_apply (x0 : Vec Ideal S4x256x1024 .f32) (x1 x2 : Vec Ideal S4x128x1024 .bf16) (x3 : Vec Ideal S4x1x256x128 .f32)
    (x4 : Vec Ideal S1x16x256x128 .f32) (xs0 : Vec Ideal S4x8x256x128 .f32) (xs1 : Vec Ideal S4x256x16 .f32)
    (b : Fin 4) (r : Fin 256) (h : Fin 16) (d : Fin 64) :
    aStep (F := Ideal) x0 x1 x2 x3 x4 xs0 xs1 (ix4 b (pairOfHead h) r (lane h d))
      = Ideal.exp (xs1 (ix3 b r h) - mStep (F := Ideal) x0 x1 x3 x4 xs1 (ix3 b r h)) * xs0 (ix4 b (pairOfHead h) r (lane h d))
        + ∑ c : Fin 128, Ideal.exp (sOf (F := Ideal) x0 x1 x3 x4 b h (ix2 r c) - mStep (F := Ideal) x0 x1 x3 x4 xs1 (ix3 b r h))
            * x2 (ix3 b c (col h d)) := by
  rw [mStep_eq]
  show Step.accNew (F := Ideal) (colOf xs1 b (headOfLane (pairOfHead h) (lane h d))) (accOf xs0 b (headOfLane (pairOfHead h) (lane h d)))
    (sOf (F := Ideal) x0 x1 x3 x4 b (headOfLane (pairOfHead h) (lane h d))) (kOf x2 b (headOfLane (pairOfHead h) (lane h d)))
    (ix2 r (featOfLane (lane h d))) = _
  rw [headOfLane_lane, featOfLane_lane, Step.accNew_apply, Step.alpha_apply]
  simp only [Step.expo_apply]
  rfl

/-- The output block at column 64 h + d: head h's entry of the unnormalised result over head h's sum. An even head sits
    in the first 64 lanes of its pair and is divided by the pair's first sum, an odd head in the last 64 and by the second. -/
theorem outFinal_apply (a : Vec Ideal S4x8x256x128 .f32) (l : Vec Ideal S4x256x16 .f32) (b : Fin 4) (r : Fin 256) (h : Fin 16)
    (d : Fin 64) :
    outFinal (F := Ideal) a l (ix3 b r (col h d)) = a (ix4 b (pairOfHead h) r (lane h d)) * Ideal.div 1 (l (ix3 b r h)) := by
  show Step.finalPair (F := Ideal) (colOf l b (headLo (pairOfCol (col h d)))) (colOf l b (headHi (pairOfCol (col h d))))
    (pairOf a b (pairOfCol (col h d))) (ix2 r (laneOfCol (col h d))) = _
  rw [pairOfCol_col, laneOfCol_col]
  rcases Nat.mod_two_eq_zero_or_one h.val with he | ho
  · rw [lane_even h d he, Step.finalPair_apply_lo]
    show a (ix4 b (pairOfHead h) r _) * Ideal.div 1 (l (ix3 b r (headLo (pairOfHead h)))) = _
    rw [headLo_pairOfHead h he]
  · rw [lane_odd h d ho, Step.finalPair_apply_hi]
    show a (ix4 b (pairOfHead h) r _) * Ideal.div 1 (l (ix3 b r (headHi (pairOfHead h)))) = _
    rw [headHi_pairOfHead h ho]

/-! ## The starting contents -/

/-- The starting reference point is one finite number at every entry. -/
theorem mInit_real : ∃ g : ℝ, ∀ i, mInit (F := Ideal) i = (g : EReal) := by
  have hw : ∃ g : ℝ, Ideal.ofBits .f32 0xFF333332#32 = (g : EReal) := by
    simp [Ideal.ofBits, Ideal.ieee]
    refine ⟨-(11744050 * 2 ^ 104), ?_⟩
    norm_cast
  obtain ⟨g, hg⟩ := hw
  exact ⟨g, fun _ => hg⟩

/-- The starting sums are zero. -/
theorem lInit_apply (i) : lInit (F := Ideal) i = 0 := Ideal.ofBits_zero_f32

/-- The starting unnormalised result is zero. -/
theorem aInit_apply (i) : aInit (F := Ideal) i = 0 := Ideal.ofBits_zero_f32

end Cert.Attn.Scratch

end
-- ==== Proof.Invariant.lean ====
/- The invariant of the kernel's run, by induction over the grid points.

   Grid point t is query tile t / 16 and key block t % 16.  At every point the three running buffers are one step of
   the online softmax applied to what they held before: at the first point of a tile over the starting contents (a
   real reference point, zero sums), at a later point over what the point before left.  One step, for batch b, tile
   row r and head h, consumes the block's 128 keys 128 (t%16) + k: the block's scores there are the row's real scores
   of those keys, the block's values the real values of those keys, and the keys are new.  So if the entries tracked
   the keys consumed before, the stepped entries track them together with the block; by induction over the points of
   a tile the entries after point t track the keys 0 … 128 (t%16 + 1) - 1. -/
import proofs.«103612_j35940286333141_2_alg».proof.Proof.InvDefs
import proofs.«103612_j35940286333141_2_alg».proof.Proof.Pieces
import proofs.«103612_j35940286333141_2_alg».proof.Proof.ScratchApply

noncomputable section

namespace Cert.Attn.Kernel

open Cert.KernelIdeal Cert.KernelIdeal.Gen Idealize.ShloMosaic Idealize.ShloMosaic.TcCoe Idealize.SL.Sem
open Idealize.ShloMosaic.ValueIdx Cert.Attn

/-! ## One block of keys, for one batch, row and head

Over any blocks and any previous buffer contents: if the block's scores at (b, h, r) are the reals σ (e k) and its
values in head h's columns the reals ν_d (e k), for keys e k not yet consumed, and the previous entries track the
consumed keys J, then the entries the step leaves track J with the block. -/

theorem step_tracks (x0 : Vec Ideal S4x256x1024 .f32) (x1 x2 : Vec Ideal S4x128x1024 .bf16) (x3 : Vec Ideal S4x1x256x128 .f32)
    (x4 : Vec Ideal S1x16x256x128 .f32) (xs0 : Vec Ideal S4x8x256x128 .f32) (xs1 xs2 : Vec Ideal S4x256x16 .f32)
    (J : Finset (Fin 2048)) (σr : Fin 2048 → ℝ) (νf : Fin 64 → Fin 2048 → ℝ) (e : Fin 128 ↪ Fin 2048)
    (b : Fin 4) (r : Fin 256) (h : Fin 16)
    (hs : ∀ k, Scratch.sOf (F := Ideal) x0 x1 x3 x4 b h (ix2 r k) = ((σr (e k) : ℝ) : EReal))
    (hv : ∀ d k, (x2 (ix3 b k (col h d)) : EReal) = ((νf d (e k) : ℝ) : EReal))
    (hd : ∀ k, e k ∉ J)
    (hl : Online.Tracks J σr (fun _ => 1) (xs1 (ix3 b r h)) (xs2 (ix3 b r h)))
    (ha : ∀ d, Online.Tracks J σr (νf d) (xs1 (ix3 b r h)) (xs0 (ix4 b (Scratch.pairOfHead h) r (Scratch.lane h d)))) :
    Online.Tracks (J ∪ Finset.univ.map e) σr (fun _ => 1) (Scratch.mStep (F := Ideal) x0 x1 x3 x4 xs1 (ix3 b r h))
        (Scratch.lStep (F := Ideal) x0 x1 x3 x4 xs1 xs2 (ix3 b r h))
      ∧ ∀ d, Online.Tracks (J ∪ Finset.univ.map e) σr (νf d) (Scratch.mStep (F := Ideal) x0 x1 x3 x4 xs1 (ix3 b r h))
        (Scratch.aStep (F := Ideal) x0 x1 x2 x3 x4 xs0 xs1 (ix4 b (Scratch.pairOfHead h) r (Scratch.lane h d))) := by
  have hm : Scratch.mStep (F := Ideal) x0 x1 x3 x4 xs1 (ix3 b r h)
      = max (xs1 (ix3 b r h)) (Finset.univ.sup fun k : Fin 128 => ((σr (e k) : ℝ) : EReal)) := by
    rw [Scratch.mStep_apply]; simp only [hs]
  refine ⟨?_, fun d => ?_⟩
  · rw [Scratch.lStep_apply, hm]; simp only [hs]; exact hl.step_one e hd
  · rw [Scratch.aStep_apply, hm]; simp only [hs, hv]; exact (ha d).step e hd

/-! ## The blocks of grid point t as entries of the arguments -/

variable (m : (ℓ : Loc nD τ sig) → Buf (Elt Ideal) ℓ) (c : Dev nD)

/-- The score block of (b, h) at point t, entry (r, k): the score of query 256 (t/16) + r against key 128 (t%16) + k. -/
theorem score_at (σ : Fin 4 → Fin 16 → Fin 2048 → Fin 2048 → ℝ)
    (hσ : ∀ b h q k, Cert.Attn.score (argQ m c) (argK m c) (argM m c) (argR m c) b h q k = ((σ b h q k : ℝ) : EReal))
    (t : Fin cfg0.N) (b : Fin 4) (h : Fin 16) (r : Fin 256) (k : Fin 128) :
    Scratch.sOf (F := Ideal) (iblk m c 0 t) (iblk m c 1 t) (iblk m c 3 t) (iblk m c 4 t) b h (ix2 r k)
      = ((σ b h (Blocks.qrow t r) (Blocks.krow t k) : ℝ) : EReal) := by
  refine (Scratch.sOf_apply (iblk m c 0 t) (iblk m c 1 t) (iblk m c 3 t) (iblk m c 4 t) b h r k).trans ?_
  rw [← hσ]
  unfold Cert.Attn.score
  simp only [Blocks.iblk0_apply, Blocks.iblk1_apply, Blocks.iblk3_apply, Blocks.iblk4_apply]
  rw [V_main_arg0, Blocks.V_main_v0, V_main_arg3, V_main_arg4]
  rfl

/-- The value block at point t, entry (b, k, 64 h + d): the value of key 128 (t%16) + k. -/
theorem value_at (ν : SQ.Idx → ℝ) (hν : ∀ i, argV m c i = ((ν i : ℝ) : EReal))
    (t : Fin cfg0.N) (b : Fin 4) (h : Fin 16) (k : Fin 128) (d : Fin 64) :
    ((iblk m c 2 t : Vec Ideal S4x128x1024 .bf16) (ix3 b k (col h d)) : EReal) = ((ν (ix3 b (Blocks.krow t k) (col h d)) : ℝ) : EReal) := by
  rw [Blocks.iblk2_apply, Blocks.V_main_v1, ← hν]
  rfl

/-! ## The keys of a point's block, and the keys consumed -/

/-- The keys of point t's block: k ↦ 128 (t%16) + k, an injection of the 128 block columns into the 2048 keys. -/
def keyEmb (t : Fin cfg0.N) : Fin 128 ↪ Fin 2048 :=
  ⟨Blocks.krow t, fun k k' e => Fin.ext (by
    have h := congrArg Fin.val e
    simp only [Blocks.krow] at h
    omega)⟩

theorem keyEmb_apply (t : Fin cfg0.N) (k : Fin 128) : keyEmb t k = Blocks.krow t k := rfl

/-- At the first point of a query tile the consumed keys are the block's. -/
theorem seen_first (t : Fin cfg0.N) (h0 : t.val % 16 = 0) : seen t = ∅ ∪ Finset.univ.map (keyEmb t) := by
  ext K
  simp only [seen, Finset.empty_union, Finset.mem_filter, Finset.mem_univ, true_and, Finset.mem_map]
  constructor
  · intro hK
    refine ⟨⟨K.val, by omega⟩, Fin.ext ?_⟩
    show 128 * (t.val % 16) + K.val = K.val
    omega
  · rintro ⟨k, rfl⟩
    have := k.isLt
    show 128 * (t.val % 16) + k.val < 128 * (t.val % 16 + 1)
    omega

/-- At a later point of the tile the consumed keys are the previous point's together with the block's. -/
theorem seen_next (t t' : Fin cfg0.N) (ht : t'.val + 1 = t.val) (h0 : ¬t.val % 16 = 0) :
    seen t = seen t' ∪ Finset.univ.map (keyEmb t) := by
  ext K
  simp only [seen, Finset.mem_union, Finset.mem_filter, Finset.mem_univ, true_and, Finset.mem_map]
  constructor
  · intro hK
    by_cases hlt : K.val < 128 * (t'.val % 16 + 1)
    · exact Or.inl hlt
    · refine Or.inr ⟨⟨K.val - 128 * (t.val % 16), by omega⟩, Fin.ext ?_⟩
      show 128 * (t.val % 16) + (K.val - 128 * (t.val % 16)) = K.val
      omega
  · rintro (hK | ⟨k, rfl⟩)
    · omega
    · have := k.isLt
      show 128 * (t.val % 16) + k.val < 128 * (t.val % 16 + 1)
      omega

/-- The block's keys are new. -/
theorem keyEmb_fresh (t t' : Fin cfg0.N) (ht : t'.val + 1 = t.val) (h0 : ¬t.val % 16 = 0) (k : Fin 128) :
    keyEmb t k ∉ seen t' := by
  simp only [seen, Finset.mem_filter, Finset.mem_univ, true_and, not_lt]
  show 128 * (t'.val % 16 + 1) ≤ 128 * (t.val % 16) + k.val
  omega

/-- The two points are in one query tile: they read the same query rows. -/
theorem qrow_next (t t' : Fin cfg0.N) (ht : t'.val + 1 = t.val) (h0 : ¬t.val % 16 = 0) (r : Fin 256) :
    Blocks.qrow t' r = Blocks.qrow t r := Fin.ext (by
  show 256 * (t'.val / 16) + r.val = 256 * (t.val / 16) + r.val
  omega)

/-! ## The three running buffers after point t, as steps -/

theorem outsAt0_congr {n n' : ℕ} (e : n = n') (hn : n < cfg0.N) (hn' : n' < cfg0.N) :
    outsAt0 m c n hn = outsAt0 m c n' hn' := by
  subst e; rfl

/-- After the first point of a query tile: the step over the starting contents. -/
theorem bufs_first (t : Fin cfg0.N) (h0 : t.val % 16 = 0) :
    (outsAt0 m c t.val t.isLt).2.2.1
        = Scratch.mStep (F := Ideal) (iblk m c 0 t) (iblk m c 1 t) (iblk m c 3 t) (iblk m c 4 t) Scratch.mInit
      ∧ (outsAt0 m c t.val t.isLt).2.2.2
        = Scratch.lStep (F := Ideal) (iblk m c 0 t) (iblk m c 1 t) (iblk m c 3 t) (iblk m c 4 t) Scratch.mInit Scratch.lInit
      ∧ (outsAt0 m c t.val t.isLt).2.1
        = Scratch.aStep (F := Ideal) (iblk m c 0 t) (iblk m c 1 t) (iblk m c 2 t) (iblk m c 3 t) (iblk m c 4 t) Scratch.aInit Scratch.mInit := by
  have h1 : ¬t.val % 16 = 15 := by omega
  rw [outsAt0_A m c t h0 h1]
  dsimp only
  exact ⟨sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)⟩

/-- After a later point of the tile: the step over what the previous point left. -/
theorem bufs_next (t t' : Fin cfg0.N) (ht : t'.val + 1 = t.val) (h0 : ¬t.val % 16 = 0) :
    (outsAt0 m c t.val t.isLt).2.2.1
        = Scratch.mStep (F := Ideal) (iblk m c 0 t) (iblk m c 1 t) (iblk m c 3 t) (iblk m c 4 t) (outsAt0 m c t'.val t'.isLt).2.2.1
      ∧ (outsAt0 m c t.val t.isLt).2.2.2
        = Scratch.lStep (F := Ideal) (iblk m c 0 t) (iblk m c 1 t) (iblk m c 3 t) (iblk m c 4 t)
            (outsAt0 m c t'.val t'.isLt).2.2.1 (outsAt0 m c t'.val t'.isLt).2.2.2
      ∧ (outsAt0 m c t.val t.isLt).2.1
        = Scratch.aStep (F := Ideal) (iblk m c 0 t) (iblk m c 1 t) (iblk m c 2 t) (iblk m c 3 t) (iblk m c 4 t)
            (outsAt0 m c t'.val t'.isLt).2.1 (outsAt0 m c t'.val t'.isLt).2.2.1 := by
  have ep : outsAt0 m c t'.val t'.isLt = outsAt0 m c (t.val - 1) (Nat.lt_of_le_of_lt (Nat.sub_le _ _) t.isLt) :=
    outsAt0_congr m c (by omega) _ _
  rw [ep]
  by_cases h1 : t.val % 16 = 15
  · rw [outsAt0_C m c t h0 h1]
    dsimp only
    exact ⟨sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The invariant -/

section
variable (σ : Fin 4 → Fin 16 → Fin 2048 → Fin 2048 → ℝ) (ν : Cert.Attn.SQ.Idx → ℝ)
  (hσ : ∀ b h q k, Cert.Attn.score (argQ m c) (argK m c) (argM m c) (argR m c) b h q k = ((σ b h q k : ℝ) : EReal))
  (hν : ∀ i, argV m c i = ((ν i : ℝ) : EReal))
include hσ hν

/-- At the first point of a query tile: nothing consumed before, the starting reference point a real number and the
    starting sums zero. -/
theorem inv_first (t : Fin cfg0.N) (h0 : t.val % 16 = 0) (b : Fin 4) (r : Fin 256) (h : Fin 16) :
    InvAt m c σ ν t b r h := by
  obtain ⟨em, el, ea⟩ := bufs_first m c t h0
  obtain ⟨g, hg⟩ := Scratch.mInit_real
  unfold InvAt
  rw [em, el, ea, seen_first t h0]
  exact step_tracks (iblk m c 0 t) (iblk m c 1 t) (iblk m c 2 t) (iblk m c 3 t) (iblk m c 4 t) Scratch.aInit Scratch.mInit Scratch.lInit
    ∅ (σ b h (Blocks.qrow t r)) (fun d K => ν (ix3 b K (col h d))) (keyEmb t) b r h
    (fun k => score_at m c σ hσ t b h r k) (fun d k => value_at m c ν hν t b h k d) (fun k => Finset.notMem_empty _)
    (by rw [hg, Scratch.lInit_apply]; exact Online.tracks_empty _ _ g)
    (fun d => by rw [hg, Scratch.aInit_apply]; exact Online.tracks_empty _ _ g)

/-- At a later point of the tile: from the invariant at the point before. -/
theorem inv_next (t t' : Fin cfg0.N) (ht : t'.val + 1 = t.val) (h0 : ¬t.val % 16 = 0)
    (ih : ∀ (b : Fin 4) (r : Fin 256) (h : Fin 16), InvAt m c σ ν t' b r h) (b : Fin 4) (r : Fin 256) (h : Fin 16) :
    InvAt m c σ ν t b r h := by
  obtain ⟨em, el, ea⟩ := bufs_next m c t t' ht h0
  have hp := ih b r h
  unfold InvAt at hp ⊢
  rw [qrow_next t t' ht h0] at hp
  rw [em, el, ea, seen_next t t' ht h0]
  exact step_tracks (iblk m c 0 t) (iblk m c 1 t) (iblk m c 2 t) (iblk m c 3 t) (iblk m c 4 t)
    (outsAt0 m c t'.val t'.isLt).2.1 (outsAt0 m c t'.val t'.isLt).2.2.1 (outsAt0 m c t'.val t'.isLt).2.2.2
    (seen t') (σ b h (Blocks.qrow t r)) (fun d K => ν (ix3 b K (col h d))) (keyEmb t) b r h
    (fun k => score_at m c σ hσ t b h r k) (fun d k => value_at m c ν hν t b h k d) (keyEmb_fresh t t' ht h0)
    hp.1 hp.2

theorem inv_nat : ∀ (n : ℕ) (hn : n < cfg0.N) (b : Fin 4) (r : Fin 256) (h : Fin 16), InvAt m c σ ν ⟨n, hn⟩ b r h := by
  intro n
  induction n with
  | zero => exact fun hn => inv_first m c σ ν hσ hν ⟨0, hn⟩ (Nat.zero_mod _)
  | succ n ih =>
    intro hn
    by_cases h0 : (n + 1) % 16 = 0
    · exact inv_first m c σ ν hσ hν ⟨n + 1, hn⟩ h0
    · exact inv_next m c σ ν hσ hν ⟨n + 1, hn⟩ ⟨n, Nat.lt_of_succ_lt hn⟩ rfl h0 (ih _)

/-- After every grid point, for every batch, row of the tile and head, the reference-point buffer's entry tracks the
    keys consumed so far together with the sum buffer's entry and with the unnormalised-result buffer's entries. -/
theorem inv : ∀ (t : Fin cfg0.N) (b : Fin 4) (r : Fin 256) (h : Fin 16), InvAt m c σ ν t b r h :=
  fun t => inv_nat m c σ ν hσ hν t.val t.isLt

end

end Cert.Attn.Kernel

end
-- ==== Proof.FinalArray.lean ====
/- From the invariant of the kernel's run to the result array.

   Grid point t is query tile t / 16 and key block t % 16.  The kernel writes its output block back at the last point of
   every query tile (t % 16 = 15), after dividing the unnormalised result by the sum.  At such a point the invariant has
   consumed all 128 · 16 = 2048 keys of every row of the tile, so the division is the softmax-weighted sum of the values:
   the entry (b, r, 64 h + d) of the block is the attention result for batch b, head h, feature d at query row
   256 (t/16) + r.  The block of that point is rows 256 (t/16) … 256 (t/16) + 255 of the [4, 2048, 1024] array, and the
   blocks of the eight tiles' last points cover the array: row n lies in the block of point 16 (n / 256) + 15. -/
import proofs.«103612_j35940286333141_2_alg».proof.Proof.InvDefs
import proofs.«103612_j35940286333141_2_alg».proof.Proof.Pieces
import proofs.«103612_j35940286333141_2_alg».proof.Proof.ScratchApply
import proofs.«103612_j35940286333141_2_alg».proof.Proof.Gen.KernelIdeal.Value
import Idealize.ShloMosaic.Lib.Pipeline.Value

noncomputable section

namespace Cert.Attn.Kernel

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (c : Dev nD)

/-- At the last point of a query tile the output block is the division of the two buffers the point leaves. -/
theorem out_eq_final (t : Fin cfg0.N) (h1 : t.val % 16 = 15) :
    (outsAt0 m c t.val t.isLt).1 = Scratch.outFinal (outsAt0 m c t.val t.isLt).2.1 (outsAt0 m c t.val t.isLt).2.2.2 := by
  have h0 : ¬t.val % 16 = 0 := by omega
  rw [outsAt0_C m c t h0 h1]
  dsimp only
  rw [out_C_5, sout_C_0, sout_C_2]

/-- After the last key block of a tile every key has been consumed: 128 · 16 = 2048. -/
theorem seen_last (t : Fin cfg0.N) (h1 : t.val % 16 = 15) : seen t = Finset.univ := by
  unfold seen
  rw [h1]
  exact Finset.filter_true_of_mem fun K _ => by have := K.isLt; omega

/-- With real scores σ and real values ν the reference's entry is the softmax-weighted sum of ν over the row. -/
theorem attn_of_real (σ : Fin 4 → Fin 16 → Fin 2048 → Fin 2048 → ℝ) (ν : Cert.Attn.SQ.Idx → ℝ)
    (hσ : ∀ b h q k, Cert.Attn.score (argQ m c) (argK m c) (argM m c) (argR m c) b h q k = ((σ b h q k : ℝ) : EReal))
    (hν : ∀ i, argV m c i = ((ν i : ℝ) : EReal))
    (b : Fin 4) (h : Fin 16) (q : Fin 2048) (d : Fin 64) :
    attn (argQ m c) (argK m c) (argV m c) (argM m c) (argR m c) b h q d
      = ∑ k : Fin 2048, Ideal.div (Ideal.exp (((σ b h q k : ℝ) : EReal) - Finset.univ.sup fun k' => ((σ b h q k' : ℝ) : EReal)))
          (∑ k' : Fin 2048, Ideal.exp (((σ b h q k' : ℝ) : EReal) - Finset.univ.sup fun k'' => ((σ b h q k'' : ℝ) : EReal)))
          * ((ν (ix3 b k (col h d)) : ℝ) : EReal) := by
  unfold attn weight rowMax
  have hs : score (argQ m c) (argK m c) (argM m c) (argR m c) b h q = fun k => ((σ b h q k : ℝ) : EReal) := funext (hσ b h q)
  rw [hs]
  exact Finset.sum_congr rfl fun k _ => by rw [hν]

/-- ONE ENTRY of the output block at the last point of a tile: the tracked unnormalised result over the tracked sum is
    the reference's entry for query row 256 (t/16) + r. -/
theorem out_entry (σ : Fin 4 → Fin 16 → Fin 2048 → Fin 2048 → ℝ) (ν : Cert.Attn.SQ.Idx → ℝ)
    (hσ : ∀ b h q k, Cert.Attn.score (argQ m c) (argK m c) (argM m c) (argR m c) b h q k = ((σ b h q k : ℝ) : EReal))
    (hν : ∀ i, argV m c i = ((ν i : ℝ) : EReal))
    (hinv : ∀ (t : Fin cfg0.N) (b : Fin 4) (r : Fin 256) (h : Fin 16), InvAt m c σ ν t b r h)
    (t : Fin cfg0.N) (h1 : t.val % 16 = 15) (b : Fin 4) (r : Fin 256) (h : Fin 16) (d : Fin 64) :
    (outsAt0 m c t.val t.isLt).1 (ix3 b r (col h d))
      = attn (argQ m c) (argK m c) (argV m c) (argM m c) (argR m c) b h (Blocks.qrow t r) d := by
  rw [out_eq_final m c t h1, Scratch.outFinal_apply, attn_of_real m c σ ν hσ hν]
  obtain ⟨hl, ha⟩ := hinv t b r h
  have ha' := ha d
  rw [seen_last t h1] at hl ha'
  exact Online.Tracks.final hl ha'

/-- WHAT A FLUSHING POINT WRITES BACK is its block of the reference's result array. -/
theorem flushed_eq (σ : Fin 4 → Fin 16 → Fin 2048 → Fin 2048 → ℝ) (ν : Cert.Attn.SQ.Idx → ℝ)
    (hσ : ∀ b h q k, Cert.Attn.score (argQ m c) (argK m c) (argM m c) (argR m c) b h q k = ((σ b h q k : ℝ) : EReal))
    (hν : ∀ i, argV m c i = ((ν i : ℝ) : EReal))
    (hinv : ∀ (t : Fin cfg0.N) (b : Fin 4) (r : Fin 256) (h : Fin 16), InvAt m c σ ν t b r h)
    (t : Fin cfg0.N) (hf : (cfg0.win 5).flush t = true) :
    (dats m 0 c).flushed 5 t
      = ((cfg0.win 5).blk t).view.read (Elt Ideal) (G (argQ m c) (argK m c) (argV m c) (argM m c) (argR m c)) := by
  have h1 : t.val % 16 = 15 := (flush0_5 t).mp hf
  rw [Cert.KernelIdeal.Value.flushed5]
  refine funext fun (y : S4x256x1024.Idx) => ?_
  rw [View.read_apply]
  show (outsAt0 m c t.val t.isLt).1 y
    = G (argQ m c) (argK m c) (argV m c) (argM m c) (argR m c) (((cfg0.win 5).blk t).view.emb y)
  have hemb : ((cfg0.win 5).blk t).view.emb y = ix3 (y 0) (Blocks.qrow t (y 1)) (y 2) := by
    funext a
    apply Fin.ext
    match a with
    | ⟨0, _⟩ => show win0_5.index t 0 * 4 + 1 * (y 0).val = (y 0).val; rw [(Blocks.idx5 t).1]; omega
    | ⟨1, _⟩ => show win0_5.index t 1 * 256 + 1 * (y 1).val = 256 * (t.val / 16) + (y 1).val; rw [(Blocks.idx5 t).2.1]; omega
    | ⟨2, _⟩ => show win0_5.index t 2 * 1024 + 1 * (y 2).val = (y 2).val; rw [(Blocks.idx5 t).2.2]; omega
  rw [hemb]
  have hy : y = ix3 (y 0) (y 1) (col (headOf (y 2)) (featOf (y 2))) :=
    (eq_ix3 y).trans (congrArg (fun x : Fin 1024 => ix3 (y 0) (y 1) x) (col_head_feat (y 2)).symm)
  exact (congrArg (outsAt0 m c t.val t.isLt).1 hy).trans
    (out_entry m c σ ν hσ hν hinv t h1 (y 0) (y 1) (headOf (y 2)) (featOf (y 2)))

/-- An index of the result array is in point t's block iff each coordinate is in the block's range on its axis. -/
theorem mem_blk5 (t : Fin cfg0.N) (i : S4x2048x1024.Idx) :
    i ∈ ((cfg0.win 5).blk t).view.set ↔ ∀ a : Fin 3, win0_5.index t a * S4x256x1024.size a ≤ (i a).val
      ∧ (i a).val < win0_5.index t a * S4x256x1024.size a + S4x256x1024.size a := by
  show i ∈ ((View.whole main_v2).slice (win0_5.rect t)).set ↔ _
  rw [View.set_slice_whole, Rect.mem_set_unit]
  exact Iff.rfl

/-- THE COVER: row n of the result array lies in the block of the last point of query tile n / 256. -/
theorem cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  have hN : cfg0.N = 128 := N_0
  have hlt : 16 * ((i 1).val / 256) + 15 < cfg0.N := by rw [hN]; omega
  obtain ⟨e0, e1, e2⟩ := Blocks.idx5 ⟨16 * ((i 1).val / 256) + 15, hlt⟩
  refine ⟨⟨16 * ((i 1).val / 256) + 15, hlt⟩, (flush0_5 _).mpr (by show (16 * ((i 1).val / 256) + 15) % 16 = 15; omega), ?_⟩
  rw [mem_blk5]
  intro a
  match a with
  | ⟨0, _⟩ =>
    show win0_5.index ⟨16 * ((i 1).val / 256) + 15, hlt⟩ 0 * 4 ≤ (i 0).val
      ∧ (i 0).val < win0_5.index ⟨16 * ((i 1).val / 256) + 15, hlt⟩ 0 * 4 + 4
    rw [e0]; omega
  | ⟨1, _⟩ =>
    show win0_5.index ⟨16 * ((i 1).val / 256) + 15, hlt⟩ 1 * 256 ≤ (i 1).val
      ∧ (i 1).val < win0_5.index ⟨16 * ((i 1).val / 256) + 15, hlt⟩ 1 * 256 + 256
    rw [e1]; show (16 * ((i 1).val / 256) + 15) / 16 * 256 ≤ (i 1).val ∧ (i 1).val < (16 * ((i 1).val / 256) + 15) / 16 * 256 + 256; omega
  | ⟨2, _⟩ =>
    show win0_5.index ⟨16 * ((i 1).val / 256) + 15, hlt⟩ 2 * 1024 ≤ (i 2).val
      ∧ (i 2).val < win0_5.index ⟨16 * ((i 1).val / 256) + 15, hlt⟩ 2 * 1024 + 1024
    rw [e2]; omega

/-- THE RESULT ARRAY after the run is the reference's, when the invariant holds at every point of the run. -/
theorem final_of_inv (σ : Fin 4 → Fin 16 → Fin 2048 → Fin 2048 → ℝ) (ν : Cert.Attn.SQ.Idx → ℝ)
    (hσ : ∀ b h q k, Cert.Attn.score (argQ m c) (argK m c) (argM m c) (argR m c) b h q k = ((σ b h q k : ℝ) : EReal))
    (hν : ∀ i, argV m c i = ((ν i : ℝ) : EReal))
    (hinv : ∀ (t : Fin cfg0.N) (b : Fin 4) (r : Fin 256) (h : Fin 16), InvAt m c σ ν t b r h) :
    (Cert.KernelIdeal.Gen.dats m 0 c).arrAt 5 cfg0.N
      = Cert.Attn.G (argQ m c) (argK m c) (argV m c) (argM m c) (argR m c) :=
  (dats m 0 c).arrAt_eq_of_cover 5 (G (argQ m c) (argK m c) (argV m c) (argM m c) (argR m c))
    (fun t hf => flushed_eq m c σ ν hσ hν hinv t hf) cover5

end Cert.Attn.Kernel

end
-- ==== Proof.lean ====
/- The certificate of a tiled attention kernel against its plain reference.

   Both programs compute, for every batch b, head h, query row q and feature d,
     out[b, q, 64 h + d] = Σ_k softmax_k( (⟨Q[b,q,h,:], K[b,k,h,:]⟩ - mask[b,q,k] + rel[h,q,k]) / 8 ) · V[b, k, 64 h + d].
   The reference forms the whole row of scores, subtracts its maximum, exponentiates, divides by the row sum and
   then contracts against V.  The kernel walks the keys in 16 blocks of 128, keeping per row a running maximum m
   (started at a finite value), a running sum l and a running unnormalised result acc, each rescaled by
   exp(m_old - m_new) when the maximum moves; at the last block it multiplies acc by 1 / l.  Over the reals the
   rescalings telescope (exp a · exp b = exp (a + b)), so after the last block l = Σ_k exp (s_k - m) and
   acc = Σ_k exp (s_k - m) v_k for the final m, and the quotient does not depend on m: it is the reference's. -/
import proofs.«103612_j35940286333141_2_alg».proof.Defs
import proofs.«103612_j35940286333141_2_alg».proof.Proof.Gen.Kernel
import proofs.«103612_j35940286333141_2_alg».proof.Proof.Gen.Kernel.Skeleton
import proofs.«103612_j35940286333141_2_alg».proof.Proof.Gen.Kernel.Launch
import proofs.«103612_j35940286333141_2_alg».proof.Proof.Gen.Kernel.Points
import proofs.«103612_j35940286333141_2_alg».proof.Proof.Gen.Kernel.Frame
import proofs.«103612_j35940286333141_2_alg».proof.Proof.Gen.KernelIdeal
import proofs.«103612_j35940286333141_2_alg».proof.Proof.Gen.KernelIdeal.Skeleton
import proofs.«103612_j35940286333141_2_alg».proof.Proof.Gen.KernelIdeal.Launch
import proofs.«103612_j35940286333141_2_alg».proof.Proof.Gen.KernelIdeal.Points
import proofs.«103612_j35940286333141_2_alg».proof.Proof.Gen.KernelIdeal.Frame
import proofs.«103612_j35940286333141_2_alg».proof.Proof.Gen.KernelIdeal.Value
import proofs.«103612_j35940286333141_2_alg».proof.Proof.Gen.ReferenceIdeal
import proofs.«103612_j35940286333141_2_alg».proof.Proof.Gen.ReferenceIdeal.Run
import proofs.«103612_j35940286333141_2_alg».proof.Proof.Gen.ReferenceIdeal.Read
import proofs.«103612_j35940286333141_2_alg».proof.Proof.Gen.Pre_finite_inputs
import proofs.«103612_j35940286333141_2_alg».proof.Proof.RefSpec
import proofs.«103612_j35940286333141_2_alg».proof.Proof.Finite
import proofs.«103612_j35940286333141_2_alg».proof.Proof.ScoreReal
import proofs.«103612_j35940286333141_2_alg».proof.Proof.Invariant
import proofs.«103612_j35940286333141_2_alg».proof.Proof.FinalArray
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of arguments that agree.  The kernel: the precondition makes every
    entry of every argument a real number, hence every score and every value; the invariant of the run over the key
    blocks then holds, and the last key block of each query tile writes the softmax-weighted sums.  The reference: its
    operations, read one at a time, are the specification's formula. -/
theorem algebraic : Cert.algebraic_KernelIdeal_ReferenceIdeal := by
  intro m ρ m' ρ' hpre hagree
  refine ⟨fun c => Cert.Attn.G (Cert.Attn.Kernel.argQ m c) (Cert.Attn.Kernel.argK m c) (Cert.Attn.Kernel.argV m c)
    (Cert.Attn.Kernel.argM m c) (Cert.Attn.Kernel.argR m c), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h2, h3, h4⟩ := Cert.Attn.Fin.real_of_pre _ _ _ _ _ (hpre c)
    obtain ⟨σ, hσ⟩ := Cert.Attn.Real.score_real (Cert.Attn.Kernel.argQ m c) (Cert.Attn.Kernel.argK m c)
      (Cert.Attn.Kernel.argM m c) (Cert.Attn.Kernel.argR m c) h0 h1 h3 h4
    obtain ⟨ν, hν⟩ := Cert.Attn.Real.value_real (Cert.Attn.Kernel.argV m c) h2
    exact Cert.Attn.Kernel.final_of_inv m c σ ν hσ hν (Cert.Attn.Kernel.inv m c σ ν hσ hν)
  · refine (θ_run Cert.ReferenceIdeal.defs _ _).mono (fun r h c => ⟨?_, (h c).2⟩)
      (Cert.ReferenceIdeal.Value.run (F := Ideal) m' ρ')
    rw [(h c).1, Cert.ReferenceIdeal.Read.val_main_v26_eq, Cert.Attn.Ref.ref_eq, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
